-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v225)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v225) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32x20 : Shape := ⟨3, ![4096, 32, 20]⟩
abbrev S1000000x16 : Shape := ⟨2, ![1000000, 16]⟩
abbrev S512 : Shape := ⟨1, ![512]⟩
abbrev S512x1024 : Shape := ⟨2, ![512, 1024]⟩
abbrev S1024 : Shape := ⟨1, ![1024]⟩
abbrev S1024x512 : Shape := ⟨2, ![1024, 512]⟩
abbrev S512x256 : Shape := ⟨2, ![512, 256]⟩
abbrev S256 : Shape := ⟨1, ![256]⟩
abbrev S_ : Shape := ⟨0, ![]⟩

class Facts : Prop where
  bcast_S_S1000000x16 : S_.BroadcastsInDim S1000000x16 (![] : Fin 0 → Fin S1000000x16.rank)
  reducesTo_S1000000x16_S_d0_1 : S1000000x16.ReducesTo [0, 1] S_
  h_S_ : 0 < S_.numel
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S512x256 .f32) (main_arg9 : FVec F S256 .f32) (main_v33 : IVec S_ 1) : IVec S_ 1 :=
  let main_v34 : FVec F S512x256 .f32 := Host.absf main_arg8
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg5 : FVec F S1024 .f32) (main_arg6 : FVec F S1024x512 .f32) (main_arg7 : FVec F S512 .f32) (main_arg8 : FVec F S512x256 .f32) (main_arg9 : FVec F S256 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x512 .f32 := Host.absf main_arg6
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_v33

def fn {F : FTy → Type} [FloatOps F] (main_arg0 : IVec S4096x32x20 32) (main_arg1 : FVec F S1000000x16 .f32) (main_arg2 : FVec F S512 .f32) (main_arg3 : FVec F S512 .f32) (main_arg4 : FVec F S512x1024 .f32) (main_arg5 : FVec F S1024 .f32) (main_arg6 : FVec F S1024x512 .f32) (main_arg7 : FVec F S512 .f32) (main_arg8 : FVec F S512x256 .f32) (main_arg9 : FVec F S256 .f32) : IVec S_ 1 :=
  let main_v0 : FVec F S1000000x16 .f32 := Host.absf main_arg1
  let main_cst : FVec F S_ .f32 := constant S_ .f32 0x7F800000#32
  let main_v1 : FVec F S1000000x16 .f32 := broadcastInDim S1000000x16 ![] bcast_S_S1000000x16 main_cst
  let main_v2 : IVec S1000000x16 1 := cmpf .olt main_v0 main_v1
  let main_c : IVec S_ 1 := constantI S_ 1 1#1
  let main_v3 : IVec S_ 1 := (fun x v => Host.reduce IntOp.andi x v reducesTo_S1000000x16_S_d0_1 h_S_) main_v2 main_c
  let main_v4 : FVec F S512 .f32 := Host.absf main_arg2
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x1024 .f32 := Host.absf main_arg4
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg5 main_arg6 main_arg7 main_arg8 main_arg9 main_v13 main_v16
-- ==== Kernel.lean ====
abbrev S4096x32x20 : Shape := ⟨3, ![4096, 32, 20]⟩
abbrev S1000000x16 : Shape := ⟨2, ![1000000, 16]⟩
abbrev S512 : Shape := ⟨1, ![512]⟩
abbrev S512x1024 : Shape := ⟨2, ![512, 1024]⟩
abbrev S1024 : Shape := ⟨1, ![1024]⟩
abbrev S1024x512 : Shape := ⟨2, ![1024, 512]⟩
abbrev S512x256 : Shape := ⟨2, ![512, 256]⟩
abbrev S256 : Shape := ⟨1, ![256]⟩
abbrev S_ : Shape := ⟨0, ![]⟩
abbrev S4096x32x16 : Shape := ⟨3, ![4096, 32, 16]⟩
abbrev S4096x32x1 : Shape := ⟨3, ![4096, 32, 1]⟩
abbrev S4096x32 : Shape := ⟨2, ![4096, 32]⟩
abbrev S4096x512 : Shape := ⟨2, ![4096, 512]⟩
abbrev S1x512 : Shape := ⟨2, ![1, 512]⟩
abbrev S512x512 : Shape := ⟨2, ![512, 512]⟩
abbrev S1x1024 : Shape := ⟨2, ![1, 1024]⟩
abbrev S1x256 : Shape := ⟨2, ![1, 256]⟩
abbrev S4096x256 : Shape := ⟨2, ![4096, 256]⟩
abbrev S1024x256 : Shape := ⟨2, ![1024, 256]⟩
abbrev S1024x1024 : Shape := ⟨2, ![1024, 1024]⟩

abbrev nBuf : Space → Nat
  | .hbm => 282
  | .vmem => 16
  | .smem => 0
  | _ => 0

abbrev hbmTy0_0 (i : Nat) : BufTy := match i % 128 with
  | 0 => ⟨S4096x32x20, .i32⟩
  | 1 => ⟨S1000000x16, .f32⟩
  | 2 => ⟨S512, .f32⟩
  | 3 => ⟨S512, .f32⟩
  | 4 => ⟨S512x1024, .f32⟩
  | 5 => ⟨S1024, .f32⟩
  | 6 => ⟨S1024x512, .f32⟩
  | 7 => ⟨S512, .f32⟩
  | 8 => ⟨S512x256, .f32⟩
  | 9 => ⟨S256, .f32⟩
  | 10 => ⟨S_, .f32⟩
  | 11 => ⟨S4096x32x16, .f32⟩
  | 12 => ⟨S4096x32x1, .i32⟩
  | 13 => ⟨S4096x32, .i32⟩
  | 14 => ⟨S_, .i32⟩
  | 15 => ⟨S4096x32, .i32⟩
  | 16 => ⟨S4096x32, .i1⟩
  | 17 => ⟨S_, .i32⟩
  | 18 => ⟨S4096x32, .i32⟩
  | 19 => ⟨S4096x32, .i32⟩
  | 20 => ⟨S4096x32, .i32⟩
  | 21 => ⟨S4096x32x1, .i32⟩
  | 22 => ⟨S4096x32x16, .f32⟩
  | 23 => ⟨S4096x32x16, .f32⟩
  | 24 => ⟨S4096x32x1, .i32⟩
  | 25 => ⟨S4096x32, .i32⟩
  | 26 => ⟨S_, .i32⟩
  | 27 => ⟨S4096x32, .i32⟩
  | 28 => ⟨S4096x32, .i1⟩
  | 29 => ⟨S_, .i32⟩
  | 30 => ⟨S4096x32, .i32⟩
  | 31 => ⟨S4096x32, .i32⟩
  | 32 => ⟨S4096x32, .i32⟩
  | 33 => ⟨S4096x32x1, .i32⟩
  | 34 => ⟨S4096x32x16, .f32⟩
  | 35 => ⟨S4096x32x16, .f32⟩
  | 36 => ⟨S4096x32x1, .i32⟩
  | 37 => ⟨S4096x32, .i32⟩
  | 38 => ⟨S_, .i32⟩
  | 39 => ⟨S4096x32, .i32⟩
  | 40 => ⟨S4096x32, .i1⟩
  | 41 => ⟨S_, .i32⟩
  | 42 => ⟨S4096x32, .i32⟩
  | 43 => ⟨S4096x32, .i32⟩
  | 44 => ⟨S4096x32, .i32⟩
  | 45 => ⟨S4096x32x1, .i32⟩
  | 46 => ⟨S4096x32x16, .f32⟩
  | 47 => ⟨S4096x32x16, .f32⟩
  | 48 => ⟨S4096x32x1, .i32⟩
  | 49 => ⟨S4096x32, .i32⟩
  | 50 => ⟨S_, .i32⟩
  | 51 => ⟨S4096x32, .i32⟩
  | 52 => ⟨S4096x32, .i1⟩
  | 53 => ⟨S_, .i32⟩
  | 54 => ⟨S4096x32, .i32⟩
  | 55 => ⟨S4096x32, .i32⟩
  | 56 => ⟨S4096x32, .i32⟩
  | 57 => ⟨S4096x32x1, .i32⟩
  | 58 => ⟨S4096x32x16, .f32⟩
  | 59 => ⟨S4096x32x16, .f32⟩
  | 60 => ⟨S4096x32x1, .i32⟩
  | 61 => ⟨S4096x32, .i32⟩
  | 62 => ⟨S_, .i32⟩
  | 63 => ⟨S4096x32, .i32⟩
  | 64 => ⟨S4096x32, .i1⟩
  | 65 => ⟨S_, .i32⟩
  | 66 => ⟨S4096x32, .i32⟩
  | 67 => ⟨S4096x32, .i32⟩
  | 68 => ⟨S4096x32, .i32⟩
  | 69 => ⟨S4096x32x1, .i32⟩
  | 70 => ⟨S4096x32x16, .f32⟩
  | 71 => ⟨S4096x32x16, .f32⟩
  | 72 => ⟨S4096x32x1, .i32⟩
  | 73 => ⟨S4096x32, .i32⟩
  | 74 => ⟨S_, .i32⟩
  | 75 => ⟨S4096x32, .i32⟩
  | 76 => ⟨S4096x32, .i1⟩
  | 77 => ⟨S_, .i32⟩
  | 78 => ⟨S4096x32, .i32⟩
  | 79 => ⟨S4096x32, .i32⟩
  | 80 => ⟨S4096x32, .i32⟩
  | 81 => ⟨S4096x32x1, .i32⟩
  | 82 => ⟨S4096x32x16, .f32⟩
  | 83 => ⟨S4096x32x16, .f32⟩
  | 84 => ⟨S4096x32x1, .i32⟩
  | 85 => ⟨S4096x32, .i32⟩
  | 86 => ⟨S_, .i32⟩
  | 87 => ⟨S4096x32, .i32⟩
  | 88 => ⟨S4096x32, .i1⟩
  | 89 => ⟨S_, .i32⟩
  | 90 => ⟨S4096x32, .i32⟩
  | 91 => ⟨S4096x32, .i32⟩
  | 92 => ⟨S4096x32, .i32⟩
  | 93 => ⟨S4096x32x1, .i32⟩
  | 94 => ⟨S4096x32x16, .f32⟩
  | 95 => ⟨S4096x32x16, .f32⟩
  | 96 => ⟨S4096x32x1, .i32⟩
  | 97 => ⟨S4096x32, .i32⟩
  | 98 => ⟨S_, .i32⟩
  | 99 => ⟨S4096x32, .i32⟩
  | 100 => ⟨S4096x32, .i1⟩
  | 101 => ⟨S_, .i32⟩
  | 102 => ⟨S4096x32, .i32⟩
  | 103 => ⟨S4096x32, .i32⟩
  | 104 => ⟨S4096x32, .i32⟩
  | 105 => ⟨S4096x32x1, .i32⟩
  | 106 => ⟨S4096x32x16, .f32⟩
  | 107 => ⟨S4096x32x16, .f32⟩
  | 108 => ⟨S4096x32x1, .i32⟩
  | 109 => ⟨S4096x32, .i32⟩
  | 110 => ⟨S_, .i32⟩
  | 111 => ⟨S4096x32, .i32⟩
  | 112 => ⟨S4096x32, .i1⟩
  | 113 => ⟨S_, .i32⟩
  | 114 => ⟨S4096x32, .i32⟩
  | 115 => ⟨S4096x32, .i32⟩
  | 116 => ⟨S4096x32, .i32⟩
  | 117 => ⟨S4096x32x1, .i32⟩
  | 118 => ⟨S4096x32x16, .f32⟩
  | 119 => ⟨S4096x32x16, .f32⟩
  | 120 => ⟨S4096x32x1, .i32⟩
  | 121 => ⟨S4096x32, .i32⟩
  | 122 => ⟨S_, .i32⟩
  | 123 => ⟨S4096x32, .i32⟩
  | 124 => ⟨S4096x32, .i1⟩
  | 125 => ⟨S_, .i32⟩
  | 126 => ⟨S4096x32, .i32⟩
  | 127 => ⟨S4096x32, .i32⟩
  | _ => ⟨S4096x32x20, .i32⟩

abbrev hbmTy0_1 (i : Nat) : BufTy := match i % 128 with
  | 0 => ⟨S4096x32, .i32⟩
  | 1 => ⟨S4096x32x1, .i32⟩
  | 2 => ⟨S4096x32x16, .f32⟩
  | 3 => ⟨S4096x32x16, .f32⟩
  | 4 => ⟨S4096x32x1, .i32⟩
  | 5 => ⟨S4096x32, .i32⟩
  | 6 => ⟨S_, .i32⟩
  | 7 => ⟨S4096x32, .i32⟩
  | 8 => ⟨S4096x32, .i1⟩
  | 9 => ⟨S_, .i32⟩
  | 10 => ⟨S4096x32, .i32⟩
  | 11 => ⟨S4096x32, .i32⟩
  | 12 => ⟨S4096x32, .i32⟩
  | 13 => ⟨S4096x32x1, .i32⟩
  | 14 => ⟨S4096x32x16, .f32⟩
  | 15 => ⟨S4096x32x16, .f32⟩
  | 16 => ⟨S4096x32x1, .i32⟩
  | 17 => ⟨S4096x32, .i32⟩
  | 18 => ⟨S_, .i32⟩
  | 19 => ⟨S4096x32, .i32⟩
  | 20 => ⟨S4096x32, .i1⟩
  | 21 => ⟨S_, .i32⟩
  | 22 => ⟨S4096x32, .i32⟩
  | 23 => ⟨S4096x32, .i32⟩
  | 24 => ⟨S4096x32, .i32⟩
  | 25 => ⟨S4096x32x1, .i32⟩
  | 26 => ⟨S4096x32x16, .f32⟩
  | 27 => ⟨S4096x32x16, .f32⟩
  | 28 => ⟨S4096x32x1, .i32⟩
  | 29 => ⟨S4096x32, .i32⟩
  | 30 => ⟨S_, .i32⟩
  | 31 => ⟨S4096x32, .i32⟩
  | 32 => ⟨S4096x32, .i1⟩
  | 33 => ⟨S_, .i32⟩
  | 34 => ⟨S4096x32, .i32⟩
  | 35 => ⟨S4096x32, .i32⟩
  | 36 => ⟨S4096x32, .i32⟩
  | 37 => ⟨S4096x32x1, .i32⟩
  | 38 => ⟨S4096x32x16, .f32⟩
  | 39 => ⟨S4096x32x16, .f32⟩
  | 40 => ⟨S4096x32x1, .i32⟩
  | 41 => ⟨S4096x32, .i32⟩
  | 42 => ⟨S_, .i32⟩
  | 43 => ⟨S4096x32, .i32⟩
  | 44 => ⟨S4096x32, .i1⟩
  | 45 => ⟨S_, .i32⟩
  | 46 => ⟨S4096x32, .i32⟩
  | 47 => ⟨S4096x32, .i32⟩
  | 48 => ⟨S4096x32, .i32⟩
  | 49 => ⟨S4096x32x1, .i32⟩
  | 50 => ⟨S4096x32x16, .f32⟩
  | 51 => ⟨S4096x32x16, .f32⟩
  | 52 => ⟨S4096x32x1, .i32⟩
  | 53 => ⟨S4096x32, .i32⟩
  | 54 => ⟨S_, .i32⟩
  | 55 => ⟨S4096x32, .i32⟩
  | 56 => ⟨S4096x32, .i1⟩
  | 57 => ⟨S_, .i32⟩
  | 58 => ⟨S4096x32, .i32⟩
  | 59 => ⟨S4096x32, .i32⟩
  | 60 => ⟨S4096x32, .i32⟩
  | 61 => ⟨S4096x32x1, .i32⟩
  | 62 => ⟨S4096x32x16, .f32⟩
  | 63 => ⟨S4096x32x16, .f32⟩
  | 64 => ⟨S4096x32x1, .i32⟩
  | 65 => ⟨S4096x32, .i32⟩
  | 66 => ⟨S_, .i32⟩
  | 67 => ⟨S4096x32, .i32⟩
  | 68 => ⟨S4096x32, .i1⟩
  | 69 => ⟨S_, .i32⟩
  | 70 => ⟨S4096x32, .i32⟩
  | 71 => ⟨S4096x32, .i32⟩
  | 72 => ⟨S4096x32, .i32⟩
  | 73 => ⟨S4096x32x1, .i32⟩
  | 74 => ⟨S4096x32x16, .f32⟩
  | 75 => ⟨S4096x32x16, .f32⟩
  | 76 => ⟨S4096x32x1, .i32⟩
  | 77 => ⟨S4096x32, .i32⟩
  | 78 => ⟨S_, .i32⟩
  | 79 => ⟨S4096x32, .i32⟩
  | 80 => ⟨S4096x32, .i1⟩
  | 81 => ⟨S_, .i32⟩
  | 82 => ⟨S4096x32, .i32⟩
  | 83 => ⟨S4096x32, .i32⟩
  | 84 => ⟨S4096x32, .i32⟩
  | 85 => ⟨S4096x32x1, .i32⟩
  | 86 => ⟨S4096x32x16, .f32⟩
  | 87 => ⟨S4096x32x16, .f32⟩
  | 88 => ⟨S4096x32x1, .i32⟩
  | 89 => ⟨S4096x32, .i32⟩
  | 90 => ⟨S_, .i32⟩
  | 91 => ⟨S4096x32, .i32⟩
  | 92 => ⟨S4096x32, .i1⟩
  | 93 => ⟨S_, .i32⟩
  | 94 => ⟨S4096x32, .i32⟩
  | 95 => ⟨S4096x32, .i32⟩
  | 96 => ⟨S4096x32, .i32⟩
  | 97 => ⟨S4096x32x1, .i32⟩
  | 98 => ⟨S4096x32x16, .f32⟩
  | 99 => ⟨S4096x32x16, .f32⟩
  | 100 => ⟨S4096x32x1, .i32⟩
  | 101 => ⟨S4096x32, .i32⟩
  | 102 => ⟨S_, .i32⟩
  | 103 => ⟨S4096x32, .i32⟩
  | 104 => ⟨S4096x32, .i1⟩
  | 105 => ⟨S_, .i32⟩
  | 106 => ⟨S4096x32, .i32⟩
  | 107 => ⟨S4096x32, .i32⟩
  | 108 => ⟨S4096x32, .i32⟩
  | 109 => ⟨S4096x32x1, .i32⟩
  | 110 => ⟨S4096x32x16, .f32⟩
  | 111 => ⟨S4096x32x16, .f32⟩
  | 112 => ⟨S4096x32x1, .i32⟩
  | 113 => ⟨S4096x32, .i32⟩
  | 114 => ⟨S_, .i32⟩
  | 115 => ⟨S4096x32, .i32⟩
  | 116 => ⟨S4096x32, .i1⟩
  | 117 => ⟨S_, .i32⟩
  | 118 => ⟨S4096x32, .i32⟩
  | 119 => ⟨S4096x32, .i32⟩
  | 120 => ⟨S4096x32, .i32⟩
  | 121 => ⟨S4096x32x1, .i32⟩
  | 122 => ⟨S4096x32x16, .f32⟩
  | 123 => ⟨S4096x32x16, .f32⟩
  | 124 => ⟨S4096x512, .f32⟩
  | 125 => ⟨S1x512, .f32⟩
  | 126 => ⟨S1x512, .f32⟩
  | 127 => ⟨S_, .f32⟩
  | _ => ⟨S4096x32x20, .i32⟩

abbrev hbmTy0_2 (i : Nat) : BufTy := match i % 128 with
  | 0 => ⟨S1x512, .f32⟩
  | 1 => ⟨S1x512, .f32⟩
  | 2 => ⟨S_, .f32⟩
  | 3 => ⟨S1x512, .f32⟩
  | 4 => ⟨S1x512, .f32⟩
  | 5 => ⟨S1x512, .f32⟩
  | 6 => ⟨S1x512, .f32⟩
  | 7 => ⟨S_, .f32⟩
  | 8 => ⟨S1x512, .f32⟩
  | 9 => ⟨S1x512, .f32⟩
  | 10 => ⟨S1x512, .f32⟩
  | 11 => ⟨S_, .f32⟩
  | 12 => ⟨S1x512, .f32⟩
  | 13 => ⟨S1x512, .f32⟩
  | 14 => ⟨S1x512, .f32⟩
  | 15 => ⟨S1x512, .f32⟩
  | 16 => ⟨S1x512, .f32⟩
  | 17 => ⟨S1x512, .f32⟩
  | 18 => ⟨S1x512, .f32⟩
  | 19 => ⟨S512x1024, .bf16⟩
  | 20 => ⟨S1024x512, .bf16⟩
  | 21 => ⟨S512x256, .bf16⟩
  | 22 => ⟨S1x1024, .f32⟩
  | 23 => ⟨S1x512, .f32⟩
  | 24 => ⟨S1x256, .f32⟩
  | 25 => ⟨S4096x256, .f32⟩
  | _ => ⟨S4096x32x20, .i32⟩

abbrev hbmTy (i : Nat) : BufTy := match i / 128 with
  | 0 => hbmTy0_0 i
  | 1 => hbmTy0_1 i
  | 2 => hbmTy0_2 i
  | _ => ⟨S4096x32x20, .i32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S1x512, .f32⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S512x1024, .bf16⟩
  | .local _ .vmem, ⟨9, _⟩ => ⟨S1x1024, .f32⟩
  | .local _ .vmem, ⟨10, _⟩ => ⟨S1024x512, .bf16⟩
  | .local _ .vmem, ⟨11, _⟩ => ⟨S1x512, .f32⟩
  | .local _ .vmem, ⟨12, _⟩ => ⟨S512x256, .bf16⟩
  | .local _ .vmem, ⟨13, _⟩ => ⟨S1x256, .f32⟩
  | .local _ .vmem, ⟨14, _⟩ => ⟨S1024x256, .f32⟩
  | .local _ .vmem, ⟨15, _⟩ => ⟨S1024x256, .f32⟩
  | _, _ => ⟨S4096x32x20, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_7 : Ref sig .tc := ⟨.hbm, 62, rfl⟩
abbrev main_v43 : Ref sig .tc := ⟨.hbm, 63, rfl⟩
abbrev main_v44 : Ref sig .tc := ⟨.hbm, 64, rfl⟩
abbrev main_c_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_9 : Ref sig .tc := ⟨.hbm, 74, rfl⟩
abbrev main_v53 : Ref sig .tc := ⟨.hbm, 75, rfl⟩
abbrev main_v54 : Ref sig .tc := ⟨.hbm, 76, rfl⟩
abbrev main_c_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_11 : Ref sig .tc := ⟨.hbm, 86, rfl⟩
abbrev main_v63 : Ref sig .tc := ⟨.hbm, 87, rfl⟩
abbrev main_v64 : Ref sig .tc := ⟨.hbm, 88, rfl⟩
abbrev main_c_12 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_13 : Ref sig .tc := ⟨.hbm, 98, rfl⟩
abbrev main_v73 : Ref sig .tc := ⟨.hbm, 99, rfl⟩
abbrev main_v74 : Ref sig .tc := ⟨.hbm, 100, rfl⟩
abbrev main_c_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_c_15 : Ref sig .tc := ⟨.hbm, 110, rfl⟩
abbrev main_v83 : Ref sig .tc := ⟨.hbm, 111, rfl⟩
abbrev main_v84 : Ref sig .tc := ⟨.hbm, 112, rfl⟩
abbrev main_c_16 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_c_17 : Ref sig .tc := ⟨.hbm, 122, rfl⟩
abbrev main_v93 : Ref sig .tc := ⟨.hbm, 123, rfl⟩
abbrev main_v94 : Ref sig .tc := ⟨.hbm, 124, rfl⟩
abbrev main_c_18 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_c_19 : Ref sig .tc := ⟨.hbm, 134, rfl⟩
abbrev main_v103 : Ref sig .tc := ⟨.hbm, 135, rfl⟩
abbrev main_v104 : Ref sig .tc := ⟨.hbm, 136, rfl⟩
abbrev main_c_20 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_c_21 : Ref sig .tc := ⟨.hbm, 146, rfl⟩
abbrev main_v113 : Ref sig .tc := ⟨.hbm, 147, rfl⟩
abbrev main_v114 : Ref sig .tc := ⟨.hbm, 148, rfl⟩
abbrev main_c_22 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_c_23 : Ref sig .tc := ⟨.hbm, 158, rfl⟩
abbrev main_v123 : Ref sig .tc := ⟨.hbm, 159, rfl⟩
abbrev main_v124 : Ref sig .tc := ⟨.hbm, 160, rfl⟩
abbrev main_c_24 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_c_25 : Ref sig .tc := ⟨.hbm, 170, rfl⟩
abbrev main_v133 : Ref sig .tc := ⟨.hbm, 171, rfl⟩
abbrev main_v134 : Ref sig .tc := ⟨.hbm, 172, rfl⟩
abbrev main_c_26 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_c_27 : Ref sig .tc := ⟨.hbm, 182, rfl⟩
abbrev main_v143 : Ref sig .tc := ⟨.hbm, 183, rfl⟩
abbrev main_v144 : Ref sig .tc := ⟨.hbm, 184, rfl⟩
abbrev main_c_28 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_c_29 : Ref sig .tc := ⟨.hbm, 194, rfl⟩
abbrev main_v153 : Ref sig .tc := ⟨.hbm, 195, rfl⟩
abbrev main_v154 : Ref sig .tc := ⟨.hbm, 196, rfl⟩
abbrev main_c_30 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_c_31 : Ref sig .tc := ⟨.hbm, 206, rfl⟩
abbrev main_v163 : Ref sig .tc := ⟨.hbm, 207, rfl⟩
abbrev main_v164 : Ref sig .tc := ⟨.hbm, 208, rfl⟩
abbrev main_c_32 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_c_33 : Ref sig .tc := ⟨.hbm, 218, rfl⟩
abbrev main_v173 : Ref sig .tc := ⟨.hbm, 219, rfl⟩
abbrev main_v174 : Ref sig .tc := ⟨.hbm, 220, rfl⟩
abbrev main_c_34 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_c_35 : Ref sig .tc := ⟨.hbm, 230, rfl⟩
abbrev main_v183 : Ref sig .tc := ⟨.hbm, 231, rfl⟩
abbrev main_v184 : Ref sig .tc := ⟨.hbm, 232, rfl⟩
abbrev main_c_36 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_c_37 : Ref sig .tc := ⟨.hbm, 242, rfl⟩
abbrev main_v193 : Ref sig .tc := ⟨.hbm, 243, rfl⟩
abbrev main_v194 : Ref sig .tc := ⟨.hbm, 244, rfl⟩
abbrev main_c_38 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202_0 : Ref sig .tc := ⟨.hbm, 253, rfl⟩
abbrev main_v202_1 : Ref sig .tc := ⟨.hbm, 254, rfl⟩
abbrev main_cst_39 : Ref sig .tc := ⟨.hbm, 255, rfl⟩
abbrev main_v203 : Ref sig .tc := ⟨.hbm, 256, rfl⟩
abbrev main_v204 : Ref sig .tc := ⟨.hbm, 257, rfl⟩
abbrev main_cst_40 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_v208 : Ref sig .tc := ⟨.hbm, 262, rfl⟩
abbrev main_cst_41 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_cst_42 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg8_0 : Ref sig .tc := ⟨.vmem, 13, rfl⟩
abbrev cc1_stg9_0 : Ref sig .tc := ⟨.vmem, 14, rfl⟩
abbrev cc1_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem9_0 : DmaSem sig := 14
abbrev cc1_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x256 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1024x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S_S4096x32x16 : S_.BroadcastsInDim S4096x32x16 (![] : Fin 0 → Fin S4096x32x16.rank)
  slices_S4096x32x20_S4096x32x1_0_0_0 : S4096x32x20.Slices ![0, 0, 0] S4096x32x1
  shapeCasts_S4096x32x1_S4096x32 : S4096x32x1.ShapeCasts S4096x32
  bcast_S_S4096x32 : S_.BroadcastsInDim S4096x32 (![] : Fin 0 → Fin S4096x32.rank)
  bcast_S4096x32_S4096x32x1_0_1 : S4096x32.BroadcastsInDim S4096x32x1 (![0, 1] : Fin 2 → Fin S4096x32x1.rank)
  slices_S4096x32x20_S4096x32x1_0_0_1 : S4096x32x20.Slices ![0, 0, 1] S4096x32x1
  slices_S4096x32x20_S4096x32x1_0_0_2 : S4096x32x20.Slices ![0, 0, 2] S4096x32x1
  slices_S4096x32x20_S4096x32x1_0_0_3 : S4096x32x20.Slices ![0, 0, 3] S4096x32x1
  slices_S4096x32x20_S4096x32x1_0_0_4 : S4096x32x20.Slices ![0, 0, 4] S4096x32x1
  slices_S4096x32x20_S4096x32x1_0_0_5 : S4096x32x20.Slices ![0, 0, 5] S4096x32x1
  slices_S4096x32x20_S4096x32x1_0_0_6 : S4096x32x20.Slices ![0, 0, 6] S4096x32x1
  slices_S4096x32x20_S4096x32x1_0_0_7 : S4096x32x20.Slices ![0, 0, 7] S4096x32x1
  slices_S4096x32x20_S4096x32x1_0_0_8 : S4096x32x20.Slices ![0, 0, 8] S4096x32x1
  slices_S4096x32x20_S4096x32x1_0_0_9 : S4096x32x20.Slices ![0, 0, 9] S4096x32x1
  slices_S4096x32x20_S4096x32x1_0_0_10 : S4096x32x20.Slices ![0, 0, 10] S4096x32x1
  slices_S4096x32x20_S4096x32x1_0_0_11 : S4096x32x20.Slices ![0, 0, 11] S4096x32x1
  slices_S4096x32x20_S4096x32x1_0_0_12 : S4096x32x20.Slices ![0, 0, 12] S4096x32x1
  slices_S4096x32x20_S4096x32x1_0_0_13 : S4096x32x20.Slices ![0, 0, 13] S4096x32x1
  slices_S4096x32x20_S4096x32x1_0_0_14 : S4096x32x20.Slices ![0, 0, 14] S4096x32x1
  slices_S4096x32x20_S4096x32x1_0_0_15 : S4096x32x20.Slices ![0, 0, 15] S4096x32x1
  slices_S4096x32x20_S4096x32x1_0_0_16 : S4096x32x20.Slices ![0, 0, 16] S4096x32x1
  slices_S4096x32x20_S4096x32x1_0_0_17 : S4096x32x20.Slices ![0, 0, 17] S4096x32x1
  slices_S4096x32x20_S4096x32x1_0_0_18 : S4096x32x20.Slices ![0, 0, 18] S4096x32x1
  slices_S4096x32x20_S4096x32x1_0_0_19 : S4096x32x20.Slices ![0, 0, 19] S4096x32x1
  shapeCasts_S4096x32x16_S4096x512 : S4096x32x16.ShapeCasts S4096x512
  inb_S1x512_S1x512_0_0 : ∀ a, (![0, 0] : Fin 2 → Nat) a + S1x512.size a ≤ S1x512.size a
  h_S1x512 : 0 < S1x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S1x512_S1x512 : S1x512.ShapeCasts S1x512
  reduces_S512x512_S512 : S512x512.Reduces [0] S512
  shapeCasts_S512_S1x512 : S512.ShapeCasts S1x512
  bcast_S_S1x512 : S_.BroadcastsInDim S1x512 (![] : Fin 0 → Fin S1x512.rank)
  bitsLt_bf16_f32 : FTy.bits .bf16 < FTy.bits .f32
  shapeCasts_S1024_S1x1024 : S1024.ShapeCasts S1x1024
  shapeCasts_S256_S1x256 : S256.ShapeCasts S1x256
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  broadcasts_S1x512_S1024x512 : S1x512.Broadcasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  gather_S1000000x16_S4096x32x1_S4096x32x16_2_0_n_n_0_2_116_wf : GatherDims.WF S1000000x16 S4096x32x1 S4096x32x16 [2] [0] [] [0] [] 2 ![1, 16]
  dot_S1024x512_S512x1024_S1024x1024_1_0_0_1_n_n_wf : DotDims.WF S1024x512 S512x1024 S1024x1024 [1] [0] [0] [1] [] []
  dot_S1024x1024_S1024x512_S1024x512_1_0_0_1_n_n_wf : DotDims.WF S1024x1024 S1024x512 S1024x512 [1] [0] [0] [1] [] []
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x512.size a
  hwx1_0 : ∀ i : grid1.Coords, EltTy.bits .f32 = 32 ∨ (Rect.block (s := S4096x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S512x1024.size a
  hwx1_3 : ∀ i : grid1.Coords, EltTy.bits .bf16 = 32 ∨ (Rect.block (s := S512x1024) S512x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x512.size a ≤ S1024x512.size a
  hwx1_5 : ∀ i : grid1.Coords, EltTy.bits .bf16 = 32 ∨ (Rect.block (s := S1024x512) S1024x512.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512x256.size a ≤ S512x256.size a
  hwx1_7 : ∀ i : grid1.Coords, EltTy.bits .bf16 = 32 ∨ (Rect.block (s := S512x256) S512x256.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1024x256.size a ≤ S4096x256.size a
  hwx1_9 : ∀ i : grid1.Coords, EltTy.bits .f32 = 32 ∨ (Rect.block (s := S4096x256) S1024x256.size (cc1_transform_9 i) (hinb1_9 i)).WholeWords (EltTy.packing .f32)

variable [Facts₀]

def gather_S1000000x16_S4096x32x1_S4096x32x16_2_0_n_n_0_2_116 : GatherDims S1000000x16 S4096x32x1 S4096x32x16 where
  offsetDims := [2]
  collapsedSliceDims := [0]
  operandBatchingDims := []
  startIndicesBatchingDims := []
  startIndexMap := [0]
  indexVectorDim := 2
  sliceSizes := ![1, 16]
  wf := gather_S1000000x16_S4096x32x1_S4096x32x16_2_0_n_n_0_2_116_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_v201) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v202_0) S1x512.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v202_1) S1x512.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v201) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v215) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v218) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v219) S512x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v222) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v220) S1024x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v223) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v221) S512x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v224) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v225) S1024x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S4096x32x20 : Shape := ⟨3, ![4096, 32, 20]⟩
abbrev S1000000x16 : Shape := ⟨2, ![1000000, 16]⟩
abbrev S512 : Shape := ⟨1, ![512]⟩
abbrev S512x1024 : Shape := ⟨2, ![512, 1024]⟩
abbrev S1024 : Shape := ⟨1, ![1024]⟩
abbrev S1024x512 : Shape := ⟨2, ![1024, 512]⟩
abbrev S512x256 : Shape := ⟨2, ![512, 256]⟩
abbrev S256 : Shape := ⟨1, ![256]⟩
abbrev S_ : Shape := ⟨0, ![]⟩
abbrev S4096x32x20x1 : Shape := ⟨4, ![4096, 32, 20, 1]⟩
abbrev S4096x32x20x16 : Shape := ⟨4, ![4096, 32, 20, 16]⟩
abbrev S4096x32x16 : Shape := ⟨3, ![4096, 32, 16]⟩
abbrev S4096x512 : Shape := ⟨2, ![4096, 512]⟩
abbrev S1x512 : Shape := ⟨2, ![1, 512]⟩
abbrev S4096x1024 : Shape := ⟨2, ![4096, 1024]⟩
abbrev S1x1024 : Shape := ⟨2, ![1, 1024]⟩
abbrev S4096x256 : Shape := ⟨2, ![4096, 256]⟩
abbrev S1x256 : Shape := ⟨2, ![1, 256]⟩

abbrev nBuf : Space → Nat
  | .hbm => 84
  | .vmem => 0
  | .smem => 0
  | _ => 0

abbrev bufTy : (tb : Table) → Fin (tcTables nBuf tb) → BufTy
  | .hbm, ⟨0, _⟩ => ⟨S4096x32x20, .i32⟩
  | .hbm, ⟨1, _⟩ => ⟨S1000000x16, .f32⟩
  | .hbm, ⟨2, _⟩ => ⟨S512, .f32⟩
  | .hbm, ⟨3, _⟩ => ⟨S512, .f32⟩
  | .hbm, ⟨4, _⟩ => ⟨S512x1024, .f32⟩
  | .hbm, ⟨5, _⟩ => ⟨S1024, .f32⟩
  | .hbm, ⟨6, _⟩ => ⟨S1024x512, .f32⟩
  | .hbm, ⟨7, _⟩ => ⟨S512, .f32⟩
  | .hbm, ⟨8, _⟩ => ⟨S512x256, .f32⟩
  | .hbm, ⟨9, _⟩ => ⟨S256, .f32⟩
  | .hbm, ⟨10, _⟩ => ⟨S_, .i32⟩
  | .hbm, ⟨11, _⟩ => ⟨S4096x32x20, .i32⟩
  | .hbm, ⟨12, _⟩ => ⟨S4096x32x20, .i1⟩
  | .hbm, ⟨13, _⟩ => ⟨S_, .i32⟩
  | .hbm, ⟨14, _⟩ => ⟨S4096x32x20, .i32⟩
  | .hbm, ⟨15, _⟩ => ⟨S4096x32x20, .i32⟩
  | .hbm, ⟨16, _⟩ => ⟨S4096x32x20, .i32⟩
  | .hbm, ⟨17, _⟩ => ⟨S4096x32x20x1, .i32⟩
  | .hbm, ⟨18, _⟩ => ⟨S4096x32x20x16, .f32⟩
  | .hbm, ⟨19, _⟩ => ⟨S_, .f32⟩
  | .hbm, ⟨20, _⟩ => ⟨S4096x32x16, .f32⟩
  | .hbm, ⟨21, _⟩ => ⟨S4096x512, .f32⟩
  | .hbm, ⟨22, _⟩ => ⟨S_, .f32⟩
  | .hbm, ⟨23, _⟩ => ⟨S512, .f32⟩
  | .hbm, ⟨24, _⟩ => ⟨S_, .f32⟩
  | .hbm, ⟨25, _⟩ => ⟨S512, .f32⟩
  | .hbm, ⟨26, _⟩ => ⟨S512, .f32⟩
  | .hbm, ⟨27, _⟩ => ⟨S_, .i32⟩
  | .hbm, ⟨28, _⟩ => ⟨S_, .f32⟩
  | .hbm, ⟨29, _⟩ => ⟨S512, .f32⟩
  | .hbm, ⟨30, _⟩ => ⟨S1x512, .f32⟩
  | .hbm, ⟨31, _⟩ => ⟨S_, .f32⟩
  | .hbm, ⟨32, _⟩ => ⟨S1x512, .f32⟩
  | .hbm, ⟨33, _⟩ => ⟨S1x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S512, .f32⟩
  | .hbm, ⟨42, _⟩ => ⟨S512, .f32⟩
  | .hbm, ⟨43, _⟩ => ⟨S512, .f32⟩
  | .hbm, ⟨44, _⟩ => ⟨S_, .f32⟩
  | .hbm, ⟨45, _⟩ => ⟨S_, .i1⟩
  | .hbm, ⟨46, _⟩ => ⟨S_, .f32⟩
  | .hbm, ⟨47, _⟩ => ⟨S_, .f32⟩
  | .hbm, ⟨48, _⟩ => ⟨S512, .f32⟩
  | .hbm, ⟨49, _⟩ => ⟨S512, .f32⟩
  | .hbm, ⟨50, _⟩ => ⟨S1x512, .f32⟩
  | .hbm, ⟨51, _⟩ => ⟨S4096x512, .f32⟩
  | .hbm, ⟨52, _⟩ => ⟨S4096x512, .f32⟩
  | .hbm, ⟨53, _⟩ => ⟨S_, .f32⟩
  | .hbm, ⟨54, _⟩ => ⟨S512, .f32⟩
  | .hbm, ⟨55, _⟩ => ⟨S512, .f32⟩
  | .hbm, ⟨56, _⟩ => ⟨S512, .f32⟩
  | .hbm, ⟨57, _⟩ => ⟨S1x512, .f32⟩
  | .hbm, ⟨58, _⟩ => ⟨S4096x512, .f32⟩
  | .hbm, ⟨59, _⟩ => ⟨S4096x512, .f32⟩
  | .hbm, ⟨60, _⟩ => ⟨S1x512, .f32⟩
  | .hbm, ⟨61, _⟩ => ⟨S4096x512, .f32⟩
  | .hbm, ⟨62, _⟩ => ⟨S4096x512, .f32⟩
  | .hbm, ⟨63, _⟩ => ⟨S1x512, .f32⟩
  | .hbm, ⟨64, _⟩ => ⟨S4096x512, .f32⟩
  | .hbm, ⟨65, _⟩ => ⟨S4096x512, .f32⟩
  | .hbm, ⟨66, _⟩ => ⟨S4096x1024, .f32⟩
  | .hbm, ⟨67, _⟩ => ⟨S1x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S4096x1024, .f32⟩
  | .hbm, ⟨72, _⟩ => ⟨S4096x1024, .f32⟩
  | .hbm, ⟨73, _⟩ => ⟨S4096x512, .f32⟩
  | .hbm, ⟨74, _⟩ => ⟨S1x512, .f32⟩
  | .hbm, ⟨75, _⟩ => ⟨S4096x512, .f32⟩
  | .hbm, ⟨76, _⟩ => ⟨S4096x512, .f32⟩
  | .hbm, ⟨77, _⟩ => ⟨S_, .f32⟩
  | .hbm, ⟨78, _⟩ => ⟨S4096x512, .f32⟩
  | .hbm, ⟨79, _⟩ => ⟨S4096x512, .f32⟩
  | .hbm, ⟨80, _⟩ => ⟨S4096x256, .f32⟩
  | .hbm, ⟨81, _⟩ => ⟨S1x256, .f32⟩
  | .hbm, ⟨82, _⟩ => ⟨S4096x256, .f32⟩
  | .hbm, ⟨83, _⟩ => ⟨S4096x256, .f32⟩
  | _, _ => ⟨S4096x32x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_cst_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_cst_1 : Ref sig .tc := ⟨.hbm, 38, rfl⟩
abbrev main_call0_v8 : Ref sig .tc := ⟨.hbm, 39, rfl⟩
abbrev main_call0_cst_2 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_cst_3 : Ref sig .tc := ⟨.hbm, 44, rfl⟩
abbrev main_call0_v12 : Ref sig .tc := ⟨.hbm, 45, rfl⟩
abbrev main_call0_cst_4 : Ref sig .tc := ⟨.hbm, 46, rfl⟩
abbrev main_call0_call0_v0 : Ref sig .tc := ⟨.hbm, 47, rfl⟩
abbrev main_call0_call0_v1 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_cst_4 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_call1_cst : Ref sig .tc := ⟨.hbm, 70, rfl⟩
abbrev main_call1_v0 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_call2_cst : Ref sig .tc := ⟨.hbm, 77, rfl⟩
abbrev main_call2_v0 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩

abbrev nD : Nat := 1
abbrev τ : Topo := Topo.v7x

variable {F : FTy → Type} [FloatOps F]

class Facts₀ : Prop where
  bcast_S_S4096x32x20 : S_.BroadcastsInDim S4096x32x20 (![] : Fin 0 → Fin S4096x32x20.rank)
  bcast_S4096x32x20_S4096x32x20x1_0_1_2 : S4096x32x20.BroadcastsInDim S4096x32x20x1 (![0, 1, 2] : Fin 3 → Fin S4096x32x20x1.rank)
  reducesTo_S4096x32x20x16_S4096x32x16_d2 : S4096x32x20x16.ReducesTo [2] S4096x32x16
  h_S_ : 0 < S_.numel
  shapeCasts_S4096x32x16_S4096x512 : S4096x32x16.ShapeCasts S4096x512
  reducesTo_S4096x512_S512_d0 : S4096x512.ReducesTo [0] S512
  bcast_S_S512 : S_.BroadcastsInDim S512 (![] : Fin 0 → Fin S512.rank)
  bcast_S512_S1x512_1 : S512.BroadcastsInDim S1x512 (![1] : Fin 1 → Fin S1x512.rank)
  bcast_S_S1x512 : S_.BroadcastsInDim S1x512 (![] : Fin 0 → Fin S1x512.rank)
  bcast_S1x512_S4096x512_0_1 : S1x512.BroadcastsInDim S4096x512 (![0, 1] : Fin 2 → Fin S4096x512.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  bcast_S_S4096x512 : S_.BroadcastsInDim S4096x512 (![] : Fin 0 → Fin S4096x512.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  gather_S1000000x16_S4096x32x20x1_S4096x32x20x16_3_0_n_n_0_3_116_wf : GatherDims.WF S1000000x16 S4096x32x20x1 S4096x32x20x16 [3] [0] [] [0] [] 3 ![1, 16]
  dot_S4096x512_S512x1024_S4096x1024_1_0_0_1_n_n_wf : DotDims.WF S4096x512 S512x1024 S4096x1024 [1] [0] [0] [1] [] []
  dot_S4096x1024_S1024x512_S4096x512_1_0_0_1_n_n_wf : DotDims.WF S4096x1024 S1024x512 S4096x512 [1] [0] [0] [1] [] []
  dot_S4096x512_S512x256_S4096x256_1_0_0_1_n_n_wf : DotDims.WF S4096x512 S512x256 S4096x256 [1] [0] [0] [1] [] []

variable [Facts₀]

def gather_S1000000x16_S4096x32x20x1_S4096x32x20x16_3_0_n_n_0_3_116 : GatherDims S1000000x16 S4096x32x20x1 S4096x32x20x16 where
  offsetDims := [3]
  collapsedSliceDims := [0]
  operandBatchingDims := []
  startIndicesBatchingDims := []
  startIndexMap := [0]
  indexVectorDim := 3
  sliceSizes := ![1, 16]
  wf := gather_S1000000x16_S4096x32x20x1_S4096x32x20x16_3_0_n_n_0_3_116_wf
def dot_S4096x512_S512x1024_S4096x1024_1_0_0_1_n_n : DotDims S4096x512 S512x1024 S4096x1024 where
  lhsContracting := [1]
  rhsContracting := [0]
  lhsNonContracting := [0]
  rhsNonContracting := [1]
  lhsBatch := []
  rhsBatch := []
  wf := dot_S4096x512_S512x1024_S4096x1024_1_0_0_1_n_n_wf
def dot_S4096x1024_S1024x512_S4096x512_1_0_0_1_n_n : DotDims S4096x1024 S1024x512 S4096x512 where
  lhsContracting := [1]
  rhsContracting := [0]
  lhsNonContracting := [0]
  rhsNonContracting := [1]
  lhsBatch := []
  rhsBatch := []
  wf := dot_S4096x1024_S1024x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf

class Facts : Prop extends Facts₀ where

variable [Facts]
-- ==== Proof.KRun.lean ====
/-
  The kernel program's run with its result named. The program is four stretches in order — the host operations that
  build x, the statistics region, the host operations that fold scale and shift, the dense-layer region — and the
  buffer contents at each boundary are a fold from the launch memory (W0 … W4). Every weakly fair execution ends with
  every unscoped buffer at the last boundary's contents; read at the result buffer that is W4 at the output array of the
  second region, and at the arguments it is the launch memory.
-/
import proofs.«116118_j3607772528806_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the argument arrays as launched. -/
theorem run_main : θ_run defs (onTc (τ := τ) (main (F := F))) ⟨m, fun _ => 0, ρ⟩ (fun r => ∀ c : Dev nD,
      r.2.mem ((c.tc : Thread nD τ).loc main_v225) = W4 m ρ c (Proc.devRef .tc main_v225)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v225 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Run

end
-- ==== Proof.StatsSpec.lean ====
/-
  The statistics a batch normalisation takes of a 4096 × 512 matrix, column by column: the sum of each column and the sum
  of the squares of each column, both as 1 × 512 arrays; and the way either sum splits over the eight consecutive blocks
  of 512 rows, which is how a sweep over those blocks accumulates it.

  All sums are sums of extended reals, where addition is commutative and associative and 0 is neutral; nothing here
  depends on the summands being finite.
-/
import Idealize.ShloMosaic.Lib.ValueIdx

open scoped BigOperators

noncomputable section

namespace Cert.KernelIdeal.StatsValue

open Idealize.ShloMosaic Idealize.ShloMosaic.ValueIdx

/-- Entry `(0, l)` is the sum of column `l` over all 4096 rows. -/
def colSum (X : (⟨2, ![4096, 512]⟩ : Shape).Idx → EReal) : (⟨2, ![1, 512]⟩ : Shape).Idx → EReal :=
  fun j => ∑ r : Fin 4096, X (ix2 r (j 1))

/-- Entry `(0, l)` is the sum of the squares of column `l` over all 4096 rows. -/
def colSumSq (X : (⟨2, ![4096, 512]⟩ : Shape).Idx → EReal) : (⟨2, ![1, 512]⟩ : Shape).Idx → EReal :=
  fun j => ∑ r : Fin 4096, X (ix2 r (j 1)) * X (ix2 r (j 1))

/-- Row `k` of row block `t` is row `512 t + k` of the matrix. -/
def row (t : Fin 8) (k : Fin 512) : Fin 4096 :=
  ⟨512 * t.val + k.val, by have := t.isLt; have := k.isLt; omega⟩

/-- A sum over the 4096 rows is the sum, over the eight row blocks, of the sums over each block's 512 rows: the rows are
    enumerated block by block, `(t, k) ↦ 512 t + k` being a bijection from pairs onto rows. -/
theorem sum_rows_split {M : Type*} [AddCommMonoid M] (f : Fin 4096 → M) :
    ∑ r : Fin 4096, f r = ∑ t : Fin 8, ∑ k : Fin 512, f (row t k) := by
  rw [← Equiv.sum_comp (finProdFinEquiv (m := 8) (n := 512)) f, Fintype.sum_prod_type]
  refine Finset.sum_congr rfl fun t _ => Finset.sum_congr rfl fun k _ => congrArg f (Fin.ext ?_)
  show k.val + 512 * t.val = 512 * t.val + k.val
  omega

/-- A family indexed by the eight row blocks, as a function of every natural number: zero past the eighth block. -/
def blockN {M : Type*} [AddCommMonoid M] (g : Fin 8 → M) (t : ℕ) : M :=
  if h : t < 8 then g ⟨t, h⟩ else 0

/-- At a block's own number it is that block's value. -/
theorem blockN_val {M : Type*} [AddCommMonoid M] (g : Fin 8 → M) (t : ℕ) (h : t < 8) : blockN g t = g ⟨t, h⟩ :=
  dif_pos h

/-- Summed over the first eight naturals it is the sum over the eight blocks. -/
theorem sum_range_blockN {M : Type*} [AddCommMonoid M] (g : Fin 8 → M) :
    ∑ t ∈ Finset.range 8, blockN g t = ∑ t : Fin 8, g t := by
  rw [← Fin.sum_univ_eq_sum_range]
  exact Finset.sum_congr rfl fun t _ => blockN_val g t.val t.isLt

/-- So the sum over all rows is the sum of the eight blocks' partial sums, counted off by the naturals below 8: what a
    sweep over the blocks has accumulated after the last one. -/
theorem sum_rows_eq_range {M : Type*} [AddCommMonoid M] (f : Fin 4096 → M) :
    ∑ r : Fin 4096, f r = ∑ t ∈ Finset.range 8, blockN (fun t => ∑ k : Fin 512, f (row t k)) t :=
  (sum_rows_split f).trans (sum_range_blockN _).symm

end Cert.KernelIdeal.StatsValue

end
-- ==== Proof.LibColumnSum.lean ====
/-
  The sum down the columns of a matrix, read at a column.

  Summing an [a, b] matrix over its FIRST axis leaves a vector of length b whose entry j is the sum of the a entries of
  column j. The general statement names the summed entries through the index "entry j with coordinate k inserted on the
  summed axis"; for a matrix and axis 0 that index is (k, j). (The companion for the second axis is the row sum.)
-/
import Idealize.ShloMosaic.PureOps.Ideal.Laws
import Idealize.ShloMosaic.Lib.ValueIdx

open scoped BigOperators

namespace Idealize.ShloMosaic.ValueIdx

open Idealize.ShloMosaic

/-- Inserting coordinate `k` on axis 0 over the column index `j` gives the matrix index `(k, j)`. -/
theorem reduces_cols_lift {a b : ℕ} (h : (⟨2, ![a, b]⟩ : Shape).Reduces [0] ⟨1, ![b]⟩) (j : Fin b) (k : Fin a) :
    h.lift (ix1 j) k = ix2 k j := by
  funext ax; apply Fin.ext
  show h.liftVal (ix1 j) k.val ax = (ix2 k j ax).val
  unfold Shape.Reduces.liftVal
  match ax with
  | ⟨0, _⟩ => rfl
  | ⟨1, _⟩ => rfl

/-- The sum of an `[a, b]` matrix over axis 0, at the exact extended reals, read at column `j`: the sum of that column. -/
theorem multiReduction_add_cols_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  exact Finset.sum_congr rfl fun k _ => congrArg src (reduces_cols_lift h j k)

end Idealize.ShloMosaic.ValueIdx
-- ==== Proof.Region0.lean ====
/-
  What the first kernel region (the batch-norm statistics) leaves in its two output arrays.

  The region sweeps the 4096 × 512 input in eight blocks of 512 rows. Both outputs are 1 × 512 arrays whose one block is
  carried from point to point: at the first point the body zeroes them; at every point it adds to the first the column
  sums of the point's 512 × 512 block, and to the second the column sums of the block's squares. So after point n the
  first output holds, in column l, the sum of column l over rows 0 … 512 (n + 1) − 1, the second the sum of the squares
  over the same rows — by induction on the point —, and after the last point these are the sums over all 4096 rows. The
  one write-back, after the last point, moves the block onto the whole 1 × 512 array.

  Steps: what each case of the body leaves in each output, as the stored value over the block and the value carried in
  (`out_A_1` … `out_B_2`); those stored values read at a column, over the extended reals (`pay4_apply`, `pay5_apply`:
  carried value plus a sum over the block's 512 rows); a block's entry (k, l) as entry (512 t + k, l) of the input
  (`iblk_apply`); the running sums (`run1`, `run2`); the write-back and the array (`sums`, `sumsq`).
-/
import proofs.«116118_j3607772528806_2_alg».proof.Proof.Gen.KernelIdeal.Frame
import proofs.«116118_j3607772528806_2_alg».proof.Proof.StatsSpec
import proofs.«116118_j3607772528806_2_alg».proof.Proof.LibColumnSum
import Idealize.ShloMosaic.Lib.Pipeline.Value
import Idealize.ShloMosaic.Lib.Tactic

noncomputable section

open scoped BigOperators
open Idealize.ShloMosaic Idealize.ShloMosaic.TcCoe Idealize.SL.Sem
open Idealize.ShloMosaic.Pipeline (Dat)
open Idealize.ShloMosaic.ValueIdx

namespace Cert.KernelIdeal.StatsValue

open Cert.KernelIdeal Cert.KernelIdeal.Gen

/-! ## What each case of the body leaves in each output -/

section Pieces

variable {F : FTy → Type} [FloatOps F]

theorem hz : (![0, 0] : Fin 2 → Nat) = fun _ => 0 := funext fun a => by fin_cases a <;> rfl

/-- A later point, first output: the one covering store writes the carried value plus the block's column sums. -/
theorem out_B_1 (c : Dev nD) (i : grid0.Coords) (a1 : Memref sig .tc .vmem S512x512 .f32) (h1 : a1.IsWhole)
    (a2 : Memref sig .tc .vmem S1x512 .f32) (h2 : a2.IsWhole) (a3 : Memref sig .tc .vmem S1x512 .f32) (h3 : a3.IsWhole)
    (hc : ¬cond0_0 i) (x : Vec F S512x512 .f32) (xo1 xo2 : Vec F S1x512 .f32) :
    out0_B_1 c i a1 h1 a2 h2 a3 h3 hc x xo1 xo2 = k0_pay4 x xo1 := by
  unfold out0_B_1
  rw [View.read_writes_eq_canon _ _ _ (cover0_B_1 c i a1 h1 a2 h2 a3 h3 hc x xo1 xo2)]
  unfold kernelRun0_B
  dsimp only
  rw [View.canon_unit_zero hz]
  simp only [View.readAt_eq_ld, h1.read_unread, h2.read_unread, View.ld_unit_zero (S := S512x512) hz,
    View.ld_unit_zero (S := S1x512) hz]

/-- A later point, second output: the carried value plus the column sums of the block's squares. -/
theorem out_B_2 (c : Dev nD) (i : grid0.Coords) (a1 : Memref sig .tc .vmem S512x512 .f32) (h1 : a1.IsWhole)
    (a2 : Memref sig .tc .vmem S1x512 .f32) (h2 : a2.IsWhole) (a3 : Memref sig .tc .vmem S1x512 .f32) (h3 : a3.IsWhole)
    (hc : ¬cond0_0 i) (x : Vec F S512x512 .f32) (xo1 xo2 : Vec F S1x512 .f32) :
    out0_B_2 c i a1 h1 a2 h2 a3 h3 hc x xo1 xo2 = k0_pay5 x xo2 := by
  unfold out0_B_2
  rw [View.read_writes_eq_canon _ _ _ (cover0_B_2 c i a1 h1 a2 h2 a3 h3 hc x xo1 xo2)]
  unfold kernelRun0_B
  dsimp only
  rw [View.canon_unit_zero hz]
  simp only [View.readAt_eq_ld, h1.read_unread, h3.read_unread, View.ld_unit_zero (S := S512x512) hz,
    View.ld_unit_zero (S := S1x512) hz]

/-- The first point, first output: the zero block is stored, read back, and the block's column sums added to it. -/
theorem out_A_1 (c : Dev nD) (i : grid0.Coords) (a1 : Memref sig .tc .vmem S512x512 .f32) (h1 : a1.IsWhole)
    (a2 : Memref sig .tc .vmem S1x512 .f32) (h2 : a2.IsWhole) (a3 : Memref sig .tc .vmem S1x512 .f32) (h3 : a3.IsWhole)
    (hc : cond0_0 i) (x : Vec F S512x512 .f32) :
    out0_A_1 c i a1 h1 a2 h2 a3 h3 hc x = k0_pay4 x (k0_pay1 (F := F)) := by
  unfold out0_A_1
  rw [View.read_writes_eq_canon _ _ _ (cover0_A_1 c i a1 h1 a2 h2 a3 h3 hc x)]
  unfold kernelRun0_A
  dsimp only
  sl_unfold_words
  rw [View.canon_cons_unit_zero (S := S1x512) hz, View.readCov_unit_zero (S := S1x512) _ hz]
  simp only [View.readAt_eq_ld, h1.read_unread, View.ld_unit_zero (S := S512x512) hz]

/-- The first point, second output: the zero block stored, read back, and the squares' column sums added to it. -/
theorem out_A_2 (c : Dev nD) (i : grid0.Coords) (a1 : Memref sig .tc .vmem S512x512 .f32) (h1 : a1.IsWhole)
    (a2 : Memref sig .tc .vmem S1x512 .f32) (h2 : a2.IsWhole) (a3 : Memref sig .tc .vmem S1x512 .f32) (h3 : a3.IsWhole)
    (hc : cond0_0 i) (x : Vec F S512x512 .f32) :
    out0_A_2 c i a1 h1 a2 h2 a3 h3 hc x = k0_pay5 x (k0_pay2 (F := F)) := by
  unfold out0_A_2
  rw [View.read_writes_eq_canon _ _ _ (cover0_A_2 c i a1 h1 a2 h2 a3 h3 hc x)]
  unfold kernelRun0_A
  dsimp only
  sl_unfold_words
  rw [View.canon_cons_unit_zero (S := S1x512) hz, View.readCov_unit_zero (S := S1x512) _ hz]
  simp only [View.readAt_eq_ld, h1.read_unread, View.ld_unit_zero (S := S512x512) hz]

end Pieces

/-! ## The stored values read at a column, over the extended reals -/

/-- A vector of 512 entries recast as a 1 × 512 row reads, at `(0, l)`, its entry `l`. -/
theorem row_cast_apply {α : Type} (v : S512.Idx → α) (h : S512.ShapeCasts S1x512) (l : Fin 512) :
    shapeCast S1x512 v h (ix2 (0 : Fin 1) l) = v (ix1 l) :=
  (shapeCast_addUnit_apply ![512] v h (ix2 (0 : Fin 1) l)).trans
    (congrArg v (funext fun a => match a with | ⟨0, _⟩ => rfl))

/-- The first output's stored value at column `l`: the carried value there plus the sum of the block's column `l`. -/
theorem pay4_apply (x : Vec Ideal S512x512 .f32) (xo : Vec Ideal S1x512 .f32) (l : Fin 512) :
    k0_pay4 (F := Ideal) x xo (ix2 (0 : Fin 1) l) = xo (ix2 (0 : Fin 1) l) + ∑ k : Fin 512, x (ix2 k l) := by
  unfold k0_pay4 k0_pay3
  refine (addf_apply _ _ _).trans ?_
  refine congrArg₂ (· + ·) (congrFun (shapeCast_self xo _) _) ?_
  refine (row_cast_apply _ _ l).trans ?_
  refine (multiReduction_add_cols_apply _ _ _ _ _ l).trans ?_
  exact Finset.sum_congr rfl fun k _ => congrFun (shapeCast_self x _) (ix2 k l)

/-- The second output's stored value at column `l`: the carried value there plus the sum of the squares of the block's
    column `l`. -/
theorem pay5_apply (x : Vec Ideal S512x512 .f32) (xo : Vec Ideal S1x512 .f32) (l : Fin 512) :
    k0_pay5 (F := Ideal) x xo (ix2 (0 : Fin 1) l)
      = xo (ix2 (0 : Fin 1) l) + ∑ k : Fin 512, x (ix2 k l) * x (ix2 k l) := by
  unfold k0_pay5 k0_pay3
  refine (addf_apply _ _ _).trans ?_
  refine congrArg₂ (· + ·) (congrFun (shapeCast_self xo _) _) ?_
  refine (row_cast_apply _ _ l).trans ?_
  refine (multiReduction_add_cols_apply _ _ _ _ _ l).trans ?_
  refine Finset.sum_congr rfl fun k _ => ?_
  refine (mulf_apply _ _ _).trans ?_
  rw [shapeCast_self]

/-- The zero block the first point stores reads the extended real 0 everywhere. -/
theorem pay1_apply (j : S1x512.Idx) : k0_pay1 (F := Ideal) j = 0 := Ideal.ofBits_zero_f32
theorem pay2_apply (j : S1x512.Idx) : k0_pay2 (F := Ideal) j = 0 := Ideal.ofBits_zero_f32

/-! ## The input's blocks, and the outputs point by point -/

section Blocks

variable {F : FTy → Type} [FloatOps F]
variable (V : (c : Dev nD) → (b : Ref sig .tc) → Buf (Elt F) ((c : Thread nD τ).loc b))

/-- The input window reads the 4096 × 512 array the region is handed. -/
theorem arr0 : Pipeline.arrRef spec0 0 = main_v201 := rfl

/-- Entry `(k, l)` of the input's block at point `t` is entry `(512 t + k, l)` of the input: the window's block index
    at point `t` is `(t, 0)` and its blocks are 512 rows by all 512 columns. -/
theorem iblk_apply (c : Dev nD) (t : Fin cfg0.N) (k l : Fin 512) (r : Fin 4096) (hr : r.val = 512 * t.val + k.val) :
    (iblk0 V c 0 t : Vec F S512x512 .f32) (ix2 k l) = (V c main_v201 : S4096x512.Idx → Elt F .f32) (ix2 r l) := by
  have hi : win0_0.index t 0 = t.val ∧ win0_0.index t 1 = 0 := by
    rcases fin_N0 t with rfl | rfl | rfl | rfl | rfl | rfl | rfl | rfl <;> decide
  unfold iblk0
  rw [View.read_apply]
  show V c main_v201 _ = V c main_v201 _
  congr 1
  funext a
  apply Fin.ext
  match a with
  | ⟨0, _⟩ => show win0_0.index t 0 * 512 + 1 * k.val = r.val; rw [hi.1, hr]; omega
  | ⟨1, _⟩ => show win0_0.index t 1 * 512 + 1 * l.val = l.val; rw [hi.2]; omega

/-- After the first point: the zero blocks with the first block's column sums, and its squares' column sums, added. -/
theorem outs_zero (c : Dev nD) (h : 0 < cfg0.N) :
    outsAt0 V c 0 h = (k0_pay4 (iblk0 V c 0 ⟨0, h⟩) (k0_pay1 (F := F)), k0_pay5 (iblk0 V c 0 ⟨0, h⟩) (k0_pay2 (F := F))) := by
  rw [outsAt0_A V c ⟨0, h⟩ rfl]
  exact congrArg₂ Prod.mk (out_A_1 ..) (out_A_2 ..)

/-- After a later point: what the point before left, with this point's block's column sums, and its squares' column
    sums, added. -/
theorem outs_succ (c : Dev nD) (n : ℕ) (h : n + 1 < cfg0.N) :
    outsAt0 V c (n + 1) h
      = (k0_pay4 (iblk0 V c 0 ⟨n + 1, h⟩) (outsAt0 V c n (Nat.lt_of_succ_lt h)).1,
         k0_pay5 (iblk0 V c 0 ⟨n + 1, h⟩) (outsAt0 V c n (Nat.lt_of_succ_lt h)).2) := by
  have hN : cfg0.N = 8 := N_0
  have hB : ¬(⟨n + 1, h⟩ : Fin cfg0.N).val % 8 = 0 := by dsimp only; omega
  rw [outsAt0_B V c ⟨n + 1, h⟩ hB]
  exact congrArg₂ Prod.mk (out_B_1 ..) (out_B_2 ..)

end Blocks

/-! ## The running sums, and the arrays after the region -/

section Sums

variable (V : (c : Dev nD) → (b : Ref sig .tc) → Buf (Elt Ideal) ((c : Thread nD τ).loc b))

/-- The input matrix as the region finds it. -/
abbrev X (c : Dev nD) : S4096x512.Idx → EReal := V c main_v201

/-- After point `n` the first output holds, in column `l`, the sum of column `l` over row blocks `0 … n`. -/
theorem run1 (c : Dev nD) : ∀ (n : ℕ) (h : n < cfg0.N) (l : Fin 512),
    (outsAt0 V c n h).1 (ix2 (0 : Fin 1) l)
      = ∑ t ∈ Finset.range (n + 1), blockN (fun t => ∑ k : Fin 512, X V c (ix2 (row t k) l)) t
  | 0, h, l => by
    rw [outs_zero V c h]
    refine (pay4_apply _ _ l).trans ?_
    rw [pay1_apply, zero_add, Finset.sum_range_one, blockN_val _ 0 (by decide)]
    exact Finset.sum_congr rfl fun k _ => iblk_apply V c ⟨0, h⟩ k l (row ⟨0, by decide⟩ k) rfl
  | n + 1, h, l => by
    have hN : cfg0.N = 8 := N_0
    rw [outs_succ V c n h]
    refine (pay4_apply _ _ l).trans ?_
    rw [run1 c n (Nat.lt_of_succ_lt h) l, Finset.sum_range_succ _ (n + 1), blockN_val _ (n + 1) (by omega)]
    exact congrArg (_ + ·) (Finset.sum_congr rfl fun k _ => iblk_apply V c ⟨n + 1, h⟩ k l (row ⟨n + 1, by omega⟩ k) rfl)

/-- After point `n` the second output holds, in column `l`, the sum of the squares of column `l` over row blocks
    `0 … n`. -/
theorem run2 (c : Dev nD) : ∀ (n : ℕ) (h : n < cfg0.N) (l : Fin 512),
    (outsAt0 V c n h).2 (ix2 (0 : Fin 1) l)
      = ∑ t ∈ Finset.range (n + 1),
          blockN (fun t => ∑ k : Fin 512, X V c (ix2 (row t k) l) * X V c (ix2 (row t k) l)) t
  | 0, h, l => by
    rw [outs_zero V c h]
    refine (pay5_apply _ _ l).trans ?_
    rw [pay2_apply, zero_add, Finset.sum_range_one, blockN_val _ 0 (by decide)]
    exact Finset.sum_congr rfl fun k _ => by rw [iblk_apply V c ⟨0, h⟩ k l (row ⟨0, by decide⟩ k) rfl]
  | n + 1, h, l => by
    have hN : cfg0.N = 8 := N_0
    rw [outs_succ V c n h]
    refine (pay5_apply _ _ l).trans ?_
    rw [run2 c n (Nat.lt_of_succ_lt h) l, Finset.sum_range_succ _ (n + 1), blockN_val _ (n + 1) (by omega)]
    exact congrArg (_ + ·) (Finset.sum_congr rfl fun k _ => by
      rw [iblk_apply V c ⟨n + 1, h⟩ k l (row ⟨n + 1, by omega⟩ k) rfl])

/-- After the last point the first output is the column sums of the whole input. -/
theorem last1 (c : Dev nD) (t : Fin cfg0.N) (ht : t.val = 7) : (outsAt0 V c t.val t.isLt).1 = colSum (X V c) := by
  obtain ⟨n, hn⟩ := t
  obtain rfl : n = 7 := ht
  funext j
  obtain ⟨a, l, rfl⟩ : ∃ a l, j = ix2 a l := ⟨j 0, j 1, eq_ix2 j⟩
  obtain rfl : a = 0 := Subsingleton.elim _ _
  rw [run1 V c 7 hn l]
  exact (sum_rows_eq_range fun r => X V c (ix2 r l)).symm

/-- After the last point the second output is the column sums of the squares of the whole input. -/
theorem last2 (c : Dev nD) (t : Fin cfg0.N) (ht : t.val = 7) : (outsAt0 V c t.val t.isLt).2 = colSumSq (X V c) := by
  obtain ⟨n, hn⟩ := t
  obtain rfl : n = 7 := ht
  funext j
  obtain ⟨a, l, rfl⟩ : ∃ a l, j = ix2 a l := ⟨j 0, j 1, eq_ix2 j⟩
  obtain rfl : a = 0 := Subsingleton.elim _ _
  rw [run2 V c 7 hn l]
  exact (sum_rows_eq_range fun r => X V c (ix2 r l) * X V c (ix2 r l)).symm

end Sums

/-! ## The write-back and the arrays after the region -/

section Arrays

variable (V : (c : Dev nD) → (b : Ref sig .tc) → Buf (Elt Ideal) ((c : Thread nD τ).loc b))

/-- The first output's one write-back, after the last point, writes the column sums: block (0, 0) of the 1 × 512 array,
    read through zero offsets, is the array. -/
theorem flushed_eq1 (c : Dev nD) (t : Fin cfg0.N) (hf : (cfg0.win 1).flush t = true) :
    (dat0 V c).flushed 1 t
      = ((cfg0.win 1).blk t).view.read (Elt Ideal) (colSum (X V c) : Buf (Elt Ideal) ((c : Thread nD τ).loc main_v202_0)) := by
  have hN : cfg0.N = 8 := N_0
  have h7 : t.val = 7 := by have := (flush0_1 t).mp hf; have := t.isLt; omega
  obtain rfl : t = t0_7 := Fin.ext h7
  show (cfg0.win 1).cut (grid0.coords t0_7) ((dat0 V c).after 1 t0_7) = _
  rw [after0_1, last1 V c t0_7 rfl]
  have hz' : (fun a => win0_1.index t0_7 a * main_v202_0.ty.shape.size a) = fun _ => 0 :=
    funext fun a => by fin_cases a <;> decide
  exact (Memref.read_access_unit_zero (Elt Ideal) main_v202_0 hz' (fun a => by rw [congrFun hz' a]; simp)
    (colSum (X V c))).symm

/-- The second output's one write-back, after the last point, writes the column sums of the squares. -/
theorem flushed_eq2 (c : Dev nD) (t : Fin cfg0.N) (hf : (cfg0.win 2).flush t = true) :
    (dat0 V c).flushed 2 t
      = ((cfg0.win 2).blk t).view.read (Elt Ideal) (colSumSq (X V c) : Buf (Elt Ideal) ((c : Thread nD τ).loc main_v202_1)) := by
  have hN : cfg0.N = 8 := N_0
  have h7 : t.val = 7 := by have := (flush0_2 t).mp hf; have := t.isLt; omega
  obtain rfl : t = t0_7 := Fin.ext h7
  show (cfg0.win 2).cut (grid0.coords t0_7) ((dat0 V c).after 2 t0_7) = _
  rw [after0_2, last2 V c t0_7 rfl]
  have hz' : (fun a => win0_2.index t0_7 a * main_v202_1.ty.shape.size a) = fun _ => 0 :=
    funext fun a => by fin_cases a <;> decide
  exact (Memref.read_access_unit_zero (Elt Ideal) main_v202_1 hz' (fun a => by rw [congrFun hz' a]; simp)
    (colSumSq (X V c))).symm

/-- So the first output array ends holding the column sums of the input: the last point's block covers the array. -/
theorem sums (c : Dev nD) : (dat0 V c).arrAt 1 cfg0.N = colSum (V c main_v201) :=
  (dat0 V c).arrAt_eq_of_cover 1 (colSum (X V c)) (flushed_eq1 V c) fun i =>
    ⟨t0_7, (flush0_1 t0_7).mpr rfl, by
      show i ∈ ((View.whole main_v202_0).slice (win0_1.rect t0_7)).set
      rw [View.set_slice_whole, Rect.mem_set_unit]
      intro a
      have h0 : (i 0 : Nat) < 1 := (i 0).isLt
      have h1 : (i 1 : Nat) < 512 := (i 1).isLt
      match a with
      | ⟨0, _⟩ =>
        show win0_1.index t0_7 0 * win0_1.size 0 ≤ (i 0 : Nat)
          ∧ (i 0 : Nat) < win0_1.index t0_7 0 * win0_1.size 0 + win0_1.xsize (grid0.coords t0_7) 0
        rw [show win0_1.index t0_7 0 * win0_1.size 0 = 0 from by decide +kernel,
          show win0_1.xsize (grid0.coords t0_7) 0 = 1 from by decide +kernel]
        omega
      | ⟨1, _⟩ =>
        show win0_1.index t0_7 1 * win0_1.size 1 ≤ (i 1 : Nat)
          ∧ (i 1 : Nat) < win0_1.index t0_7 1 * win0_1.size 1 + win0_1.xsize (grid0.coords t0_7) 1
        rw [show win0_1.index t0_7 1 * win0_1.size 1 = 0 from by decide +kernel,
          show win0_1.xsize (grid0.coords t0_7) 1 = 512 from by decide +kernel]
        omega⟩

/-- And the second output array ends holding the column sums of the squares of the input. -/
theorem sumsq (c : Dev nD) : (dat0 V c).arrAt 2 cfg0.N = colSumSq (V c main_v201) :=
  (dat0 V c).arrAt_eq_of_cover 2 (colSumSq (X V c)) (flushed_eq2 V c) fun i =>
    ⟨t0_7, (flush0_2 t0_7).mpr rfl, by
      show i ∈ ((View.whole main_v202_1).slice (win0_2.rect t0_7)).set
      rw [View.set_slice_whole, Rect.mem_set_unit]
      intro a
      have h0 : (i 0 : Nat) < 1 := (i 0).isLt
      have h1 : (i 1 : Nat) < 512 := (i 1).isLt
      match a with
      | ⟨0, _⟩ =>
        show win0_2.index t0_7 0 * win0_2.size 0 ≤ (i 0 : Nat)
          ∧ (i 0 : Nat) < win0_2.index t0_7 0 * win0_2.size 0 + win0_2.xsize (grid0.coords t0_7) 0
        rw [show win0_2.index t0_7 0 * win0_2.size 0 = 0 from by decide +kernel,
          show win0_2.xsize (grid0.coords t0_7) 0 = 1 from by decide +kernel]
        omega
      | ⟨1, _⟩ =>
        show win0_2.index t0_7 1 * win0_2.size 1 ≤ (i 1 : Nat)
          ∧ (i 1 : Nat) < win0_2.index t0_7 1 * win0_2.size 1 + win0_2.xsize (grid0.coords t0_7) 1
        rw [show win0_2.index t0_7 1 * win0_2.size 1 = 0 from by decide +kernel,
          show win0_2.xsize (grid0.coords t0_7) 1 = 512 from by decide +kernel]
        omega⟩

end Arrays

end Cert.KernelIdeal.StatsValue

end
-- ==== Proof.KGlue.lean ====
/-
  What the windows of the dense-layer region hold when it is entered, walked back through the program.

  The second stretch of host operations writes only the folded statistics (mean, variance, scale, shift), the three
  weight matrices narrowed to a shorter float format and the three bias vectors laid out as rows; it leaves x, the
  statistics region's two sums and the arguments alone. The statistics region in turn leaves x and the arguments alone
  and ends with its two output arrays at the column sums of x and of x². So, on entry to the dense-layer region:
  window 0 is x as the first stretch left it; scale and shift are the host arithmetic below applied to those column
  sums and the two normalisation vectors; the weights are the arguments narrowed; the biases are the arguments as rows.
-/
import proofs.«116118_j3607772528806_2_alg».proof.Proof.Gen.KernelIdeal.Frame
import proofs.«116118_j3607772528806_2_alg».proof.Proof.Region0
import Idealize.ShloMosaic.Lib.StableHlo.Run
import Idealize.ShloMosaic.PureOps.Ideal

noncomputable section

namespace Cert.KernelIdeal.Glue

open Idealize.ShloMosaic Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-- A buffer the second host stretch does not write keeps its contents across it. -/
local macro "kept_by_glue" : tactic =>
  `(tactic| exact StableHlo.after_of_forall_not_mem _ _ (List.forall_iff_forall_mem.mp (by
      simp only [hostOps1, List.Forall, StableHlo.nullary_writes, StableHlo.unary_writes, StableHlo.binary_writes,
        StableHlo.ternary_writes, StableHlo.quaternary_writes, StableHlo.reshape_writes, Finset.mem_singleton]
      repeat' apply And.intro
      all_goals exact StableHlo.devRef_ne_of_ne (by decide))))

/-! ## The arguments, at the boundary between the two stretches -/

theorem W2_main_arg2 (c : Dev nD) : W2 m ρ c (Proc.devRef .tc main_arg2) = m ((c : Thread nD τ).loc main_arg2) :=
  calc W2 m ρ c (Proc.devRef .tc main_arg2)
    _ = W3 m ρ c (Proc.devRef .tc main_arg2) := (by kept_by_glue : W3 m ρ c (Proc.devRef .tc main_arg2) = W2 m ρ c (Proc.devRef .tc main_arg2)).symm
    _ = W4 m ρ c (Proc.devRef .tc main_arg2) := (W4_of_ne m ρ c main_arg2 (by decide)).symm
    _ = m ((c : Thread nD τ).loc main_arg2) := W4_main_arg2 m ρ c
theorem W2_main_arg3 (c : Dev nD) : W2 m ρ c (Proc.devRef .tc main_arg3) = m ((c : Thread nD τ).loc main_arg3) :=
  calc W2 m ρ c (Proc.devRef .tc main_arg3)
    _ = W3 m ρ c (Proc.devRef .tc main_arg3) := (by kept_by_glue : W3 m ρ c (Proc.devRef .tc main_arg3) = W2 m ρ c (Proc.devRef .tc main_arg3)).symm
    _ = W4 m ρ c (Proc.devRef .tc main_arg3) := (W4_of_ne m ρ c main_arg3 (by decide)).symm
    _ = m ((c : Thread nD τ).loc main_arg3) := W4_main_arg3 m ρ c
theorem W2_main_arg4 (c : Dev nD) : W2 m ρ c (Proc.devRef .tc main_arg4) = m ((c : Thread nD τ).loc main_arg4) :=
  calc W2 m ρ c (Proc.devRef .tc main_arg4)
    _ = W3 m ρ c (Proc.devRef .tc main_arg4) := (by kept_by_glue : W3 m ρ c (Proc.devRef .tc main_arg4) = W2 m ρ c (Proc.devRef .tc main_arg4)).symm
    _ = W4 m ρ c (Proc.devRef .tc main_arg4) := (W4_of_ne m ρ c main_arg4 (by decide)).symm
    _ = m ((c : Thread nD τ).loc main_arg4) := W4_main_arg4 m ρ c
theorem W2_main_arg5 (c : Dev nD) : W2 m ρ c (Proc.devRef .tc main_arg5) = m ((c : Thread nD τ).loc main_arg5) :=
  calc W2 m ρ c (Proc.devRef .tc main_arg5)
    _ = W3 m ρ c (Proc.devRef .tc main_arg5) := (by kept_by_glue : W3 m ρ c (Proc.devRef .tc main_arg5) = W2 m ρ c (Proc.devRef .tc main_arg5)).symm
    _ = W4 m ρ c (Proc.devRef .tc main_arg5) := (W4_of_ne m ρ c main_arg5 (by decide)).symm
    _ = m ((c : Thread nD τ).loc main_arg5) := W4_main_arg5 m ρ c
theorem W2_main_arg6 (c : Dev nD) : W2 m ρ c (Proc.devRef .tc main_arg6) = m ((c : Thread nD τ).loc main_arg6) :=
  calc W2 m ρ c (Proc.devRef .tc main_arg6)
    _ = W3 m ρ c (Proc.devRef .tc main_arg6) := (by kept_by_glue : W3 m ρ c (Proc.devRef .tc main_arg6) = W2 m ρ c (Proc.devRef .tc main_arg6)).symm
    _ = W4 m ρ c (Proc.devRef .tc main_arg6) := (W4_of_ne m ρ c main_arg6 (by decide)).symm
    _ = m ((c : Thread nD τ).loc main_arg6) := W4_main_arg6 m ρ c
theorem W2_main_arg7 (c : Dev nD) : W2 m ρ c (Proc.devRef .tc main_arg7) = m ((c : Thread nD τ).loc main_arg7) :=
  calc W2 m ρ c (Proc.devRef .tc main_arg7)
    _ = W3 m ρ c (Proc.devRef .tc main_arg7) := (by kept_by_glue : W3 m ρ c (Proc.devRef .tc main_arg7) = W2 m ρ c (Proc.devRef .tc main_arg7)).symm
    _ = W4 m ρ c (Proc.devRef .tc main_arg7) := (W4_of_ne m ρ c main_arg7 (by decide)).symm
    _ = m ((c : Thread nD τ).loc main_arg7) := W4_main_arg7 m ρ c
theorem W2_main_arg8 (c : Dev nD) : W2 m ρ c (Proc.devRef .tc main_arg8) = m ((c : Thread nD τ).loc main_arg8) :=
  calc W2 m ρ c (Proc.devRef .tc main_arg8)
    _ = W3 m ρ c (Proc.devRef .tc main_arg8) := (by kept_by_glue : W3 m ρ c (Proc.devRef .tc main_arg8) = W2 m ρ c (Proc.devRef .tc main_arg8)).symm
    _ = W4 m ρ c (Proc.devRef .tc main_arg8) := (W4_of_ne m ρ c main_arg8 (by decide)).symm
    _ = m ((c : Thread nD τ).loc main_arg8) := W4_main_arg8 m ρ c
theorem W2_main_arg9 (c : Dev nD) : W2 m ρ c (Proc.devRef .tc main_arg9) = m ((c : Thread nD τ).loc main_arg9) :=
  calc W2 m ρ c (Proc.devRef .tc main_arg9)
    _ = W3 m ρ c (Proc.devRef .tc main_arg9) := (by kept_by_glue : W3 m ρ c (Proc.devRef .tc main_arg9) = W2 m ρ c (Proc.devRef .tc main_arg9)).symm
    _ = W4 m ρ c (Proc.devRef .tc main_arg9) := (W4_of_ne m ρ c main_arg9 (by decide)).symm
    _ = m ((c : Thread nD τ).loc main_arg9) := W4_main_arg9 m ρ c

/-! ## x and the two sums -/

/-- Window 0 of the dense-layer region is x as the first host stretch left it: neither the statistics region (which only
    reads it) nor the second host stretch writes it. -/
theorem W3_x (c : Dev nD) : W3 m ρ c (Proc.devRef .tc main_v201) = W1 m ρ c (Proc.devRef .tc main_v201) :=
  calc W3 m ρ c (Proc.devRef .tc main_v201)
    _ = W2 m ρ c (Proc.devRef .tc main_v201) := by kept_by_glue
    _ = (dat0 (V1 m ρ) c).arrAt 0 cfg0.N := W2_arr m ρ c 0
    _ = (dat0 (V1 m ρ) c).A 0 := Dat.arrAt_in _ 0 rfl _
    _ = W1 m ρ c (Proc.devRef .tc main_v201) := A_eq0 (V1 m ρ) c 0

/-- The statistics region's first output: the column sums of x. -/
theorem W2_sum (c : Dev nD) :
    W2 m ρ c (Proc.devRef .tc main_v202_0) = StatsValue.colSum (W1 m ρ c (Proc.devRef .tc main_v201)) :=
  (W2_arr m ρ c 1).trans (StatsValue.sums (V1 m ρ) c)

/-- Its second output: the column sums of x². -/
theorem W2_sumsq (c : Dev nD) :
    W2 m ρ c (Proc.devRef .tc main_v202_1) = StatsValue.colSumSq (W1 m ρ c (Proc.devRef .tc main_v201)) :=
  (W2_arr m ρ c 2).trans (StatsValue.sumsq (V1 m ρ) c)

/-! ## The folded statistics -/

/-- The mean row: the column sums over the batch size. -/
def meanK (S : FVec Ideal S1x512 .f32) : FVec Ideal S1x512 .f32 :=
  Host.divf S (broadcastInDim S1x512 ![] Facts₀.bcast_S_S1x512 (constant (F := Ideal) S_ .f32 0x45800000#32))

/-- The scale row: the scale vector as a row times the reciprocal root of the guarded, clamped variance. -/
def scaleK (S Q : FVec Ideal S1x512 .f32) (g : FVec Ideal S512 .f32) : FVec Ideal S1x512 .f32 :=
  mulf (fun i => shapeCast S1x512 g Facts₀.shapeCasts_S512_S1x512 i)
    (Host.rsqrt
      (addf
        (maximumf
          (subf (Host.divf Q (broadcastInDim S1x512 ![] Facts₀.bcast_S_S1x512 (constant (F := Ideal) S_ .f32 0x45800000#32)))
            (mulf (meanK S) (meanK S)))
          (broadcastInDim S1x512 ![] Facts₀.bcast_S_S1x512 (constant (F := Ideal) S_ .f32 0x00000000#32)))
        (broadcastInDim S1x512 ![] Facts₀.bcast_S_S1x512 (constant (F := Ideal) S_ .f32 0x3727C5AC#32))))

/-- The shift row: the shift vector as a row less mean times scale. -/
def shiftK (S Q : FVec Ideal S1x512 .f32) (g b : FVec Ideal S512 .f32) : FVec Ideal S1x512 .f32 :=
  subf (fun i => shapeCast S1x512 b Facts₀.shapeCasts_S512_S1x512 i) (mulf (meanK S) (scaleK S Q g))

theorem W3_scale (c : Dev nD) : W3 m ρ c (Proc.devRef .tc main_v215)
    = scaleK (W2 m ρ c (Proc.devRef .tc main_v202_0)) (W2 m ρ c (Proc.devRef .tc main_v202_1)) (W2 m ρ c (Proc.devRef .tc main_arg2)) := by
  show StableHlo.after hostOps1 (W2 m ρ c) (Proc.devRef .tc main_v215) = _
  simp only [hostOps1]
  after_results_simp
  rfl

theorem W3_shift (c : Dev nD) : W3 m ρ c (Proc.devRef .tc main_v218)
    = shiftK (W2 m ρ c (Proc.devRef .tc main_v202_0)) (W2 m ρ c (Proc.devRef .tc main_v202_1)) (W2 m ρ c (Proc.devRef .tc main_arg2))
        (W2 m ρ c (Proc.devRef .tc main_arg3)) := by
  show StableHlo.after hostOps1 (W2 m ρ c) (Proc.devRef .tc main_v218) = _
  simp only [hostOps1]
  after_results_simp
  rfl

/-! ## The weights and the biases -/

/-- Narrowing to the shorter float format is the identity on the extended reals. -/
theorem W3_w1 (c : Dev nD) : (W3 m ρ c (Proc.devRef .tc main_v219) : S512x1024.Idx → EReal) = W2 m ρ c (Proc.devRef .tc main_arg4) := by
  show StableHlo.after hostOps1 (W2 m ρ c) (Proc.devRef .tc main_v219) = _
  simp only [hostOps1]
  after_results_simp
  rfl
/-- Narrowing to the shorter float format is the identity on the extended reals. -/
theorem W3_w2 (c : Dev nD) : (W3 m ρ c (Proc.devRef .tc main_v220) : S1024x512.Idx → EReal) = W2 m ρ c (Proc.devRef .tc main_arg6) := by
  show StableHlo.after hostOps1 (W2 m ρ c) (Proc.devRef .tc main_v220) = _
  simp only [hostOps1]
  after_results_simp
  rfl
/-- Narrowing to the shorter float format is the identity on the extended reals. -/
theorem W3_w3 (c : Dev nD) : (W3 m ρ c (Proc.devRef .tc main_v221) : S512x256.Idx → EReal) = W2 m ρ c (Proc.devRef .tc main_arg8) := by
  show StableHlo.after hostOps1 (W2 m ρ c) (Proc.devRef .tc main_v221) = _
  simp only [hostOps1]
  after_results_simp
  rfl
theorem W3_b1 (c : Dev nD) : W3 m ρ c (Proc.devRef .tc main_v222)
    = fun i => shapeCast S1x1024 (W2 m ρ c (Proc.devRef .tc main_arg5)) Facts₀.shapeCasts_S1024_S1x1024 i := by
  show StableHlo.after hostOps1 (W2 m ρ c) (Proc.devRef .tc main_v222) = _
  simp only [hostOps1]
  after_results_simp
  rfl
theorem W3_b2 (c : Dev nD) : W3 m ρ c (Proc.devRef .tc main_v223)
    = fun i => shapeCast S1x512 (W2 m ρ c (Proc.devRef .tc main_arg7)) Facts₀.shapeCasts_S512_S1x512 i := by
  show StableHlo.after hostOps1 (W2 m ρ c) (Proc.devRef .tc main_v223) = _
  simp only [hostOps1]
  after_results_simp
  rfl
theorem W3_b3 (c : Dev nD) : W3 m ρ c (Proc.devRef .tc main_v224)
    = fun i => shapeCast S1x256 (W2 m ρ c (Proc.devRef .tc main_arg9)) Facts₀.shapeCasts_S256_S1x256 i := by
  show StableHlo.after hostOps1 (W2 m ρ c) (Proc.devRef .tc main_v224) = _
  simp only [hostOps1]
  after_results_simp
  rfl

end Cert.KernelIdeal.Glue

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibPlainDotGeneral.lean ====
/-
  The host's product of an m × k matrix by a k × n matrix, read at an entry.

  A `dot_general` with the left operand contracted on its second axis and the right on its first has, at the exact
  extended reals, at entry (a, b) the sum over the k contracted coordinates c of A(a, c) · B(c, b). The general
  statement sums over the indices of a one-axis "contraction shape"; that index set is carried onto the k coordinates,
  and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- The host's `A · B`, at the exact extended reals, read at `(a, b)`: `∑ c, A (a, c) * B (c, b)`. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibMatrixProduct.lean ====
/-
  The product of two matrices over the extended reals, entry by entry, and the two machine forms of it.

  For an m × k array A and a k × n array B, `mm A B` has at entry (a, b) the sum over the k contracted
  coordinates c of A(a, c) · B(c, b). Both the host's `dot_general` (left operand contracted on its second axis, right
  operand on its first) and the matrix unit's product into an accumulator of zeros are this array: at the exact
  extended reals a product is a plain finite sum, whatever the order it is taken in and whatever float format the
  operands were narrowed to on the way in.
-/
import Idealize.ShloMosaic.PureOps.Ideal.Laws
import Idealize.ShloMosaic.Lib.ValueIdx
import proofs.«116118_j3607772528806_2_alg».proof.Proof.LibPlainMatmul
import proofs.«116118_j3607772528806_2_alg».proof.Proof.LibPlainDotGeneral

noncomputable section

open scoped BigOperators

namespace Cert.MatrixProduct

open Idealize.ShloMosaic Idealize.ShloMosaic.ValueIdx

/-- The matrix product, entry by entry: `(A · B)(a, b) = ∑ c, A(a, c) · B(c, b)`. -/
def mm {m k n : ℕ} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

/-- The product read at an entry given by its coordinates. -/
theorem mm_apply {m k n : ℕ} (A : (⟨2, ![m, k]⟩ : Shape).Idx → EReal) (B : (⟨2, ![k, n]⟩ : Shape).Idx → EReal)
    (a : Fin m) (b : Fin n) : mm A B (ix2 a b) = ∑ c : Fin k, A (ix2 a c) * B (ix2 c b) := rfl

/-- A product read through a block of rows. If `x0` holds, at row `j 0`, row `i 0` of A, and `x1` holds, at
    column `j 1`, column `i 1` of B, then entry `j` of `x0 · x1` is entry `i` of `A · B`: an entry of a product
    depends on one row of the left factor and one column of the right factor only. -/
theorem mm_of_row_col {M K N R Q : ℕ} (A : (⟨2, ![M, K]⟩ : Shape).Idx → EReal) (B : (⟨2, ![K, N]⟩ : Shape).Idx → EReal)
    (x0 : (⟨2, ![R, K]⟩ : Shape).Idx → EReal) (x1 : (⟨2, ![K, Q]⟩ : Shape).Idx → EReal)
    (j : (⟨2, ![R, Q]⟩ : Shape).Idx) (i : (⟨2, ![M, N]⟩ : Shape).Idx)
    (h0 : ∀ c : Fin K, x0 (ix2 (j 0) c) = A (ix2 (i 0) c))
    (h1 : ∀ c : Fin K, x1 (ix2 c (j 1)) = B (ix2 c (i 1))) :
    mm x0 x1 j = mm A B i := by
  show ∑ c : Fin K, x0 (ix2 (j 0) c) * x1 (ix2 c (j 1)) = ∑ c : Fin K, A (ix2 (i 0) c) * B (ix2 c (i 1))
  exact Finset.sum_congr rfl fun c _ => by rw [h0 c, h1 c]

/-- The host's `dot_general` of an m × k by a k × n matrix is the matrix product. -/
theorem dotGeneral_eq_mm {m k n : ℕ}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32) :
    Host.dotGeneral (⟨[1], [0], [0], [1], [], [], w⟩ : DotDims ⟨2, ![m, k]⟩ ⟨2, ![k, n]⟩ ⟨2, ![m, n]⟩) prec A B = mm A B := by
  funext i
  obtain ⟨a, b, rfl⟩ : ∃ (a : Fin m) (b : Fin n), i = ix2 a b := ⟨i 0, i 1, eq_ix2 i⟩
  exact dotGeneral_plain_apply w prec A B a b

/-- The matrix unit's product of an m × k by a k × n matrix into an accumulator of zeros is the matrix product,
    whatever float formats the two operands are held in. -/
theorem matmul_zero_eq_mm {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) = mm A B := by
  funext i
  obtain ⟨a, b, rfl⟩ : ∃ (a : Fin m) (b : Fin n), i = ix2 a b := ⟨i 0, i 1, eq_ix2 i⟩
  exact matmul_plain_zero_apply w prec A B a b

end Cert.MatrixProduct

end
-- ==== Proof.LibLayerForms.lean ====
/-
  The whole-array forms of the three dense stages, over the extended reals, and the fact that makes them computable
  block by block: each entry depends on one row of the row-indexed operands only.

  * `scaledProduct X W D`: entry (r, q) is (Σ_k X(r, k) · W(k, q)) · D(r, 0) — a matrix product whose row r is scaled by
    the r-th entry of a one-column array.
  * `activated A D B`: entry (r, k) is max(A(r, k) · D(r, 0) + B(0, k), 0) — scale each row, add a row vector, take the
    positive part. The zero is kept as the float word both programs write.
  * `biasedProduct X W B`: entry (r, q) is Σ_k X(r, k) · W(k, q) + B(0, q).
-/
import proofs.«116118_j3607772528806_2_alg».proof.Proof.LibMatrixProduct

noncomputable section

namespace Cert.Gcn

open Idealize.ShloMosaic Idealize.ShloMosaic.ValueIdx Cert.MatrixProduct

/-- A matrix product with each row scaled by that row's entry of a one-column array. -/
def scaledProduct {M K N : ℕ} (X : (⟨2, ![M, K]⟩ : Shape).Idx → EReal) (W : (⟨2, ![K, N]⟩ : Shape).Idx → EReal)
    (D : (⟨2, ![M, 1]⟩ : Shape).Idx → EReal) : (⟨2, ![M, N]⟩ : Shape).Idx → EReal :=
  fun i => mm X W i * D (ix2 (i 0) (0 : Fin 1))

/-- Each row scaled by its entry of a one-column array, a row vector added, the positive part taken. -/
def activated {M K : ℕ} (A : (⟨2, ![M, K]⟩ : Shape).Idx → EReal) (D : (⟨2, ![M, 1]⟩ : Shape).Idx → EReal)
    (B : (⟨2, ![1, K]⟩ : Shape).Idx → EReal) : (⟨2, ![M, K]⟩ : Shape).Idx → EReal :=
  fun i => max (A i * D (ix2 (i 0) (0 : Fin 1)) + B (ix2 (0 : Fin 1) (i 1))) (Ideal.ofBits .f32 0x00000000#32)

/-- A matrix product plus a row vector. -/
def biasedProduct {M K N : ℕ} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => mm X W i + B (ix2 (0 : Fin 1) (i 1))

/-- Row `p` of the activation of a block is row `r` of the activation of the whole arrays, when row `p` of the block is
    row `r` of the array, its factor is that row's factor, and the row vectors agree. -/
theorem activated_row {M R K : ℕ} (A : (⟨2, ![M, K]⟩ : Shape).Idx → EReal) (D : (⟨2, ![M, 1]⟩ : Shape).Idx → EReal)
    (B : (⟨2, ![1, K]⟩ : Shape).Idx → EReal) (x0 : (⟨2, ![R, K]⟩ : Shape).Idx → EReal) (x1 : (⟨2, ![R, 1]⟩ : Shape).Idx → EReal)
    (x2 : (⟨2, ![1, K]⟩ : Shape).Idx → EReal) (p : Fin R) (r : Fin M)
    (h0 : ∀ k : Fin K, x0 (ix2 p k) = A (ix2 r k)) (h1 : x1 (ix2 p (0 : Fin 1)) = D (ix2 r (0 : Fin 1)))
    (h2 : ∀ k : Fin K, x2 (ix2 (0 : Fin 1) k) = B (ix2 (0 : Fin 1) k)) (k : Fin K) :
    activated x0 x1 x2 (ix2 p k) = activated A D B (ix2 r k) := by
  show max (x0 (ix2 p k) * x1 (ix2 p (0 : Fin 1)) + x2 (ix2 (0 : Fin 1) k)) _
    = max (A (ix2 r k) * D (ix2 r (0 : Fin 1)) + B (ix2 (0 : Fin 1) k)) _
  rw [h0 k, h1, h2 k]

/-- Entry `(p, q)` of a block's product, scaled by the block's factor of row `p`, is entry `(r, q)` of the whole scaled
    product, when row `p` of the block is row `r`, the right factors agree on column `q`, and the factors agree. -/
theorem scaledProduct_row {M R K N : ℕ} (X : (⟨2, ![M, K]⟩ : Shape).Idx → EReal) (W : (⟨2, ![K, N]⟩ : Shape).Idx → EReal)
    (D : (⟨2, ![M, 1]⟩ : Shape).Idx → EReal) (x0 : (⟨2, ![R, K]⟩ : Shape).Idx → EReal) (x1 : (⟨2, ![K, N]⟩ : Shape).Idx → EReal)
    (x2 : (⟨2, ![R, 1]⟩ : Shape).Idx → EReal) (p : Fin R) (q : Fin N) (r : Fin M)
    (h0 : ∀ k : Fin K, x0 (ix2 p k) = X (ix2 r k)) (h1 : ∀ k : Fin K, x1 (ix2 k q) = W (ix2 k q))
    (h2 : x2 (ix2 p (0 : Fin 1)) = D (ix2 r (0 : Fin 1))) :
    mm x0 x1 (ix2 p q) * x2 (ix2 p (0 : Fin 1)) = scaledProduct X W D (ix2 r q) := by
  show _ = mm X W (ix2 r q) * D (ix2 r (0 : Fin 1))
  rw [h2]
  exact congrArg (· * D (ix2 r (0 : Fin 1))) (mm_of_row_col X W x0 x1 (ix2 p q) (ix2 r q) h0 h1)

/-- Entry `(p, q)` of a block's product plus a row vector is entry `(r, q)` of the whole biased product. -/
theorem biasedProduct_row {M R K N : ℕ} (X : (⟨2, ![M, K]⟩ : Shape).Idx → EReal) (W : (⟨2, ![K, N]⟩ : Shape).Idx → EReal)
    (B : (⟨2, ![1, N]⟩ : Shape).Idx → EReal) (x0 : (⟨2, ![R, K]⟩ : Shape).Idx → EReal) (x1 : (⟨2, ![K, N]⟩ : Shape).Idx → EReal)
    (x2 : (⟨2, ![1, N]⟩ : Shape).Idx → EReal) (p : Fin R) (q : Fin N) (r : Fin M)
    (h0 : ∀ k : Fin K, x0 (ix2 p k) = X (ix2 r k)) (h1 : ∀ k : Fin K, x1 (ix2 k q) = W (ix2 k q))
    (h2 : x2 (ix2 (0 : Fin 1) q) = B (ix2 (0 : Fin 1) q)) :
    mm x0 x1 (ix2 p q) + x2 (ix2 (0 : Fin 1) q) = biasedProduct X W B (ix2 r q) := by
  show _ = mm X W (ix2 r q) + B (ix2 (0 : Fin 1) q)
  rw [h2]
  exact congrArg (· + B (ix2 (0 : Fin 1) q)) (mm_of_row_col X W x0 x1 (ix2 p q) (ix2 r q) h0 h1)

end Cert.Gcn

end
-- ==== Proof.LibBiasedBlock.lean ====
/-
  One dense layer — a matrix product plus a row vector — in its three machine spellings.

  With X an M × K array, W a K × N array and b a vector of length N, the layer's value is the array whose entry (r, q) is
  Σ_k X(r, k) · W(k, q) + b(q). Over the extended reals three spellings of it are that one array:
    * the matrix unit's form on a block of rows: both operands narrowed to a shorter float format (the identity on
      the extended reals), multiplied into an accumulator of zeros, and a 1 × N row broadcast down the rows added;
    * the host's form: a `dot_general` plus the 1 × N row repeated M times;
    * the vector b written as a 1 × N row either by a reshape or by a broadcast along a new leading axis: the same row.
-/
import proofs.«116118_j3607772528806_2_alg».proof.Proof.LibLayerForms
import Idealize.ShloMosaic.Lib.ValueLayout
import Idealize.ShloMosaic.Lib.Pipeline.Value
import Idealize.ShloMosaic.Lib.ValueIdx

noncomputable section

namespace Cert.Gcn

open Idealize.ShloMosaic Idealize.ShloMosaic.ValueIdx Cert.MatrixProduct

/-- A vector of length `n` laid out as the one row of a 1 × n array. -/
def rowOf {n : ℕ} (b : (⟨1, ![n]⟩ : Shape).Idx → EReal) : (⟨2, ![1, n]⟩ : Shape).Idx → EReal :=
  fun i => b (ix1 (i 1))

/-- The matrix unit's layer on a block: operands narrowed to bf16, multiplied into zeros, plus the broadcast row. -/
theorem block_linear {R K N : ℕ}
    (w : DotDims.WF ⟨2, ![R, K]⟩ ⟨2, ![K, N]⟩ ⟨2, ![R, N]⟩ [1] [0] [0] [1] [] [])
    (hb : FTy.bits .bf16 < FTy.bits .f32)
    (h0 : (⟨2, ![R, K]⟩ : Shape).ShapeCasts ⟨2, ![R, K]⟩) (h2 : (⟨2, ![1, N]⟩ : Shape).ShapeCasts ⟨2, ![1, N]⟩)
    (hbc : (⟨2, ![1, N]⟩ : Shape).Broadcasts ⟨2, ![R, N]⟩)
    (x0 : FVec Ideal ⟨2, ![R, K]⟩ .f32) (x1 : FVec Ideal ⟨2, ![K, N]⟩ .f32) (x2 : FVec Ideal ⟨2, ![1, N]⟩ .f32) :
    addf (matmul (⟨[1], [0], [0], [1], [], [], w⟩ : DotDims ⟨2, ![R, K]⟩ ⟨2, ![K, N]⟩ ⟨2, ![R, N]⟩) none
          (truncf .bf16 (shapeCast ⟨2, ![R, K]⟩ x0 h0) hb) (truncf .bf16 x1 hb)
          (constant (F := Ideal) ⟨2, ![R, N]⟩ .f32 0x00000000#32))
        (broadcastTo ⟨2, ![R, N]⟩ (shapeCast ⟨2, ![1, N]⟩ x2 h2) hbc)
      = biasedProduct x0 x1 x2 := by
  funext j
  obtain ⟨p, q, rfl⟩ : ∃ (p : Fin R) (q : Fin N), j = ix2 p q := ⟨j 0, j 1, eq_ix2 j⟩
  rw [addf_apply, matmul_zero_eq_mm, shapeCast_self, shapeCast_self, broadcastTo_1b_ab_apply]
  rfl

/-- The host's layer: a `dot_general` plus a 1 × N row repeated down the M rows. -/
theorem host_linear {M K N : ℕ}
    (w : DotDims.WF ⟨2, ![M, K]⟩ ⟨2, ![K, N]⟩ ⟨2, ![M, N]⟩ [1] [0] [0] [1] [] [])
    (h2 : (⟨2, ![1, N]⟩ : Shape).BroadcastsInDim ⟨2, ![M, N]⟩ (![0, 1] : Fin 2 → Fin 2))
    (A : FVec Ideal ⟨2, ![M, K]⟩ .f32) (W : FVec Ideal ⟨2, ![K, N]⟩ .f32) (B : FVec Ideal ⟨2, ![1, N]⟩ .f32) :
    addf (Host.dotGeneral (⟨[1], [0], [0], [1], [], [], w⟩ : DotDims ⟨2, ![M, K]⟩ ⟨2, ![K, N]⟩ ⟨2, ![M, N]⟩) none A W)
        (broadcastInDim ⟨2, ![M, N]⟩ (![0, 1] : Fin 2 → Fin 2) h2 B)
      = biasedProduct A W B := by
  funext j
  obtain ⟨p, q, rfl⟩ : ∃ (p : Fin M) (q : Fin N), j = ix2 p q := ⟨j 0, j 1, eq_ix2 j⟩
  rw [addf_apply, dotGeneral_eq_mm]
  refine congrArg (mm A W (ix2 p q) + ·) ?_
  refine broadcastInDim_apply _ h2 B (ix2 p q) (ix2 (0 : Fin 1) q) (fun ax => ?_)
  match ax with
  | ⟨0, _⟩ => show 0 = if (1 : ℕ) = 1 then 0 else p.val; rw [if_pos rfl]
  | ⟨1, _⟩ =>
    show q.val = if N = 1 then 0 else q.val
    split
    · have := q.isLt; omega
    · rfl

/-- A vector broadcast along a new leading axis is its one row. -/
theorem bcast_row_eq_rowOf {n : ℕ} (b : (⟨1, ![n]⟩ : Shape).Idx → EReal)
    (h1 : (⟨1, ![n]⟩ : Shape).BroadcastsInDim ⟨2, ![1, n]⟩ (![1] : Fin 1 → Fin 2)) :
    broadcastInDim ⟨2, ![1, n]⟩ (![1] : Fin 1 → Fin 2) h1 b = rowOf b := by
  funext j
  obtain ⟨u, a, rfl⟩ : ∃ (u : Fin 1) (a : Fin n), j = ix2 u a := ⟨j 0, j 1, eq_ix2 j⟩
  refine broadcastInDim_apply _ h1 b (ix2 u a) (ix1 a) (fun ax => ?_)
  match ax with
  | ⟨0, _⟩ =>
    show a.val = if n = 1 then 0 else a.val
    split
    · have := a.isLt; omega
    · rfl

/-- A vector reshaped to 1 × n is its one row. -/
theorem cast_row_eq_rowOf {n : ℕ} (b : (⟨1, ![n]⟩ : Shape).Idx → EReal)
    (h : (⟨1, ![n]⟩ : Shape).ShapeCasts ⟨2, ![1, n]⟩) :
    shapeCast ⟨2, ![1, n]⟩ b h = rowOf b := by
  funext j
  obtain ⟨u, a, rfl⟩ : ∃ (u : Fin 1) (a : Fin n), j = ix2 u a := ⟨j 0, j 1, eq_ix2 j⟩
  exact shapeCast_a_1a_apply b h u a

end Cert.Gcn

end
-- ==== Proof.MlpSpec.lean ====
/-
  Three dense layers over the extended reals, fed by a column-wise affine map.

      affineCols X S T (r, i) = X(r, i) · S(0, i) + T(0, i)
      hidden X W B (r, k)     = max (Σ_j X(r, j) · W(j, k) + B(0, k), 0)
      mlp3 X W1 B1 W2 B2 W3 B3 = biasedProduct (hidden (hidden X W1 B1) W2 B2) W3 B3

  with the scale, the shift and the three bias vectors laid out as one-row arrays and the zero kept as the float word
  both programs write. Every entry of each of these arrays depends on ONE row of X only, so a computation tiled over
  blocks of rows assembles the whole array: the row lemmas below say so.
-/
import proofs.«116118_j3607772528806_2_alg».proof.Proof.LibBiasedBlock

noncomputable section

namespace Cert.Dense3

open Idealize.ShloMosaic Idealize.ShloMosaic.ValueIdx Cert.MatrixProduct Cert.Gcn

/-- Column `i` of `X` scaled by `S(0, i)` and shifted by `T(0, i)`. -/
def affineCols {M K : ℕ} (X : (⟨2, ![M, K]⟩ : Shape).Idx → EReal) (S T : (⟨2, ![1, K]⟩ : Shape).Idx → EReal) :
    (⟨2, ![M, K]⟩ : Shape).Idx → EReal :=
  fun i => X i * S (ix2 (0 : Fin 1) (i 1)) + T (ix2 (0 : Fin 1) (i 1))

/-- A biased product, then the larger of it and the zero word. -/
def hidden {M K N : ℕ} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (biasedProduct X W B i) (Ideal.ofBits .f32 0x00000000#32)

/-- The three layers. -/
def mlp3 {M K N P Q : ℕ} (X : (⟨2, ![M, K]⟩ : Shape).Idx → EReal)
    (W1 : (⟨2, ![K, N]⟩ : Shape).Idx → EReal) (B1 : (⟨2, ![1, N]⟩ : Shape).Idx → EReal)
    (W2 : (⟨2, ![N, P]⟩ : Shape).Idx → EReal) (B2 : (⟨2, ![1, P]⟩ : Shape).Idx → EReal)
    (W3 : (⟨2, ![P, Q]⟩ : Shape).Idx → EReal) (B3 : (⟨2, ![1, Q]⟩ : Shape).Idx → EReal) :
    (⟨2, ![M, Q]⟩ : Shape).Idx → EReal :=
  biasedProduct (hidden (hidden X W1 B1) W2 B2) W3 B3

/-- Row `p` of the affine image of a block is row `r` of the affine image of the array, when the rows agree. -/
theorem affineCols_row {M R K : ℕ} (X : (⟨2, ![M, K]⟩ : Shape).Idx → EReal) (S T : (⟨2, ![1, K]⟩ : Shape).Idx → EReal)
    (x0 : (⟨2, ![R, K]⟩ : Shape).Idx → EReal) (p : Fin R) (r : Fin M)
    (h0 : ∀ k : Fin K, x0 (ix2 p k) = X (ix2 r k)) (k : Fin K) :
    affineCols x0 S T (ix2 p k) = affineCols X S T (ix2 r k) := by
  show x0 (ix2 p k) * S (ix2 (0 : Fin 1) k) + T (ix2 (0 : Fin 1) k) = X (ix2 r k) * S (ix2 (0 : Fin 1) k) + T (ix2 (0 : Fin 1) k)
  rw [h0 k]

/-- Row `p` of a hidden layer of a block is row `r` of the hidden layer of the array, when the rows agree. -/
theorem hidden_row {M R K N : ℕ} (X : (⟨2, ![M, K]⟩ : Shape).Idx → EReal) (W : (⟨2, ![K, N]⟩ : Shape).Idx → EReal)
    (B : (⟨2, ![1, N]⟩ : Shape).Idx → EReal) (x0 : (⟨2, ![R, K]⟩ : Shape).Idx → EReal) (p : Fin R) (r : Fin M)
    (h0 : ∀ k : Fin K, x0 (ix2 p k) = X (ix2 r k)) (q : Fin N) :
    hidden x0 W B (ix2 p q) = hidden X W B (ix2 r q) := by
  show max (biasedProduct x0 W B (ix2 p q)) _ = max (biasedProduct X W B (ix2 r q)) _
  exact congrArg (max · _) (biasedProduct_row X W B x0 W B p q r h0 (fun _ => rfl) rfl)

/-- Row `p` of the three layers of a block of rows is row `r` of the three layers of the array, when row `p` of the block
    is row `r` of the array. -/
theorem mlp3_row {M R K N P Q : ℕ} (X : (⟨2, ![M, K]⟩ : Shape).Idx → EReal)
    (W1 : (⟨2, ![K, N]⟩ : Shape).Idx → EReal) (B1 : (⟨2, ![1, N]⟩ : Shape).Idx → EReal)
    (W2 : (⟨2, ![N, P]⟩ : Shape).Idx → EReal) (B2 : (⟨2, ![1, P]⟩ : Shape).Idx → EReal)
    (W3 : (⟨2, ![P, Q]⟩ : Shape).Idx → EReal) (B3 : (⟨2, ![1, Q]⟩ : Shape).Idx → EReal)
    (x0 : (⟨2, ![R, K]⟩ : Shape).Idx → EReal) (p : Fin R) (r : Fin M)
    (h0 : ∀ k : Fin K, x0 (ix2 p k) = X (ix2 r k)) (q : Fin Q) :
    mlp3 x0 W1 B1 W2 B2 W3 B3 (ix2 p q) = mlp3 X W1 B1 W2 B2 W3 B3 (ix2 r q) :=
  biasedProduct_row (hidden (hidden X W1 B1) W2 B2) W3 B3 (hidden (hidden x0 W1 B1) W2 B2) W3 B3 p q r
    (fun k => hidden_row (hidden X W1 B1) W2 B2 (hidden x0 W1 B1) p r (fun j => hidden_row X W1 B1 x0 p r h0 j) k)
    (fun _ => rfl) rfl

end Cert.Dense3

end
-- ==== Proof.Region1Block.lean ====
/-
  One grid point of the second kernel region, as a function of whole blocks.

  The region's body reads a block of 1024 rows of the input and the whole of the scale, the shift, the three weight
  arrays and the three bias rows, and stores one block of 1024 rows of the output. Over the extended reals a change of
  float format is the identity and a product into an accumulator of zeros is the plain sum, so what it stores is the
  three dense layers of `Cert.Dense3` applied to the column-wise affine image of the block:

      xn = x · scale + shift,   h1 = max (xn · W1 + b1, 0),   h2 = max (h1 · W2 + b2, 0),   out = h2 · W3 + b3.

  Each stage is first read as one whole-block function (`block_affine`, `block_hidden`, `block_biased`), over blocks
  of any size; `block_value` composes them at the kernel's sizes.
-/
import proofs.«116118_j3607772528806_2_alg».proof.Proof.Gen.KernelIdeal.Skeleton
import proofs.«116118_j3607772528806_2_alg».proof.Proof.MlpSpec

noncomputable section

namespace Cert.KernelIdeal.MlpValue

open Idealize.ShloMosaic Idealize.ShloMosaic.ValueIdx Cert.MatrixProduct Cert.Gcn Cert.Dense3
open Cert.KernelIdeal Cert.KernelIdeal.Gen

/-- Every column of a block scaled by that column's factor and shifted by that column's offset, the factors and
    offsets held as one-row arrays broadcast down the rows: the column-wise affine image of the block. -/
theorem block_affine {R K : ℕ}
    (h0 : (⟨2, ![R, K]⟩ : Shape).ShapeCasts ⟨2, ![R, K]⟩) (h1 : (⟨2, ![1, K]⟩ : Shape).ShapeCasts ⟨2, ![1, K]⟩)
    (hbc : (⟨2, ![1, K]⟩ : Shape).Broadcasts ⟨2, ![R, K]⟩)
    (X : FVec Ideal ⟨2, ![R, K]⟩ .f32) (S T : FVec Ideal ⟨2, ![1, K]⟩ .f32) :
    addf (mulf (shapeCast ⟨2, ![R, K]⟩ X h0) (broadcastTo ⟨2, ![R, K]⟩ (shapeCast ⟨2, ![1, K]⟩ S h1) hbc))
        (broadcastTo ⟨2, ![R, K]⟩ (shapeCast ⟨2, ![1, K]⟩ T h1) hbc)
      = affineCols X S T := by
  funext j
  obtain ⟨p, k, rfl⟩ : ∃ (p : Fin R) (k : Fin K), j = ix2 p k := ⟨j 0, j 1, eq_ix2 j⟩
  rw [addf_apply, mulf_apply, shapeCast_self, shapeCast_self, shapeCast_self, broadcastTo_1b_ab_apply,
    broadcastTo_1b_ab_apply]
  rfl

/-- A biased product on a block whose weight array is already held in the short format: the left operand narrowed
    (the identity on the extended reals), multiplied into zeros, plus the bias row broadcast down the rows. -/
theorem block_biased {R K N : ℕ}
    (w : DotDims.WF ⟨2, ![R, K]⟩ ⟨2, ![K, N]⟩ ⟨2, ![R, N]⟩ [1] [0] [0] [1] [] [])
    (hb : FTy.bits .bf16 < FTy.bits .f32)
    (h1 : (⟨2, ![K, N]⟩ : Shape).ShapeCasts ⟨2, ![K, N]⟩) (h2 : (⟨2, ![1, N]⟩ : Shape).ShapeCasts ⟨2, ![1, N]⟩)
    (hbc : (⟨2, ![1, N]⟩ : Shape).Broadcasts ⟨2, ![R, N]⟩)
    (X : FVec Ideal ⟨2, ![R, K]⟩ .f32) (W : FVec Ideal ⟨2, ![K, N]⟩ .bf16) (B : FVec Ideal ⟨2, ![1, N]⟩ .f32) :
    addf (matmul (⟨[1], [0], [0], [1], [], [], w⟩ : DotDims ⟨2, ![R, K]⟩ ⟨2, ![K, N]⟩ ⟨2, ![R, N]⟩) none
          (truncf .bf16 X hb) (shapeCast ⟨2, ![K, N]⟩ W h1)
          (constant (F := Ideal) ⟨2, ![R, N]⟩ .f32 0x00000000#32))
        (broadcastTo ⟨2, ![R, N]⟩ (shapeCast ⟨2, ![1, N]⟩ B h2) hbc)
      = biasedProduct X W B := by
  funext j
  obtain ⟨p, q, rfl⟩ : ∃ (p : Fin R) (q : Fin N), j = ix2 p q := ⟨j 0, j 1, eq_ix2 j⟩
  rw [addf_apply, matmul_zero_eq_mm, shapeCast_self, shapeCast_self, broadcastTo_1b_ab_apply]
  rfl

/-- A hidden layer on a block: the biased product, then the larger of it and the zero word broadcast over the block. -/
theorem block_hidden {R K N : ℕ}
    (w : DotDims.WF ⟨2, ![R, K]⟩ ⟨2, ![K, N]⟩ ⟨2, ![R, N]⟩ [1] [0] [0] [1] [] [])
    (hb : FTy.bits .bf16 < FTy.bits .f32)
    (h1 : (⟨2, ![K, N]⟩ : Shape).ShapeCasts ⟨2, ![K, N]⟩) (h2 : (⟨2, ![1, N]⟩ : Shape).ShapeCasts ⟨2, ![1, N]⟩)
    (hbc : (⟨2, ![1, N]⟩ : Shape).Broadcasts ⟨2, ![R, N]⟩)
    (X : FVec Ideal ⟨2, ![R, K]⟩ .f32) (W : FVec Ideal ⟨2, ![K, N]⟩ .bf16) (B : FVec Ideal ⟨2, ![1, N]⟩ .f32) :
    maximumf (addf (matmul (⟨[1], [0], [0], [1], [], [], w⟩ : DotDims ⟨2, ![R, K]⟩ ⟨2, ![K, N]⟩ ⟨2, ![R, N]⟩) none
            (truncf .bf16 X hb) (shapeCast ⟨2, ![K, N]⟩ W h1)
            (constant (F := Ideal) ⟨2, ![R, N]⟩ .f32 0x00000000#32))
          (broadcastTo ⟨2, ![R, N]⟩ (shapeCast ⟨2, ![1, N]⟩ B h2) hbc))
        (broadcast ⟨2, ![R, N]⟩ (Scalar.ofBits (F := Ideal) .f32 0x00000000#32))
      = hidden X W B := by
  rw [block_biased w hb h1 h2 hbc X W B]
  rfl

/-- WHAT ONE POINT STORES, as a function of the blocks it reads: the three layers of the affine image of its block
    of input rows. -/
theorem block_value (x0 : Vec Ideal S1024x512 .f32) (x1 : Vec Ideal S1x512 .f32) (x2 : Vec Ideal S1x512 .f32)
    (x3 : Vec Ideal S512x1024 .bf16) (x4 : Vec Ideal S1x1024 .f32) (x5 : Vec Ideal S1024x512 .bf16)
    (x6 : Vec Ideal S1x512 .f32) (x7 : Vec Ideal S512x256 .bf16) (x8 : Vec Ideal S1x256 .f32) :
    k1_pay1 (k1_pay2 x0 x1 x2 x3 x4 x5 x6 x7) (k1_pay3 x8)
      = mlp3 (affineCols x0 x1 x2) x3 x4 x5 x6 x7 x8 := by
  have d1 : (dot_S1024x512_S512x1024_S1024x1024_1_0_0_1_n_n : DotDims S1024x512 S512x1024 S1024x1024)
      = ⟨[1], [0], [0], [1], [], [], dot_S1024x512_S512x1024_S1024x1024_1_0_0_1_n_n_wf⟩ := rfl
  have d2 : (dot_S1024x1024_S1024x512_S1024x512_1_0_0_1_n_n : DotDims S1024x1024 S1024x512 S1024x512)
      = ⟨[1], [0], [0], [1], [], [], dot_S1024x1024_S1024x512_S1024x512_1_0_0_1_n_n_wf⟩ := rfl
  have d3 : (dot_S1024x512_S512x256_S1024x256_1_0_0_1_n_n : DotDims S1024x512 S512x256 S1024x256)
      = ⟨[1], [0], [0], [1], [], [], dot_S1024x512_S512x256_S1024x256_1_0_0_1_n_n_wf⟩ := rfl
  unfold k1_pay1 k1_pay2 k1_pay3
  dsimp only
  rw [d1, d2, d3,
    block_affine shapeCasts_S1024x512_S1024x512 shapeCasts_S1x512_S1x512 broadcasts_S1x512_S1024x512 x0 x1 x2,
    block_hidden dot_S1024x512_S512x1024_S1024x1024_1_0_0_1_n_n_wf bitsLt_bf16_f32 shapeCasts_S512x1024_S512x1024
      shapeCasts_S1x1024_S1x1024 broadcasts_S1x1024_S1024x1024 (affineCols x0 x1 x2) x3 x4,
    block_hidden dot_S1024x1024_S1024x512_S1024x512_1_0_0_1_n_n_wf bitsLt_bf16_f32 shapeCasts_S1024x512_S1024x512
      shapeCasts_S1x512_S1x512 broadcasts_S1x512_S1024x512 (hidden (affineCols x0 x1 x2) x3 x4) x5 x6,
    block_biased dot_S1024x512_S512x256_S1024x256_1_0_0_1_n_n_wf bitsLt_bf16_f32 shapeCasts_S512x256_S512x256
      shapeCasts_S1x256_S1x256 broadcasts_S1x256_S1024x256 (hidden (hidden (affineCols x0 x1 x2) x3 x4) x5 x6) x7 x8]
  rfl

end Cert.KernelIdeal.MlpValue

end
-- ==== Proof.Region1.lean ====
/-
  What the second region leaves in its output array.

  The region runs over four points. At point `t` it reads rows `1024 · t … 1024 · t + 1023` of the input array and the
  whole of the scale row, the shift row, the three weight arrays and the three bias rows, and writes rows
  `1024 · t … 1024 · t + 1023` of the output array. By `block_value` what it writes is the three dense layers of the
  column-wise affine image of its block of input rows. An entry of those layers depends on ONE row of the input only
  (`Cert.Dense3.mlp3_row`, `Cert.Dense3.affineCols_row`), and row `p` of block `t` is row `1024 · t + p` of the
  array, so each point writes its own block of ONE whole-array function, `regionValue`: the three layers of the
  affine image of the whole input. The four blocks fill the output array (row `r` lies in block `r / 1024`), so after
  the last point the output array IS `regionValue` (`out_value`), whatever it held on entry.

  Everything is stated at a parameter `V`, the buffer contents the region finds on entry.
-/
import proofs.«116118_j3607772528806_2_alg».proof.Proof.Gen.KernelIdeal.Frame
import proofs.«116118_j3607772528806_2_alg».proof.Proof.MlpSpec
import proofs.«116118_j3607772528806_2_alg».proof.Proof.Region1Block
import Idealize.ShloMosaic.Lib.Pipeline.Value

noncomputable section

namespace Cert.KernelIdeal.MlpValue

open Cert.KernelIdeal Cert.KernelIdeal.Gen Idealize.ShloMosaic Idealize.ShloMosaic.TcCoe Idealize.SL.Sem
open Idealize.ShloMosaic.ValueIdx Cert.Dense3
open Idealize.ShloMosaic.Pipeline (Dat)

variable (V : (c : Dev nD) → (b : Ref sig .tc) → Buf (Elt Ideal) ((c : Thread nD τ).loc b))

/-- The zero offsets of a whole-buffer access, as the constant function. -/
theorem zero_offsets : (![0, 0] : Fin 2 → Nat) = fun _ => 0 := funext fun a => by fin_cases a <;> rfl

/-- The windows' index maps, decided over the four points: the window over the input's rows and the window over the
    output's rows sit at block `(t, 0)`, every other window at block `(0, 0)`. -/
theorem block_indices : ∀ t : Fin cfg1.N,
    win1_0.index t (0 : Fin 2) = t.val ∧ win1_0.index t (1 : Fin 2) = 0
    ∧ win1_9.index t (0 : Fin 2) = t.val ∧ win1_9.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-! ## The windows that hold a whole array

Eight of the nine input windows have one block, the array itself, at block index `(0, 0)` at every point: read through
such a window the array is unchanged. -/

/-- The scale row, read through its window at any point, is the scale row. -/
theorem scale_block (c : Dev nD) (t : Fin cfg1.N) :
    (iblk1 V c 1 t : S1x512.Idx → EReal) = (V c main_v215 : S1x512.Idx → EReal) := by
  obtain ⟨-, -, -, -, e0, e1, -⟩ := block_indices t
  funext x
  unfold iblk1
  rw [View.read_apply]
  show (V c main_v215 : S1x512.Idx → EReal) _ = (V c main_v215 : S1x512.Idx → EReal) x
  refine congrArg (V c main_v215 : S1x512.Idx → EReal) ?_
  funext a
  apply Fin.ext
  match a with
  | ⟨0, _⟩ => show win1_1.index t (0 : Fin 2) * 1 + 1 * (x 0).val = (x 0).val; rw [e0]; omega
  | ⟨1, _⟩ => show win1_1.index t (1 : Fin 2) * 512 + 1 * (x 1).val = (x 1).val; rw [e1]; omega

/-- The shift row, read through its window at any point, is the shift row. -/
theorem shift_block (c : Dev nD) (t : Fin cfg1.N) :
    (iblk1 V c 2 t : S1x512.Idx → EReal) = (V c main_v218 : S1x512.Idx → EReal) := by
  obtain ⟨-, -, -, -, -, -, e0, e1, -⟩ := block_indices t
  funext x
  unfold iblk1
  rw [View.read_apply]
  show (V c main_v218 : S1x512.Idx → EReal) _ = (V c main_v218 : S1x512.Idx → EReal) x
  refine congrArg (V c main_v218 : S1x512.Idx → EReal) ?_
  funext a
  apply Fin.ext
  match a with
  | ⟨0, _⟩ => show win1_2.index t (0 : Fin 2) * 1 + 1 * (x 0).val = (x 0).val; rw [e0]; omega
  | ⟨1, _⟩ => show win1_2.index t (1 : Fin 2) * 512 + 1 * (x 1).val = (x 1).val; rw [e1]; omega

/-- The first layer's weights, read through their window at any point, are the whole weight array. -/
theorem weights1_block (c : Dev nD) (t : Fin cfg1.N) :
    (iblk1 V c 3 t : S512x1024.Idx → EReal) = (V c main_v219 : S512x1024.Idx → EReal) := by
  obtain ⟨-, -, -, -, -, -, -, -, e0, e1, -⟩ := block_indices t
  funext x
  unfold iblk1
  rw [View.read_apply]
  show (V c main_v219 : S512x1024.Idx → EReal) _ = (V c main_v219 : S512x1024.Idx → EReal) x
  refine congrArg (V c main_v219 : S512x1024.Idx → EReal) ?_
  funext a
  apply Fin.ext
  match a with
  | ⟨0, _⟩ => show win1_3.index t (0 : Fin 2) * 512 + 1 * (x 0).val = (x 0).val; rw [e0]; omega
  | ⟨1, _⟩ => show win1_3.index t (1 : Fin 2) * 1024 + 1 * (x 1).val = (x 1).val; rw [e1]; omega

/-- The first layer's bias row, read through its window at any point, is the bias row. -/
theorem bias1_block (c : Dev nD) (t : Fin cfg1.N) :
    (iblk1 V c 4 t : S1x1024.Idx → EReal) = (V c main_v222 : S1x1024.Idx → EReal) := by
  obtain ⟨-, -, -, -, -, -, -, -, -, -, e0, e1, -⟩ := block_indices t
  funext x
  unfold iblk1
  rw [View.read_apply]
  show (V c main_v222 : S1x1024.Idx → EReal) _ = (V c main_v222 : S1x1024.Idx → EReal) x
  refine congrArg (V c main_v222 : S1x1024.Idx → EReal) ?_
  funext a
  apply Fin.ext
  match a with
  | ⟨0, _⟩ => show win1_4.index t (0 : Fin 2) * 1 + 1 * (x 0).val = (x 0).val; rw [e0]; omega
  | ⟨1, _⟩ => show win1_4.index t (1 : Fin 2) * 1024 + 1 * (x 1).val = (x 1).val; rw [e1]; omega

/-- The second layer's weights, read through their window at any point, are the whole weight array. -/
theorem weights2_block (c : Dev nD) (t : Fin cfg1.N) :
    (iblk1 V c 5 t : S1024x512.Idx → EReal) = (V c main_v220 : S1024x512.Idx → EReal) := by
  obtain ⟨-, -, -, -, -, -, -, -, -, -, -, -, e0, e1, -⟩ := block_indices t
  funext x
  unfold iblk1
  rw [View.read_apply]
  show (V c main_v220 : S1024x512.Idx → EReal) _ = (V c main_v220 : S1024x512.Idx → EReal) x
  refine congrArg (V c main_v220 : S1024x512.Idx → EReal) ?_
  funext a
  apply Fin.ext
  match a with
  | ⟨0, _⟩ => show win1_5.index t (0 : Fin 2) * 1024 + 1 * (x 0).val = (x 0).val; rw [e0]; omega
  | ⟨1, _⟩ => show win1_5.index t (1 : Fin 2) * 512 + 1 * (x 1).val = (x 1).val; rw [e1]; omega

/-- The second layer's bias row, read through its window at any point, is the bias row. -/
theorem bias2_block (c : Dev nD) (t : Fin cfg1.N) :
    (iblk1 V c 6 t : S1x512.Idx → EReal) = (V c main_v223 : S1x512.Idx → EReal) := by
  obtain ⟨-, -, -, -, -, -, -, -, -, -, -, -, -, -, e0, e1, -⟩ := block_indices t
  funext x
  unfold iblk1
  rw [View.read_apply]
  show (V c main_v223 : S1x512.Idx → EReal) _ = (V c main_v223 : S1x512.Idx → EReal) x
  refine congrArg (V c main_v223 : S1x512.Idx → EReal) ?_
  funext a
  apply Fin.ext
  match a with
  | ⟨0, _⟩ => show win1_6.index t (0 : Fin 2) * 1 + 1 * (x 0).val = (x 0).val; rw [e0]; omega
  | ⟨1, _⟩ => show win1_6.index t (1 : Fin 2) * 512 + 1 * (x 1).val = (x 1).val; rw [e1]; omega

/-- The third layer's weights, read through their window at any point, are the whole weight array. -/
theorem weights3_block (c : Dev nD) (t : Fin cfg1.N) :
    (iblk1 V c 7 t : S512x256.Idx → EReal) = (V c main_v221 : S512x256.Idx → EReal) := by
  obtain ⟨-, -, -, -, -, -, -, -, -, -, -, -, -, -, -, -, e0, e1, -⟩ := block_indices t
  funext x
  unfold iblk1
  rw [View.read_apply]
  show (V c main_v221 : S512x256.Idx → EReal) _ = (V c main_v221 : S512x256.Idx → EReal) x
  refine congrArg (V c main_v221 : S512x256.Idx → EReal) ?_
  funext a
  apply Fin.ext
  match a with
  | ⟨0, _⟩ => show win1_7.index t (0 : Fin 2) * 512 + 1 * (x 0).val = (x 0).val; rw [e0]; omega
  | ⟨1, _⟩ => show win1_7.index t (1 : Fin 2) * 256 + 1 * (x 1).val = (x 1).val; rw [e1]; omega

/-- The third layer's bias row, read through its window at any point, is the bias row. -/
theorem bias3_block (c : Dev nD) (t : Fin cfg1.N) :
    (iblk1 V c 8 t : S1x256.Idx → EReal) = (V c main_v224 : S1x256.Idx → EReal) := by
  obtain ⟨-, -, -, -, -, -, -, -, -, -, -, -, -, -, -, -, -, -, e0, e1⟩ := block_indices t
  funext x
  unfold iblk1
  rw [View.read_apply]
  show (V c main_v224 : S1x256.Idx → EReal) _ = (V c main_v224 : S1x256.Idx → EReal) x
  refine congrArg (V c main_v224 : S1x256.Idx → EReal) ?_
  funext a
  apply Fin.ext
  match a with
  | ⟨0, _⟩ => show win1_8.index t (0 : Fin 2) * 1 + 1 * (x 0).val = (x 0).val; rw [e0]; omega
  | ⟨1, _⟩ => show win1_8.index t (1 : Fin 2) * 256 + 1 * (x 1).val = (x 1).val; rw [e1]; omega

/-! ## The window over the input's rows -/

/-- Row `p` of the input's block at point `t` is row `1024 · t + p` of the input array. -/
theorem rows_block (c : Dev nD) (t : Fin cfg1.N) (p : Fin 1024) (k : Fin 512) (r : Fin 4096)
    (hr : r.val = 1024 * t.val + p.val) :
    (iblk1 V c 0 t : S1024x512.Idx → EReal) (ix2 p k) = (V c main_v201 : S4096x512.Idx → EReal) (ix2 r k) := by
  obtain ⟨e0, e1, -⟩ := block_indices t
  unfold iblk1
  rw [View.read_apply]
  show (V c main_v201 : S4096x512.Idx → EReal) _ = (V c main_v201 : S4096x512.Idx → EReal) (ix2 r k)
  refine congrArg (V c main_v201 : S4096x512.Idx → EReal) ?_
  funext a
  apply Fin.ext
  match a with
  | ⟨0, _⟩ => show win1_0.index t (0 : Fin 2) * 1024 + 1 * p.val = r.val; rw [e0, hr]; omega
  | ⟨1, _⟩ => show win1_0.index t (1 : Fin 2) * 512 + 1 * k.val = k.val; rw [e1]; omega

/-! ## What a point writes back, and the array after the last point -/

/-- The region's result as ONE function of the arrays it finds on entry: the three dense layers of the column-wise
    affine image of the whole input array. -/
abbrev regionValue (c : Dev nD) : S4096x256.Idx → EReal :=
  mlp3 (affineCols (V c main_v201 : S4096x512.Idx → EReal) (V c main_v215 : S1x512.Idx → EReal)
      (V c main_v218 : S1x512.Idx → EReal))
    (V c main_v219 : S512x1024.Idx → EReal) (V c main_v222 : S1x1024.Idx → EReal)
    (V c main_v220 : S1024x512.Idx → EReal) (V c main_v223 : S1x512.Idx → EReal)
    (V c main_v221 : S512x256.Idx → EReal) (V c main_v224 : S1x256.Idx → EReal)

/-- WHAT POINT `t` WRITES BACK is block `t` of `regionValue`: the point's own block of 1024 input rows is rows
    `1024 · t …` of the input array, every other operand is a whole array, and an entry of the three layers depends
    on one row of the input only (`Cert.Dense3.mlp3_row`). -/
theorem flushed_eq (c : Dev nD) (t : Fin cfg1.N) :
    (dat1 V c).flushed 9 t = ((cfg1.win 9).blk t).view.read (Elt Ideal) (regionValue V c) := by
  show (cfg1.win 9).cut (grid1.coords t) ((dat1 V c).after 9 t) = _
  rw [after1_9]
  unfold out1_9
  rw [View.canon_unit_zero zero_offsets]
  simp only [View.ld_unit_zero (S := S1024x512) zero_offsets, View.ld_unit_zero (S := S1x512) zero_offsets,
    View.ld_unit_zero (S := S512x1024) zero_offsets, View.ld_unit_zero (S := S1x1024) zero_offsets,
    View.ld_unit_zero (S := S512x256) zero_offsets, View.ld_unit_zero (S := S1x256) zero_offsets]
  rw [block_value (iblk1 V c 0 t) (iblk1 V c 1 t) (iblk1 V c 2 t) (iblk1 V c 3 t) (iblk1 V c 4 t) (iblk1 V c 5 t)
    (iblk1 V c 6 t) (iblk1 V c 7 t) (iblk1 V c 8 t)]
  rw [scale_block V c t, shift_block V c t, weights1_block V c t, bias1_block V c t, weights2_block V c t,
    bias2_block V c t, weights3_block V c t, bias3_block V c t]
  obtain ⟨-, -, e2, e3, -⟩ := block_indices t
  have h4 : cfg1.N = 4 := N_1
  refine funext fun (j : S1024x256.Idx) => ?_
  obtain ⟨p, q, rfl⟩ : ∃ (p : Fin 1024) (q : Fin 256), j = ix2 p q := ⟨j 0, j 1, eq_ix2 j⟩
  rw [View.read_apply]
  have hr : 1024 * t.val + p.val < 4096 := by have := t.isLt; have := p.isLt; omega
  have he : ((cfg1.win 9).blk t).view.emb (ix2 p q) = (ix2 (⟨1024 * t.val + p.val, hr⟩ : Fin 4096) q : S4096x256.Idx) := by
    funext a
    apply Fin.ext
    match a with
    | ⟨0, _⟩ => show win1_9.index t (0 : Fin 2) * 1024 + 1 * p.val = 1024 * t.val + p.val; rw [e2]; omega
    | ⟨1, _⟩ => show win1_9.index t (1 : Fin 2) * 256 + 1 * q.val = q.val; rw [e3]; omega
  show mlp3 (affineCols (iblk1 V c 0 t : S1024x512.Idx → EReal) (V c main_v215 : S1x512.Idx → EReal)
        (V c main_v218 : S1x512.Idx → EReal))
      (V c main_v219 : S512x1024.Idx → EReal) (V c main_v222 : S1x1024.Idx → EReal)
      (V c main_v220 : S1024x512.Idx → EReal) (V c main_v223 : S1x512.Idx → EReal)
      (V c main_v221 : S512x256.Idx → EReal) (V c main_v224 : S1x256.Idx → EReal) (ix2 p q)
    = regionValue V c (((cfg1.win 9).blk t).view.emb (ix2 p q))
  rw [he]
  exact mlp3_row _ _ _ _ _ _ _ _ p ⟨1024 * t.val + p.val, hr⟩
    (fun k => affineCols_row (V c main_v201 : S4096x512.Idx → EReal) (V c main_v215 : S1x512.Idx → EReal)
      (V c main_v218 : S1x512.Idx → EReal) (iblk1 V c 0 t : S1024x512.Idx → EReal) p ⟨1024 * t.val + p.val, hr⟩
      (fun k' => rows_block V c t p k' ⟨1024 * t.val + p.val, hr⟩ rfl) k) q

/-- An index of the output array is in point `t`'s block iff each coordinate is in the block's range on its axis. -/
theorem mem_rows_block (t : Fin cfg1.N) (i : S4096x256.Idx) :
    i ∈ ((cfg1.win 9).blk t).view.set ↔ ∀ a : Fin 2, win1_9.index t a * S1024x256.size a ≤ (i a).val
      ∧ (i a).val < win1_9.index t a * S1024x256.size a + S1024x256.size a := by
  show i ∈ ((View.whole main_v225).slice (win1_9.rect t)).set ↔ _
  rw [View.set_slice_whole, Rect.mem_set_unit]
  exact Iff.rfl

/-- The four blocks of 1024 rows fill the output array: row `r` lies in the block of point `r / 1024`. -/
theorem rows_covered (i : S4096x256.Idx) :
    ∃ t : Fin cfg1.N, (cfg1.win 9).flush t = true ∧ i ∈ ((cfg1.win 9).blk t).view.set := by
  have hi0 : (i 0).val < 4096 := (i 0).isLt
  have hi1 : (i 1).val < 256 := (i 1).isLt
  have h4 : cfg1.N = 4 := N_1
  obtain ⟨t, ht⟩ : ∃ t : Fin cfg1.N, t.val = (i 0).val / 1024 := ⟨⟨(i 0).val / 1024, by omega⟩, rfl⟩
  obtain ⟨-, -, e2, e3, -⟩ := block_indices t
  refine ⟨t, flush1_9 t, ?_⟩
  rw [mem_rows_block]
  intro a
  match a with
  | ⟨0, _⟩ =>
    show win1_9.index t (0 : Fin 2) * 1024 ≤ (i 0).val ∧ (i 0).val < win1_9.index t (0 : Fin 2) * 1024 + 1024
    rw [e2, ht]; omega
  | ⟨1, _⟩ =>
    show win1_9.index t (1 : Fin 2) * 256 ≤ (i 1).val ∧ (i 1).val < win1_9.index t (1 : Fin 2) * 256 + 256
    rw [e3]; omega

/-- THE OUTPUT ARRAY AFTER THE REGION: the three dense layers of the column-wise affine image of the whole input array,
    whatever the region found in the output array on entry. -/
theorem out_value (c : Dev nD) :
    (dat1 V c).arrAt 9 cfg1.N
      = mlp3 (affineCols (V c main_v201) (V c main_v215) (V c main_v218)) (V c main_v219) (V c main_v222)
          (V c main_v220) (V c main_v223) (V c main_v221) (V c main_v224) :=
  (dat1 V c).arrAt_eq_of_cover 9 (regionValue V c) (fun t _ => flushed_eq V c t) rows_covered

end Cert.KernelIdeal.MlpValue

end
-- ==== Proof.KResult.lean ====
/-
  The kernel program's result as one expression of its arguments.

  The output array of the dense-layer region is the three layers applied to the accumulated normalisation of x, where
  x is what the first host stretch left, the statistics are the column sums of x and x², and the weights and biases are
  the arguments themselves (narrowing a weight to a shorter float format is the identity on the extended reals; a bias
  vector reshaped to one row is that row).
-/
import proofs.«116118_j3607772528806_2_alg».proof.Proof.KGlue
import proofs.«116118_j3607772528806_2_alg».proof.Proof.Region1
import proofs.«116118_j3607772528806_2_alg».proof.Proof.MlpSpec

noncomputable section

namespace Cert.KernelIdeal.Glue

open Idealize.ShloMosaic Idealize.ShloMosaic.TcCoe Idealize.SL.Sem Idealize.ShloMosaic.ValueIdx
open Cert.KernelIdeal Cert.KernelIdeal.Gen Cert.KernelIdeal.StatsValue

variable (m : (ℓ : Loc nD τ sig) → Buf (Elt Ideal) ℓ) (ρ : Dev nD → PrngReg)

/-- The last boundary's contents at the result buffer. -/
theorem kernel_result (c : Dev nD) :
    (W4 m ρ c (Proc.devRef .tc main_v225) : S4096x256.Idx → EReal)
      = Cert.Dense3.mlp3
          (Cert.Dense3.affineCols (W1 m ρ c (Proc.devRef .tc main_v201))
            (scaleK (colSum (W1 m ρ c (Proc.devRef .tc main_v201))) (colSumSq (W1 m ρ c (Proc.devRef .tc main_v201)))
              (m ((c : Thread nD τ).loc main_arg2)))
            (shiftK (colSum (W1 m ρ c (Proc.devRef .tc main_v201))) (colSumSq (W1 m ρ c (Proc.devRef .tc main_v201)))
              (m ((c : Thread nD τ).loc main_arg2)) (m ((c : Thread nD τ).loc main_arg3))))
          (m ((c : Thread nD τ).loc main_arg4)) (Cert.Gcn.rowOf (m ((c : Thread nD τ).loc main_arg5)))
          (m ((c : Thread nD τ).loc main_arg6)) (Cert.Gcn.rowOf (m ((c : Thread nD τ).loc main_arg7)))
          (m ((c : Thread nD τ).loc main_arg8)) (Cert.Gcn.rowOf (m ((c : Thread nD τ).loc main_arg9))) := by
  have h9 : W4 m ρ c (Proc.devRef .tc main_v225) = (dat1 (V3 m ρ) c).arrAt 9 cfg1.N := W4_arr m ρ c 9
  rw [h9, MlpValue.out_value (V3 m ρ) c]
  show Cert.Dense3.mlp3
      (Cert.Dense3.affineCols (W3 m ρ c (Proc.devRef .tc main_v201)) (W3 m ρ c (Proc.devRef .tc main_v215)) (W3 m ρ c (Proc.devRef .tc main_v218)))
      (W3 m ρ c (Proc.devRef .tc main_v219)) (W3 m ρ c (Proc.devRef .tc main_v222)) (W3 m ρ c (Proc.devRef .tc main_v220))
      (W3 m ρ c (Proc.devRef .tc main_v223)) (W3 m ρ c (Proc.devRef .tc main_v221)) (W3 m ρ c (Proc.devRef .tc main_v224)) = _
  rw [W3_x, W3_scale, W3_shift, W3_w1, W3_w2, W3_w3, W3_b1, W3_b2, W3_b3, W2_sum, W2_sumsq,
    W2_main_arg2, W2_main_arg3, W2_main_arg4, W2_main_arg5, W2_main_arg6, W2_main_arg7, W2_main_arg8, W2_main_arg9]
  rw [show (fun i => shapeCast S1x1024 (m ((c : Thread nD τ).loc main_arg5)) Facts₀.shapeCasts_S1024_S1x1024 i)
        = Cert.Gcn.rowOf (m ((c : Thread nD τ).loc main_arg5)) from Cert.Gcn.cast_row_eq_rowOf _ _,
    show (fun i => shapeCast S1x512 (m ((c : Thread nD τ).loc main_arg7)) Facts₀.shapeCasts_S512_S1x512 i)
        = Cert.Gcn.rowOf (m ((c : Thread nD τ).loc main_arg7)) from Cert.Gcn.cast_row_eq_rowOf _ _,
    show (fun i => shapeCast S1x256 (m ((c : Thread nD τ).loc main_arg9)) Facts₀.shapeCasts_S256_S1x256 i)
        = Cert.Gcn.rowOf (m ((c : Thread nD τ).loc main_arg9)) from Cert.Gcn.cast_row_eq_rowOf _ _]

end Cert.KernelIdeal.Glue

end
-- ==== Proof.LibERealSums.lean ====
/-
  Finite sums of real numbers inside the extended reals. The inclusion of the reals into [−∞, +∞] carries a finite
  sum to the sum of the inclusions (by induction on the index set, from the two-term case), so a sum of products of
  included reals is the included sum of the real products.
-/
import Idealize.ShloMosaic.PureOps.Ideal

noncomputable section

namespace Cert.Attn

/-- The inclusion ℝ → [−∞, +∞] commutes with a finite sum. -/
theorem coe_sum {ι : Type} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The same over a whole finite type. -/
theorem coe_sum_univ {ι : Type} [Fintype ι] (f : ι → ℝ) :
    ((∑ k, f k : ℝ) : EReal) = ∑ k, ((f k : ℝ) : EReal) := coe_sum _ _

/-- A sum of products of included reals is the included sum of the products. -/
theorem sum_coe_mul_coe {ι : Type} [Fintype ι] (f g : ι → ℝ) :
    ∑ k, ((f k : ℝ) : EReal) * ((g k : ℝ) : EReal) = ((∑ k, f k * g k : ℝ) : EReal) := by
  rw [coe_sum_univ]
  exact Finset.sum_congr rfl fun k _ => (EReal.coe_mul _ _).symm

/-- The maximum, from −∞, of finitely many included reals over a nonempty index set is an included real. -/
theorem fold_max_coe_exists {ι : Type} (s : Finset ι) (hs : s.Nonempty) (f : ι → ℝ) :
    ∃ ρ : ℝ, s.fold max (⊥ : EReal) (fun k => ((f k : ℝ) : EReal)) = (ρ : EReal) := by
  classical
  induction hs using Finset.Nonempty.cons_induction with
  | singleton a => exact ⟨f a, by simp⟩
  | cons a s ha hs ih =>
    obtain ⟨ρ, hρ⟩ := ih
    refine ⟨max (f a) ρ, ?_⟩
    rw [Finset.fold_cons, hρ]
    exact (EReal.coe_strictMono.monotone.map_max).symm

end Cert.Attn

end
-- ==== Proof.BnConsts.lean ====
/-
  The float words the two programs spell, as the extended reals they denote: the batch size 4096, the variance
  guard (the single-precision neighbour of 10⁻⁵, a positive dyadic rational), and the word of +∞.
-/
import Idealize.ShloMosaic.PureOps.Ideal
import Idealize.ShloMosaic.PureOps.Ideal.Laws

noncomputable section

namespace Cert.BnConsts

open Idealize.ShloMosaic

/-- The variance guard as a real number: 10995116 · 2⁻⁴⁰. -/
def epsR : ℝ := 10995116 * (2 : ℝ) ^ (-40 : ℤ)

theorem epsR_pos : 0 < epsR := by unfold epsR; positivity

/-- `4096.0` denotes the real 4096. -/
theorem ofBits_4096 : Ideal.ofBits .f32 0x45800000#32 = ((4096 : ℝ) : EReal) := by
  simp [Ideal.ofBits, Ideal.ieee, -EReal.coe_mul]
  all_goals norm_num

/-- The guard's word denotes `epsR`. -/
theorem ofBits_eps : Ideal.ofBits .f32 0x3727C5AC#32 = ((epsR : ℝ) : EReal) := by
  unfold epsR
  simp [Ideal.ofBits, Ideal.ieee, -EReal.coe_mul]
  all_goals norm_num

end Cert.BnConsts

end
-- ==== Proof.BnAlgebra.lean ====
/-
  Batch normalisation of one column, two ways, over the extended reals.

  For a column x of 4096 real numbers put  mean = (Σ x) / 4096,  var = (Σ (x − mean)²) / 4096,
  rstd = 1 / √(var + ε)  (ε > 0). One program normalises as  (x_r − mean) · rstd · g + b  with the variance computed
  from the centred entries; the other accumulates Σ x and Σ x², takes  max(Σx²/4096 − mean², 0)  for the variance,
  folds  scale = g · rstd,  shift = b − mean · scale,  and applies  x_r · scale + shift.  Over the real numbers
  Σx²/n − mean² = Σ(x − mean)²/n ≥ 0, so the two variances agree and the maximum with zero is the identity; the two
  final expressions then differ by distributing scale over a difference. Both steps use that every quantity is a
  real number: on the extended reals neither cancelling nor distributing survives an infinity.
-/
import Idealize.ShloMosaic.PureOps.Ideal
import Idealize.ShloMosaic.PureOps.Ideal.Laws
import proofs.«116118_j3607772528806_2_alg».proof.Proof.LibERealSums
import proofs.«116118_j3607772528806_2_alg».proof.Proof.BnConsts

noncomputable section

open scoped BigOperators

namespace Cert.BnAlgebra

open Idealize.ShloMosaic Cert.BnConsts Cert.Attn

/-- The column's mean. -/
def mean (x : Fin 4096 → ℝ) : ℝ := (∑ k, x k) / 4096
/-- The column's (biased) variance. -/
def var (x : Fin 4096 → ℝ) : ℝ := (∑ k, (x k - mean x) * (x k - mean x)) / 4096
/-- The reciprocal guarded standard deviation. -/
def rstd (x : Fin 4096 → ℝ) : ℝ := (Real.sqrt (var x + epsR))⁻¹
/-- The normalised entry. -/
def bnReal (x : Fin 4096 → ℝ) (g b : ℝ) (r : Fin 4096) : ℝ := (x r - mean x) * rstd x * g + b

theorem var_nonneg (x : Fin 4096 → ℝ) : 0 ≤ var x :=
  div_nonneg (Finset.sum_nonneg fun k _ => mul_self_nonneg _) (by norm_num)

/-- The mean of the squares less the squared mean is the variance. -/
theorem var_eq (x : Fin 4096 → ℝ) : (∑ k, x k * x k) / 4096 - mean x * mean x = var x := by
  have hs : ∑ k, x k = 4096 * mean x := by unfold mean; ring
  have hc : ∑ k, (x k - mean x) * (x k - mean x)
      = ∑ k, x k * x k - 2 * mean x * ∑ k, x k + 4096 * (mean x * mean x) := by
    rw [Finset.mul_sum, ← Finset.sum_sub_distrib]
    have : (4096 : ℝ) * (mean x * mean x) = ∑ _k : Fin 4096, mean x * mean x := by
      rw [Finset.sum_const, Finset.card_univ, Fintype.card_fin]; simp
    rw [this, ← Finset.sum_add_distrib]
    exact Finset.sum_congr rfl fun k _ => by ring
  unfold var
  rw [hc, hs]; ring

/-- Division by the word of 4096. -/
theorem div4096 (a : ℝ) : Ideal.div (a : EReal) (Ideal.ofBits .f32 0x45800000#32) = ((a / 4096 : ℝ) : EReal) := by
  rw [ofBits_4096, Ideal.div_coe (by norm_num : (4096 : ℝ) ≠ 0), ← EReal.coe_mul]
  exact congrArg _ (by ring)

/-- The reciprocal square root of a positive real. -/
theorem rsqrt_pos (v : ℝ) (h : 0 < v) : Ideal.rsqrt (v : EReal) = (((Real.sqrt v)⁻¹ : ℝ) : EReal) := by
  rw [Ideal.rsqrt_coe, if_neg (not_lt.mpr h.le), if_neg h.ne']

theorem guarded_pos (x : Fin 4096 → ℝ) : 0 < var x + epsR := add_pos_of_nonneg_of_pos (var_nonneg x) epsR_pos

/-- The guarded reciprocal standard deviation on the extended reals. -/
theorem rsqrt_guarded (x : Fin 4096 → ℝ) :
    Ideal.rsqrt (((var x : ℝ) : EReal) + Ideal.ofBits .f32 0x3727C5AC#32) = ((rstd x : ℝ) : EReal) := by
  rw [ofBits_eps, ← EReal.coe_add, rsqrt_pos _ (guarded_pos x)]; rfl

/-- The accumulated form: from Σ x and Σ x² to x_r · scale + shift. -/
theorem kernel_form (x : Fin 4096 → ℝ) (g b : ℝ) (r : Fin 4096) (S Q : EReal)
    (hS : S = ∑ k, ((x k : ℝ) : EReal)) (hQ : Q = ∑ k, ((x k : ℝ) : EReal) * ((x k : ℝ) : EReal)) :
    ((x r : ℝ) : EReal)
        * ((g : EReal) * Ideal.rsqrt
            (max (Ideal.div Q (Ideal.ofBits .f32 0x45800000#32)
                  - Ideal.div S (Ideal.ofBits .f32 0x45800000#32) * Ideal.div S (Ideal.ofBits .f32 0x45800000#32))
                (Ideal.ofBits .f32 0x00000000#32)
              + Ideal.ofBits .f32 0x3727C5AC#32))
      + ((b : EReal) - Ideal.div S (Ideal.ofBits .f32 0x45800000#32)
          * ((g : EReal) * Ideal.rsqrt
              (max (Ideal.div Q (Ideal.ofBits .f32 0x45800000#32)
                    - Ideal.div S (Ideal.ofBits .f32 0x45800000#32) * Ideal.div S (Ideal.ofBits .f32 0x45800000#32))
                  (Ideal.ofBits .f32 0x00000000#32)
                + Ideal.ofBits .f32 0x3727C5AC#32)))
      = ((bnReal x g b r : ℝ) : EReal) := by
  have hS' : S = (((∑ k, x k : ℝ)) : EReal) := by rw [hS, coe_sum_univ]
  have hQ' : Q = (((∑ k, x k * x k : ℝ)) : EReal) := by rw [hQ, sum_coe_mul_coe]
  have hm : Ideal.div S (Ideal.ofBits .f32 0x45800000#32) = ((mean x : ℝ) : EReal) := by rw [hS', div4096]; rfl
  have hv : max (Ideal.div Q (Ideal.ofBits .f32 0x45800000#32)
        - Ideal.div S (Ideal.ofBits .f32 0x45800000#32) * Ideal.div S (Ideal.ofBits .f32 0x45800000#32))
      (Ideal.ofBits .f32 0x00000000#32) = ((var x : ℝ) : EReal) := by
    rw [hm, hQ', div4096, ← EReal.coe_mul, ← EReal.coe_sub, var_eq, Ideal.ofBits_zero_f32]
    exact max_eq_left (EReal.coe_nonneg.mpr (var_nonneg x))
  rw [hv, hm, rsqrt_guarded]
  unfold bnReal
  exact_mod_cast (by ring : x r * (g * rstd x) + (b - mean x * (g * rstd x)) = (x r - mean x) * rstd x * g + b)

/-- The centred form: the variance from the centred entries, then (x_r − mean) · rstd · g + b. The sums start from
    the zero word, as a host reduction does; `n` is the divisor the variance uses. -/
theorem reference_form (x : Fin 4096 → ℝ) (g b : ℝ) (r : Fin 4096) (S n : EReal)
    (hS : S = ∑ k, ((x k : ℝ) : EReal)) (hn : n = ((4096 : ℝ) : EReal)) :
    (((x r : ℝ) : EReal) - Ideal.div (Ideal.ofBits .f32 0x00000000#32 + S) (Ideal.ofBits .f32 0x45800000#32))
          * Ideal.rsqrt
              (Ideal.div (Ideal.ofBits .f32 0x00000000#32
                    + ∑ k, (((x k : ℝ) : EReal) - Ideal.div (Ideal.ofBits .f32 0x00000000#32 + S) (Ideal.ofBits .f32 0x45800000#32))
                        * (((x k : ℝ) : EReal) - Ideal.div (Ideal.ofBits .f32 0x00000000#32 + S) (Ideal.ofBits .f32 0x45800000#32)))
                  n
                + Ideal.ofBits .f32 0x3727C5AC#32)
        * (g : EReal) + (b : EReal)
      = ((bnReal x g b r : ℝ) : EReal) := by
  have hS' : S = (((∑ k, x k : ℝ)) : EReal) := by rw [hS, coe_sum_univ]
  have hm : Ideal.div (Ideal.ofBits .f32 0x00000000#32 + S) (Ideal.ofBits .f32 0x45800000#32) = ((mean x : ℝ) : EReal) := by
    rw [Ideal.ofBits_zero_f32, zero_add, hS', div4096]; rfl
  have hv : Ideal.div (Ideal.ofBits .f32 0x00000000#32
        + ∑ k, (((x k : ℝ) : EReal) - ((mean x : ℝ) : EReal)) * (((x k : ℝ) : EReal) - ((mean x : ℝ) : EReal))) n
      = ((var x : ℝ) : EReal) := by
    have : ∑ k, (((x k : ℝ) : EReal) - ((mean x : ℝ) : EReal)) * (((x k : ℝ) : EReal) - ((mean x : ℝ) : EReal))
        = (((∑ k, (x k - mean x) * (x k - mean x) : ℝ)) : EReal) := by
      rw [coe_sum_univ]
      exact Finset.sum_congr rfl fun k _ => by rw [← EReal.coe_sub, ← EReal.coe_mul]
    rw [this, Ideal.ofBits_zero_f32, zero_add, hn, ← ofBits_4096, div4096]; rfl
  rw [hm, hv, rsqrt_guarded]
  unfold bnReal
  exact_mod_cast (rfl : (x r - mean x) * rstd x * g + b = (x r - mean x) * rstd x * g + b)

/-- The divisor the variance uses, 4096 less the integer 0 made a float, is positive. -/
theorem divisor_pos : Ideal.cmp .ogt (((4096 : ℝ) : EReal)) (Ideal.ofBits .f32 0x00000000#32) = 1#1 := by
  rw [Ideal.ofBits_zero_f32]
  simp [Ideal.cmp]

end Cert.BnAlgebra

end
-- ==== Proof.KBn.lean ====
/-
  The accumulated normalisation read at an entry. With S and Q the column sums of x and of x², the dense-layer region's
  first step computes  x(r, i) · scale(i) + shift(i)  from the folded rows  scale = g · rstd  and
  shift = b − mean · scale. At an entry this is the scalar expression whose value, for a column of real numbers and
  real g and b, is the normalised entry (x(r, i) − mean_i) · rstd_i · g_i + b_i.
-/
import proofs.«116118_j3607772528806_2_alg».proof.Proof.KGlue
import proofs.«116118_j3607772528806_2_alg».proof.Proof.MlpSpec
import proofs.«116118_j3607772528806_2_alg».proof.Proof.BnAlgebra

noncomputable section

open scoped BigOperators

namespace Cert.KernelIdeal.Glue

open Idealize.ShloMosaic Idealize.ShloMosaic.ValueIdx Cert.KernelIdeal Cert.KernelIdeal.StatsValue

/-- A vector laid out as a `1 × 512` row, read at its `i`-th entry. -/
theorem row_cast_apply (v : FVec Ideal S512 .f32) (i : Fin 512) :
    shapeCast S1x512 v Facts₀.shapeCasts_S512_S1x512 (ix2 (0 : Fin 1) i) = v (ix1 i) :=
  congrFun (Cert.Gcn.cast_row_eq_rowOf v Facts₀.shapeCasts_S512_S1x512) (ix2 (0 : Fin 1) i)

/-- The accumulated normalisation of a real column with real scale and shift entries is the normalised entry. -/
theorem affine_entry (X : FVec Ideal S4096x512 .f32) (g b : FVec Ideal S512 .f32)
    (xr : Fin 4096 → Fin 512 → ℝ) (gr br : Fin 512 → ℝ)
    (hX : ∀ r i, X (ix2 r i) = ((xr r i : ℝ) : EReal)) (hg : ∀ i, g (ix1 i) = ((gr i : ℝ) : EReal))
    (hb : ∀ i, b (ix1 i) = ((br i : ℝ) : EReal)) (r : Fin 4096) (i : Fin 512) :
    Cert.Dense3.affineCols X (scaleK (colSum X) (colSumSq X) g) (shiftK (colSum X) (colSumSq X) g b) (ix2 r i)
      = ((Cert.BnAlgebra.bnReal (fun k => xr k i) (gr i) (br i) r : ℝ) : EReal) := by
  have hS : colSum X (ix2 (0 : Fin 1) i) = ∑ k, (((fun k => xr k i) k : ℝ) : EReal) :=
    Finset.sum_congr rfl fun k _ => hX k i
  have hQ : colSumSq X (ix2 (0 : Fin 1) i) = ∑ k, (((fun k => xr k i) k : ℝ) : EReal) * (((fun k => xr k i) k : ℝ) : EReal) :=
    Finset.sum_congr rfl fun k _ => by rw [hX k i]
  have h := Cert.BnAlgebra.kernel_form (fun k => xr k i) (gr i) (br i) r _ _ hS hQ
  rw [← h]
  show X (ix2 r i)
        * (shapeCast S1x512 g Facts₀.shapeCasts_S512_S1x512 (ix2 (0 : Fin 1) i) * Ideal.rsqrt
            (max (Ideal.div (colSumSq X (ix2 (0 : Fin 1) i)) (Ideal.ofBits .f32 0x45800000#32)
                  - Ideal.div (colSum X (ix2 (0 : Fin 1) i)) (Ideal.ofBits .f32 0x45800000#32)
                    * Ideal.div (colSum X (ix2 (0 : Fin 1) i)) (Ideal.ofBits .f32 0x45800000#32))
                (Ideal.ofBits .f32 0x00000000#32)
              + Ideal.ofBits .f32 0x3727C5AC#32))
      + (shapeCast S1x512 b Facts₀.shapeCasts_S512_S1x512 (ix2 (0 : Fin 1) i)
          - Ideal.div (colSum X (ix2 (0 : Fin 1) i)) (Ideal.ofBits .f32 0x45800000#32)
            * (shapeCast S1x512 g Facts₀.shapeCasts_S512_S1x512 (ix2 (0 : Fin 1) i) * Ideal.rsqrt
                (max (Ideal.div (colSumSq X (ix2 (0 : Fin 1) i)) (Ideal.ofBits .f32 0x45800000#32)
                      - Ideal.div (colSum X (ix2 (0 : Fin 1) i)) (Ideal.ofBits .f32 0x45800000#32)
                        * Ideal.div (colSum X (ix2 (0 : Fin 1) i)) (Ideal.ofBits .f32 0x45800000#32))
                    (Ideal.ofBits .f32 0x00000000#32)
                  + Ideal.ofBits .f32 0x3727C5AC#32))) = _
  rw [row_cast_apply g i, row_cast_apply b i, hg i, hb i, hX r i]

end Cert.KernelIdeal.Glue

end
-- ==== Proof.KernelXDefs.lean ====
/-
  The array both kernel regions read, as the program computes it before the first region: for each of the 20 slots the
  slab of table rows the slot's row numbers name, the twenty slabs added one after the other onto a zero array.

  `slotGather` is one slot's slab, operation by operation as the program has it: the slot's column of row numbers cut
  out of the index array and its unit axis dropped; a negative number wrapped round by the table's height (compare with
  0, add 1000000, select); the unit axis put back; the rows gathered. `kernelSum` is the chain of twenty additions, slot
  0 first, starting from the zero array.
-/
import proofs.«116118_j3607772528806_2_alg».proof.Proof.Gen.KernelIdeal

noncomputable section

namespace Cert.KernelIdeal.XValue

open Idealize.ShloMosaic
open Cert.KernelIdeal Cert.KernelIdeal.Gen

variable {F : FTy → Type} [FloatOps F]

/-- Slot `o`'s column of row numbers: the index array cut at `[·, ·, o]`, its unit axis dropped. -/
def slotCol (idx : IVec S4096x32x20 32) (o : ℕ) (hs : S4096x32x20.Slices ![0, 0, o] S4096x32x1) : IVec S4096x32 32 :=
  fun i => shapeCast S4096x32 (extractStridedSlice S4096x32x1 ![0, 0, o] idx hs) shapeCasts_S4096x32x1_S4096x32 i

/-- Slot `o`'s slab: the table rows its (wrapped) row numbers name. -/
def slotGather (idx : IVec S4096x32x20 32) (tbl : FVec F S1000000x16 .f32) (o : ℕ)
    (hs : S4096x32x20.Slices ![0, 0, o] S4096x32x1) : FVec F S4096x32x16 .f32 :=
  Host.gather gather_S1000000x16_S4096x32x1_S4096x32x16_2_0_n_n_0_2_116 tbl
    (broadcastInDim S4096x32x1 ![0, 1] bcast_S4096x32_S4096x32x1_0_1
      (select
        (cmpi .slt (slotCol idx o hs) (broadcastInDim S4096x32 ![] bcast_S_S4096x32 (constantI S_ 32 0#32)))
        (addi (slotCol idx o hs) (broadcastInDim S4096x32 ![] bcast_S_S4096x32 (constantI S_ 32 1000000#32)))
        (slotCol idx o hs)))

/-- The twenty slabs added one after the other, slot 0 first, onto the zero array. -/
def kernelSum (idx : IVec S4096x32x20 32) (tbl : FVec F S1000000x16 .f32) : FVec F S4096x32x16 .f32 :=
  (addf (addf (addf (addf (addf (addf (addf (addf (addf (addf (addf (addf (addf (addf (addf (addf (addf (addf (addf (addf (broadcastInDim S4096x32x16 ![] bcast_S_S4096x32x16 (constant (F := F) S_ .f32 0x00000000#32))
      (slotGather idx tbl 0 slices_S4096x32x20_S4096x32x1_0_0_0))
      (slotGather idx tbl 1 slices_S4096x32x20_S4096x32x1_0_0_1))
      (slotGather idx tbl 2 slices_S4096x32x20_S4096x32x1_0_0_2))
      (slotGather idx tbl 3 slices_S4096x32x20_S4096x32x1_0_0_3))
      (slotGather idx tbl 4 slices_S4096x32x20_S4096x32x1_0_0_4))
      (slotGather idx tbl 5 slices_S4096x32x20_S4096x32x1_0_0_5))
      (slotGather idx tbl 6 slices_S4096x32x20_S4096x32x1_0_0_6))
      (slotGather idx tbl 7 slices_S4096x32x20_S4096x32x1_0_0_7))
      (slotGather idx tbl 8 slices_S4096x32x20_S4096x32x1_0_0_8))
      (slotGather idx tbl 9 slices_S4096x32x20_S4096x32x1_0_0_9))
      (slotGather idx tbl 10 slices_S4096x32x20_S4096x32x1_0_0_10))
      (slotGather idx tbl 11 slices_S4096x32x20_S4096x32x1_0_0_11))
      (slotGather idx tbl 12 slices_S4096x32x20_S4096x32x1_0_0_12))
      (slotGather idx tbl 13 slices_S4096x32x20_S4096x32x1_0_0_13))
      (slotGather idx tbl 14 slices_S4096x32x20_S4096x32x1_0_0_14))
      (slotGather idx tbl 15 slices_S4096x32x20_S4096x32x1_0_0_15))
      (slotGather idx tbl 16 slices_S4096x32x20_S4096x32x1_0_0_16))
      (slotGather idx tbl 17 slices_S4096x32x20_S4096x32x1_0_0_17))
      (slotGather idx tbl 18 slices_S4096x32x20_S4096x32x1_0_0_18))
      (slotGather idx tbl 19 slices_S4096x32x20_S4096x32x1_0_0_19))

end Cert.KernelIdeal.XValue

end
-- ==== Proof.KernelXRun.lean ====
/-
  What the program's first stretch of array operations leaves in the array both kernel regions read: the twenty slabs of
  gathered table rows added one after the other onto a zero array (`kernelSum` of the two arguments as launched), its
  (feature, column) axes then flattened into one axis of 512.

  The stretch is 243 operations; the array in question is the last one's result. Each operation's result is its
  function of the arrays it reads, and an array no operation writes holds its launch contents; reading the last result
  back through the stretch leaves exactly the chain of operations `kernelSum` spells out.
-/
import proofs.«116118_j3607772528806_2_alg».proof.Proof.Gen.KernelIdeal.Frame
import proofs.«116118_j3607772528806_2_alg».proof.Proof.KernelXDefs
import Idealize.ShloMosaic.Lib.StableHlo.Run

noncomputable section

namespace Cert.KernelIdeal.XValue

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

set_option maxHeartbeats 8000000 in
/-- After the first stretch the regions' input array holds the flattened chain of the twenty slabs, computed from the
    two arguments' launch contents. -/
theorem x_run (c : Dev nD) :
    W1 m ρ c (Proc.devRef .tc main_v201)
      = fun i => shapeCast S4096x512
          (kernelSum (m ((c.tc : Thread nD τ).loc main_arg0)) (m ((c.tc : Thread nD τ).loc main_arg1)))
          shapeCasts_S4096x32x16_S4096x512 i := by
  show StableHlo.after hostOps0 (W0 m ρ c) (Proc.devRef .tc main_v201) = _
  simp only [hostOps0]
  after_results_simp
  rfl

end Cert.KernelIdeal.XValue

end
-- ==== Proof.LibGatherRead.lean ====
/-
  A gather of whole rows of a matrix by an array of row numbers of rank 3 or 4, read at an index.

  The row numbers sit in an array whose last axis has extent 1 (it is the "index vector"); the result has the same
  leading axes and the matrix's columns as its last axis. Result entry (a, b, l) — or (a, b, k, l) — is the matrix entry
  (r, l), where r is the integer found at (a, b, 0) — or (a, b, k, 0) —, read as a signed number and clamped into
  [0, N − 1]. In particular every gathered entry IS an entry of the matrix.
-/
import Idealize.ShloMosaic.Lib.ValueIdx
import Idealize.ShloMosaic.PureOps.Ideal

namespace Cert.GatherRead

open Idealize.ShloMosaic Idealize.ShloMosaic.ValueIdx

section
variable {α : Type}

/-- An integer word read as a signed number and clamped into `[0, N − 1]`: the row a gather reads. -/
abbrev clampTo {N w : Nat} (hN : 0 < N) (v : BitVec w) : Fin N := ⟨min v.toInt.toNat (N - 1), by omega⟩

/-- The dimension numbers of a gather of rows of an `[N, C]` matrix by a rank-3 array of row numbers whose last axis,
    of extent 1, is the index vector. -/
abbrev rows3Dims (N C A B : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- The gather read at an index: the matrix at the clamped row number found at the same leading coordinates, same column. -/
theorem gather_rows3_apply {N C A B w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (l : Fin C) :
    Host.gather (rows3Dims N C A B wf) x idx (ix3 a b l) = x (ix2 (clampTo hN (idx (ix3 a b (0 : Fin 1)))) l) := by
  have h0 : (rows3Dims N C A B wf).start (ix3 a b l) idx (0 : Fin 2) + (rows3Dims N C A B wf).batchCoord (ix3 a b l) (0 : Fin 2)
      + (rows3Dims N C A B wf).offCoord (ix3 a b l) (0 : Fin 2) = min (idx (ix3 a b (0 : Fin 1))).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rows3Dims N C A B wf).startIndexMap from List.mem_singleton.mpr rfl)]
    have hsi : (rows3Dims N C A B wf).siIdx (ix3 a b l) ⟨List.idxOf (0 : Fin 2) (rows3Dims N C A B wf).startIndexMap,
        List.idxOf_lt_length_iff.2 (List.mem_singleton.mpr rfl)⟩ = (ix3 a b (0 : Fin 1)) := by
      funext b'; refine Fin.ext ?_
      match b' with
      | ⟨0, _⟩ => rfl
      | ⟨1, _⟩ => rfl
      | ⟨2, _⟩ => rfl
    rw [hsi]
    rfl
  have h1 : (rows3Dims N C A B wf).start (ix3 a b l) idx (1 : Fin 2) + (rows3Dims N C A B wf).batchCoord (ix3 a b l) (1 : Fin 2)
      + (rows3Dims N C A B wf).offCoord (ix3 a b l) (1 : Fin 2) = l.val := by
    rw [GatherDims.batchCoord_eq_zero _ _ _ List.not_mem_nil]
    have hs : (rows3Dims N C A B wf).start (ix3 a b l) idx (1 : Fin 2) = 0 := by
      unfold GatherDims.start
      rw [dif_neg (show (1 : Fin 2) ∉ ([0] : List (Fin 2)) by decide)]
    rw [hs]
    simp only [Nat.zero_add, Nat.add_zero]
    rfl
  unfold Host.gather
  congr 1
  funext ax
  refine Fin.ext ?_
  match ax with
  | ⟨0, _⟩ => exact h0
  | ⟨1, _⟩ => exact h1

/-- The dimension numbers of a gather of rows of an `[N, C]` matrix by a rank-4 array of row numbers whose last axis,
    of extent 1, is the index vector. -/
abbrev rows4Dims (N C A B L : Nat)
    (wf : GatherDims.WF ⟨2, ![N, C]⟩ ⟨4, ![A, B, L, 1]⟩ ⟨4, ![A, B, L, C]⟩ [3] [0] [] [0] [] 3 ![1, C]) :
    GatherDims ⟨2, ![N, C]⟩ ⟨4, ![A, B, L, 1]⟩ ⟨4, ![A, B, L, C]⟩ where
  offsetDims := [3]
  collapsedSliceDims := [0]
  operandBatchingDims := []
  startIndicesBatchingDims := []
  startIndexMap := [0]
  indexVectorDim := 3
  sliceSizes := ![1, C]
  wf := wf

/-- The gather read at an index: the matrix at the clamped row number found at the same leading coordinates, same column. -/
theorem gather_rows4_apply {N C A B L w : Nat} (hN : 0 < N)
    (wf : GatherDims.WF ⟨2, ![N, C]⟩ ⟨4, ![A, B, L, 1]⟩ ⟨4, ![A, B, L, C]⟩ [3] [0] [] [0] [] 3 ![1, C])
    (x : (⟨2, ![N, C]⟩ : Shape).Idx → α) (idx : IVec ⟨4, ![A, B, L, 1]⟩ w) (a : Fin A) (b : Fin B) (k : Fin L) (l : Fin C) :
    Host.gather (rows4Dims N C A B L wf) x idx (ix4 a b k l) = x (ix2 (clampTo hN (idx (ix4 a b k (0 : Fin 1)))) l) := by
  have h0 : (rows4Dims N C A B L wf).start (ix4 a b k l) idx (0 : Fin 2) + (rows4Dims N C A B L wf).batchCoord (ix4 a b k l) (0 : Fin 2)
      + (rows4Dims N C A B L wf).offCoord (ix4 a b k l) (0 : Fin 2) = min (idx (ix4 a b k (0 : Fin 1))).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rows4Dims N C A B L wf).startIndexMap from List.mem_singleton.mpr rfl)]
    have hsi : (rows4Dims N C A B L wf).siIdx (ix4 a b k l) ⟨List.idxOf (0 : Fin 2) (rows4Dims N C A B L wf).startIndexMap,
        List.idxOf_lt_length_iff.2 (List.mem_singleton.mpr rfl)⟩ = (ix4 a b k (0 : Fin 1)) := by
      funext b'; refine Fin.ext ?_
      match b' with
      | ⟨0, _⟩ => rfl
      | ⟨1, _⟩ => rfl
      | ⟨2, _⟩ => rfl
      | ⟨3, _⟩ => rfl
    rw [hsi]
    rfl
  have h1 : (rows4Dims N C A B L wf).start (ix4 a b k l) idx (1 : Fin 2) + (rows4Dims N C A B L wf).batchCoord (ix4 a b k l) (1 : Fin 2)
      + (rows4Dims N C A B L wf).offCoord (ix4 a b k l) (1 : Fin 2) = l.val := by
    rw [GatherDims.batchCoord_eq_zero _ _ _ List.not_mem_nil]
    have hs : (rows4Dims N C A B L wf).start (ix4 a b k l) idx (1 : Fin 2) = 0 := by
      unfold GatherDims.start
      rw [dif_neg (show (1 : Fin 2) ∉ ([0] : List (Fin 2)) by decide)]
    rw [hs]
    simp only [Nat.zero_add, Nat.add_zero]
    rfl
  unfold Host.gather
  congr 1
  funext ax
  refine Fin.ext ?_
  match ax with
  | ⟨0, _⟩ => exact h0
  | ⟨1, _⟩ => exact h1

end

end Cert.GatherRead
-- ==== Proof.Pooled.lean ====
/-
  The pooled embedding: for each (batch, feature) pair the sum, over its 20 slots, of the table rows the slots name.

  A slot holds a row number; a negative one is first wrapped round by the table's height (I < 0 ↦ I + 1000000), and the
  gather then reads the number as a signed integer clamped into [0, 999999]. So the entry at (batch b, feature f,
  column e) is  0 + Σ_{o < 20} table(row(b, f, o), e)  — a finite sum of table entries, whichever way it is grouped:
  one program adds the twenty gathered slabs one after the other, the other gathers all slots at once and reduces.
  With a table of real numbers every pooled entry is a real number.
-/
import Idealize.ShloMosaic.Lib.ValueIdx
import Idealize.ShloMosaic.PureOps.Ideal
import Idealize.ShloMosaic.PureOps.Ideal.Laws
import proofs.«116118_j3607772528806_2_alg».proof.Proof.LibGatherRead
import proofs.«116118_j3607772528806_2_alg».proof.Proof.LibERealSums

noncomputable section

open scoped BigOperators

namespace Cert.Pooled

open Idealize.ShloMosaic Idealize.ShloMosaic.ValueIdx Cert.GatherRead Cert.Attn

/-- A row number, a negative one wrapped round by the table's height. -/
def wrapRow (I : BitVec 32) : BitVec 32 :=
  Scalar.select (IntOp.cmpi .slt I 0#32) (IntOp.addi I 1000000#32) I

/-- Slot number `o` as one of the 20 slots (numbers from 20 on are not used). -/
def slot (o : ℕ) : Fin 20 := ⟨o % 20, Nat.mod_lt _ (by decide)⟩

theorem slot_of_lt {o : ℕ} (ho : o < 20) : slot o = ⟨o, ho⟩ := Fin.ext (Nat.mod_eq_of_lt ho)

theorem slot_val (k : Fin 20) : slot k.val = k := Fin.ext (Nat.mod_eq_of_lt k.isLt)

/-- What slot `o` of (batch, feature) contributes at column `j 2`: the table entry at the slot's row. -/
def term (idx : (⟨3, ![4096, 32, 20]⟩ : Shape).Idx → BitVec 32) (tbl : (⟨2, ![1000000, 16]⟩ : Shape).Idx → EReal) (o : ℕ)
    (j : (⟨3, ![4096, 32, 16]⟩ : Shape).Idx) : EReal :=
  tbl (ix2 (clampTo (N := 1000000) (by decide) (wrapRow (idx (ix3 (j 0) (j 1) (slot o))))) (j 2))

/-- The running sum over the first `n` slots, from the zero word, in slot order. -/
def partialSum (idx : (⟨3, ![4096, 32, 20]⟩ : Shape).Idx → BitVec 32) (tbl : (⟨2, ![1000000, 16]⟩ : Shape).Idx → EReal) :
    ℕ → (⟨3, ![4096, 32, 16]⟩ : Shape).Idx → EReal
  | 0, _ => Ideal.ofBits .f32 0x00000000#32
  | n + 1, j => partialSum idx tbl n j + term idx tbl n j

/-- The pooled embedding, before its (feature, column) axes are flattened. -/
def pooled (idx : (⟨3, ![4096, 32, 20]⟩ : Shape).Idx → BitVec 32) (tbl : (⟨2, ![1000000, 16]⟩ : Shape).Idx → EReal) :
    (⟨3, ![4096, 32, 16]⟩ : Shape).Idx → EReal :=
  fun j => Ideal.ofBits .f32 0x00000000#32 + ∑ o ∈ Finset.range 20, term idx tbl o j

/-- Adding the slots one after the other from the zero word gives the zero word plus their sum. -/
theorem partialSum_eq (idx : (⟨3, ![4096, 32, 20]⟩ : Shape).Idx → BitVec 32) (tbl : (⟨2, ![1000000, 16]⟩ : Shape).Idx → EReal)
    (n : ℕ) (j : (⟨3, ![4096, 32, 16]⟩ : Shape).Idx) :
    partialSum idx tbl n j = Ideal.ofBits .f32 0x00000000#32 + ∑ o ∈ Finset.range n, term idx tbl o j := by
  induction n with
  | zero => simp [partialSum]
  | succ n ih => rw [partialSum, ih, Finset.sum_range_succ, add_assoc]

theorem partialSum_twenty (idx : (⟨3, ![4096, 32, 20]⟩ : Shape).Idx → BitVec 32) (tbl : (⟨2, ![1000000, 16]⟩ : Shape).Idx → EReal) :
    partialSum idx tbl 20 = pooled idx tbl := funext fun j => partialSum_eq idx tbl 20 j

/-- The sum over the 20 slots as a type is the sum over the slot numbers below 20. -/
theorem sum_slots (idx : (⟨3, ![4096, 32, 20]⟩ : Shape).Idx → BitVec 32) (tbl : (⟨2, ![1000000, 16]⟩ : Shape).Idx → EReal)
    (j : (⟨3, ![4096, 32, 16]⟩ : Shape).Idx) :
    ∑ k : Fin 20, tbl (ix2 (clampTo (N := 1000000) (by decide) (wrapRow (idx (ix3 (j 0) (j 1) k)))) (j 2))
      = ∑ o ∈ Finset.range 20, term idx tbl o j := by
  rw [← Fin.sum_univ_eq_sum_range (fun o => term idx tbl o j) 20]
  refine Finset.sum_congr rfl fun k _ => ?_
  unfold term
  rw [slot_val]

/-- With a table of real numbers every pooled entry is a real number. -/
theorem pooled_real (idx : (⟨3, ![4096, 32, 20]⟩ : Shape).Idx → BitVec 32) (T : (⟨2, ![1000000, 16]⟩ : Shape).Idx → ℝ)
    (j : (⟨3, ![4096, 32, 16]⟩ : Shape).Idx) :
    ∃ r : ℝ, pooled idx (fun i => ((T i : ℝ) : EReal)) j = (r : EReal) := by
  refine ⟨∑ o ∈ Finset.range 20,
    T (ix2 (clampTo (N := 1000000) (by decide) (wrapRow (idx (ix3 (j 0) (j 1) (slot o))))) (j 2)), ?_⟩
  unfold pooled term
  rw [Ideal.ofBits_zero_f32, zero_add, coe_sum]

end Cert.Pooled

end
-- ==== Proof.KernelX.lean ====
/-
  The array both kernel regions read is the pooled embedding with its (feature, column) axes flattened.

  Before its first region the program builds that array from its two arguments, the index array and the table: twenty
  slabs of gathered table rows, one per slot, added one after the other onto a zero array (`kernelSum`). Read at an
  entry (batch b, feature f, column e), slot o's slab is the table entry at row r(b, f, o) and column e, where r is the
  slot's row number, a negative one wrapped round by the table's height, then clamped into the table (`slotGather_apply`:
  the cut of the index array and the dropped unit axis are re-indexings, compare / add / select act entry by entry, and
  the gather reads the clamped row). So the chain of twenty additions is, entry by entry, the running sum of the twenty
  slots' table entries from the zero word (`kernelSum_eq`), which is the pooled embedding (`x_entry`).
-/
import proofs.«116118_j3607772528806_2_alg».proof.Proof.KernelXRun
import proofs.«116118_j3607772528806_2_alg».proof.Proof.Pooled
import proofs.«116118_j3607772528806_2_alg».proof.Proof.LibGatherRead
import Idealize.ShloMosaic.Lib.Pipeline.Value

noncomputable section

open scoped BigOperators

namespace Cert.KernelIdeal.XValue

open Idealize.ShloMosaic Idealize.ShloMosaic.TcCoe Idealize.SL.Sem Idealize.ShloMosaic.ValueIdx
open Cert.KernelIdeal Cert.KernelIdeal.Gen Cert.GatherRead

/-! ## One slot's slab read at an entry -/

/-- Slot `o`'s column of row numbers at (batch `b`, feature `f`) is the index array's entry `(b, f, o)`: dropping the
    unit axis keeps the row-major position, and the cut shifts the last coordinate by `o`. -/
theorem slotCol_apply (idx : IVec S4096x32x20 32) (o : ℕ) (ho : o < 20)
    (hs : S4096x32x20.Slices ![0, 0, o] S4096x32x1) (b : Fin 4096) (f : Fin 32) :
    slotCol idx o hs (ix2 b f) = idx (ix3 b f ⟨o, ho⟩) := by
  unfold slotCol
  refine (shapeCast_apply _ _ (ix2 b f) (ix3 b f (0 : Fin 1)) ?_).trans ?_
  · refine (Shape.rowMajor_val_three _).trans (Eq.trans ?_ (Shape.rowMajor_val_two _).symm)
    show (b.val * 32 + f.val) * 1 + 0 = b.val * 32 + f.val
    omega
  · refine extractStridedSlice_apply _ idx hs (ix3 b f (0 : Fin 1)) (ix3 b f ⟨o, ho⟩) fun a => ?_
    match a with
    | ⟨0, _⟩ => show b.val = 0 + b.val; omega
    | ⟨1, _⟩ => show f.val = 0 + f.val; omega
    | ⟨2, _⟩ => show o = o + 0; omega

/-- The row number the gather is handed at `(b, f, 0)`: the slot's entry, a negative one wrapped round. -/
theorem rowNumber_apply (idx : IVec S4096x32x20 32) (o : ℕ) (ho : o < 20)
    (hs : S4096x32x20.Slices ![0, 0, o] S4096x32x1) (b : Fin 4096) (f : Fin 32) :
    broadcastInDim S4096x32x1 ![0, 1] bcast_S4096x32_S4096x32x1_0_1
        (select
          (cmpi .slt (slotCol idx o hs) (broadcastInDim S4096x32 ![] bcast_S_S4096x32 (constantI S_ 32 0#32)))
          (addi (slotCol idx o hs) (broadcastInDim S4096x32 ![] bcast_S_S4096x32 (constantI S_ 32 1000000#32)))
          (slotCol idx o hs)) (ix3 b f (0 : Fin 1))
      = Cert.Pooled.wrapRow (idx (ix3 b f ⟨o, ho⟩)) := by
  refine (broadcastInDim_apply _ _ _ (ix3 b f (0 : Fin 1)) (ix2 b f) fun a => ?_).trans ?_
  · match a with
    | ⟨0, _⟩ => rfl
    | ⟨1, _⟩ => rfl
  · show Scalar.select (IntOp.cmpi .slt (slotCol idx o hs (ix2 b f)) 0#32)
        (IntOp.addi (slotCol idx o hs (ix2 b f)) 1000000#32) (slotCol idx o hs (ix2 b f)) = _
    rw [slotCol_apply idx o ho hs b f]
    rfl

/-- Slot `o`'s slab at an entry is the table entry at the slot's (wrapped, clamped) row and the entry's column. -/
theorem slotGather_apply (idx : IVec S4096x32x20 32) (tbl : FVec Ideal S1000000x16 .f32) (o : ℕ) (ho : o < 20)
    (hs : S4096x32x20.Slices ![0, 0, o] S4096x32x1) (j : S4096x32x16.Idx) :
    slotGather (F := Ideal) idx tbl o hs j = Cert.Pooled.term idx tbl o j := by
  obtain ⟨b, f, e, rfl⟩ : ∃ b f e, j = ix3 b f e := ⟨j 0, j 1, j 2, eq_ix3 j⟩
  unfold slotGather Cert.Pooled.term
  refine (gather_rows3_apply (N := 1000000) (C := 16) (A := 4096) (B := 32) (by decide) _ tbl _ b f e).trans ?_
  rw [rowNumber_apply idx o ho hs b f, Cert.Pooled.slot_of_lt ho]

/-! ## The chain of twenty slabs is the pooled embedding -/

/-- Adding the twenty slabs one after the other onto the zero array gives, entry by entry, the running sum of the twenty
    slots' table entries from the zero word. -/
theorem kernelSum_eq (idx : IVec S4096x32x20 32) (tbl : FVec Ideal S1000000x16 .f32) :
    kernelSum (F := Ideal) idx tbl = Cert.Pooled.partialSum idx tbl 20 := by
  funext j
  unfold kernelSum
  simp (disch := decide) only [addf_apply, slotGather_apply, Cert.Pooled.partialSum]
  rfl

/-! ## The regions' input array -/

/-- After the program's first stretch of array operations the array both regions read holds the pooled embedding of the
    two arguments as launched, its (feature, column) axes flattened into one axis of 512. -/
theorem x_entry (m : (ℓ : Loc nD τ sig) → Buf (Elt Ideal) ℓ) (ρ : Dev nD → PrngReg) (c : Dev nD) :
    W1 m ρ c (Proc.devRef .tc main_v201)
      = fun i => shapeCast S4096x512
          (Cert.Pooled.pooled (m ((c.tc : Thread nD τ).loc main_arg0)) (m ((c.tc : Thread nD τ).loc main_arg1)))
          shapeCasts_S4096x32x16_S4096x512 i :=
  (x_run m ρ c).trans
    (congrArg (fun v : FVec Ideal S4096x32x16 .f32 => fun i => shapeCast S4096x512 v shapeCasts_S4096x32x16_S4096x512 i)
      ((kernelSum_eq _ _).trans (Cert.Pooled.partialSum_twenty _ _)))

end Cert.KernelIdeal.XValue

end
-- ==== Proof.RefRun.lean ====
/-
  The reference program's run. Its @main is a straight line of seventy-four tensor operations once the three
  functions it calls are read at their call sites (the variance with its select, and the two rectified maxima):
  an index table wrapped into range and gathered from, summed over one axis and reshaped to a matrix `x`; the
  column mean and the column variance of `x`, the normalised `(x - mean) * rsqrt (var + eps) * gamma + beta`;
  and three affine layers `· W + b`, the first two followed by `max · 0`.
  `refX`, `refXn`, `refTail` are those three stages, each the operations' functions composed in program order
  with nothing simplified; `run` states that every weakly fair execution terminates with the result buffer at
  their composition over the launch contents of the ten arguments, and the arguments unchanged.
-/
import proofs.«116118_j3607772528806_2_alg».proof.Defs
import proofs.«116118_j3607772528806_2_alg».proof.Proof.Gen.ReferenceIdeal
import proofs.«116118_j3607772528806_2_alg».proof.Proof.Gen.Pre_finite_inputs
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The three stages as pure terms -/

/-- The pooled embedding matrix: a negative index is moved up by the table's height, each index's row is gathered,
    the rows of one group are summed, and the result is laid out as a matrix. -/
def refX (idx : (⟨S4096x32x20, .i32⟩ : BufTy).Contents (Elt F)) (table : (⟨S1000000x16, .f32⟩ : BufTy).Contents (Elt F)) :
    (⟨S4096x512, .f32⟩ : BufTy).Contents (Elt F) :=
  (shapeCast S4096x512 (Host.reduceAdd (Host.gather gather_S1000000x16_S4096x32x20x1_S4096x32x20x16_3_0_n_n_0_3_116 table ((broadcastInDim S4096x32x20x1 ![0, 1, 2] bcast_S4096x32x20_S4096x32x20x1_0_1_2 : (⟨S4096x32x20, .i32⟩ : BufTy).Contents (Elt F) → (⟨S4096x32x20x1, .i32⟩ : BufTy).Contents (Elt F)) ((select : (⟨S4096x32x20, .i1⟩ : BufTy).Contents (Elt F) → (⟨S4096x32x20, .i32⟩ : BufTy).Contents (Elt F) → (⟨S4096x32x20, .i32⟩ : BufTy).Contents (Elt F) → (⟨S4096x32x20, .i32⟩ : BufTy).Contents (Elt F)) ((cmpi .slt : (⟨S4096x32x20, .i32⟩ : BufTy).Contents (Elt F) → (⟨S4096x32x20, .i32⟩ : BufTy).Contents (Elt F) → (⟨S4096x32x20, .i1⟩ : BufTy).Contents (Elt F)) idx ((broadcastInDim S4096x32x20 ![] bcast_S_S4096x32x20 : (⟨S_, .i32⟩ : BufTy).Contents (Elt F) → (⟨S4096x32x20, .i32⟩ : BufTy).Contents (Elt F)) (constantI S_ 32 0#32))) ((addi : (⟨S4096x32x20, .i32⟩ : BufTy).Contents (Elt F) → (⟨S4096x32x20, .i32⟩ : BufTy).Contents (Elt F) → (⟨S4096x32x20, .i32⟩ : BufTy).Contents (Elt F)) idx ((broadcastInDim S4096x32x20 ![] bcast_S_S4096x32x20 : (⟨S_, .i32⟩ : BufTy).Contents (Elt F) → (⟨S4096x32x20, .i32⟩ : BufTy).Contents (Elt F)) (constantI S_ 32 1000000#32))) idx))) (constant S_ .f32 0x00000000#32) reducesTo_S4096x32x20x16_S4096x32x16_d2 h_S_) shapeCasts_S4096x32x16_S4096x512)

/-- The normalised matrix: `x` minus its column mean, times the reciprocal square root of the column variance plus
    a small constant, times `gamma`, plus `beta`. The variance is the column sum of squared deviations divided by
    the row count less zero, selected against a not-a-number constant where that divisor is not positive. -/
def refXn (x : (⟨S4096x512, .f32⟩ : BufTy).Contents (Elt F)) (gamma beta : (⟨S512, .f32⟩ : BufTy).Contents (Elt F)) :
    (⟨S4096x512, .f32⟩ : BufTy).Contents (Elt F) :=
  ((addf : (⟨S4096x512, .f32⟩ : BufTy).Contents (Elt F) → (⟨S4096x512, .f32⟩ : BufTy).Contents (Elt F) → (⟨S4096x512, .f32⟩ : BufTy).Contents (Elt F)) ((mulf : (⟨S4096x512, .f32⟩ : BufTy).Contents (Elt F) → (⟨S4096x512, .f32⟩ : BufTy).Contents (Elt F) → (⟨S4096x512, .f32⟩ : BufTy).Contents (Elt F)) ((mulf : (⟨S4096x512, .f32⟩ : BufTy).Contents (Elt F) → (⟨S4096x512, .f32⟩ : BufTy).Contents (Elt F) → (⟨S4096x512, .f32⟩ : BufTy).Contents (Elt F)) ((subf : (⟨S4096x512, .f32⟩ : BufTy).Contents (Elt F) → (⟨S4096x512, .f32⟩ : BufTy).Contents (Elt F) → (⟨S4096x512, .f32⟩ : BufTy).Contents (Elt F)) x ((broadcastInDim S4096x512 ![0, 1] bcast_S1x512_S4096x512_0_1 : (⟨S1x512, .f32⟩ : BufTy).Contents (Elt F) → (⟨S4096x512, .f32⟩ : BufTy).Contents (Elt F)) ((broadcastInDim S1x512 ![1] bcast_S512_S1x512_1 : (⟨S512, .f32⟩ : BufTy).Contents (Elt F) → (⟨S1x512, .f32⟩ : BufTy).Contents (Elt F)) ((Host.divf : (⟨S512, .f32⟩ : BufTy).Contents (Elt F) → (⟨S512, .f32⟩ : BufTy).Contents (Elt F) → (⟨S512, .f32⟩ : BufTy).Contents (Elt F)) (Host.reduceAdd x (constant S_ .f32 0x00000000#32) reducesTo_S4096x512_S512_d0 h_S_) ((broadcastInDim S512 ![] bcast_S_S512 : (⟨S_, .f32⟩ : BufTy).Contents (Elt F) → (⟨S512, .f32⟩ : BufTy).Contents (Elt F)) (constant S_ .f32 0x45800000#32)))))) ((broadcastInDim S4096x512 ![0, 1] bcast_S1x512_S4096x512_0_1 : (⟨S1x512, .f32⟩ : BufTy).Contents (Elt F) → (⟨S4096x512, .f32⟩ : BufTy).Contents (Elt F)) ((broadcastInDim S1x512 ![1] bcast_S512_S1x512_1 : (⟨S512, .f32⟩ : BufTy).Contents (Elt F) → (⟨S1x512, .f32⟩ : BufTy).Contents (Elt F)) ((Host.rsqrt : (⟨S512, .f32⟩ : BufTy).Contents (Elt F) → (⟨S512, .f32⟩ : BufTy).Contents (Elt F)) ((addf : (⟨S512, .f32⟩ : BufTy).Contents (Elt F) → (⟨S512, .f32⟩ : BufTy).Contents (Elt F) → (⟨S512, .f32⟩ : BufTy).Contents (Elt F)) (select (broadcastInDim S512 ![] bcast_S_S512 ((cmpf .ogt : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x45800000#32) ((sitofp .f32 : (⟨S_, .i32⟩ : BufTy).Contents (Elt F) → (⟨S_, .f32⟩ : BufTy).Contents (Elt F)) (constantI S_ 32 0#32))) (constant S_ .f32 0x00000000#32))) ((Host.divf : (⟨S512, .f32⟩ : BufTy).Contents (Elt F) → (⟨S512, .f32⟩ : BufTy).Contents (Elt F) → (⟨S512, .f32⟩ : BufTy).Contents (Elt F)) (Host.reduceAdd ((mulf : (⟨S4096x512, .f32⟩ : BufTy).Contents (Elt F) → (⟨S4096x512, .f32⟩ : BufTy).Contents (Elt F) → (⟨S4096x512, .f32⟩ : BufTy).Contents (Elt F)) ((subf : (⟨S4096x512, .f32⟩ : BufTy).Contents (Elt F) → (⟨S4096x512, .f32⟩ : BufTy).Contents (Elt F) → (⟨S4096x512, .f32⟩ : BufTy).Contents (Elt F)) x ((broadcastInDim S4096x512 ![0, 1] bcast_S1x512_S4096x512_0_1 : (⟨S1x512, .f32⟩ : BufTy).Contents (Elt F) → (⟨S4096x512, .f32⟩ : BufTy).Contents (Elt F)) ((Host.divf : (⟨S1x512, .f32⟩ : BufTy).Contents (Elt F) → (⟨S1x512, .f32⟩ : BufTy).Contents (Elt F) → (⟨S1x512, .f32⟩ : BufTy).Contents (Elt F)) ((broadcastInDim S1x512 ![1] bcast_S512_S1x512_1 : (⟨S512, .f32⟩ : BufTy).Contents (Elt F) → (⟨S1x512, .f32⟩ : BufTy).Contents (Elt F)) (Host.reduceAdd x (constant S_ .f32 0x00000000#32) reducesTo_S4096x512_S512_d0 h_S_)) ((broadcastInDim S1x512 ![] bcast_S_S1x512 : (⟨S_, .f32⟩ : BufTy).Contents (Elt F) → (⟨S1x512, .f32⟩ : BufTy).Contents (Elt F)) (constant S_ .f32 0x45800000#32))))) ((subf : (⟨S4096x512, .f32⟩ : BufTy).Contents (Elt F) → (⟨S4096x512, .f32⟩ : BufTy).Contents (Elt F) → (⟨S4096x512, .f32⟩ : BufTy).Contents (Elt F)) x ((broadcastInDim S4096x512 ![0, 1] bcast_S1x512_S4096x512_0_1 : (⟨S1x512, .f32⟩ : BufTy).Contents (Elt F) → (⟨S4096x512, .f32⟩ : BufTy).Contents (Elt F)) ((Host.divf : (⟨S1x512, .f32⟩ : BufTy).Contents (Elt F) → (⟨S1x512, .f32⟩ : BufTy).Contents (Elt F) → (⟨S1x512, .f32⟩ : BufTy).Contents (Elt F)) ((broadcastInDim S1x512 ![1] bcast_S512_S1x512_1 : (⟨S512, .f32⟩ : BufTy).Contents (Elt F) → (⟨S1x512, .f32⟩ : BufTy).Contents (Elt F)) (Host.reduceAdd x (constant S_ .f32 0x00000000#32) reducesTo_S4096x512_S512_d0 h_S_)) ((broadcastInDim S1x512 ![] bcast_S_S1x512 : (⟨S_, .f32⟩ : BufTy).Contents (Elt F) → (⟨S1x512, .f32⟩ : BufTy).Contents (Elt F)) (constant S_ .f32 0x45800000#32)))))) (constant S_ .f32 0x00000000#32) reducesTo_S4096x512_S512_d0 h_S_) ((broadcastInDim S512 ![] bcast_S_S512 : (⟨S_, .f32⟩ : BufTy).Contents (Elt F) → (⟨S512, .f32⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x45800000#32) ((sitofp .f32 : (⟨S_, .i32⟩ : BufTy).Contents (Elt F) → (⟨S_, .f32⟩ : BufTy).Contents (Elt F)) (constantI S_ 32 0#32))))) ((broadcastInDim S512 ![] bcast_S_S512 : (⟨S_, .f32⟩ : BufTy).Contents (Elt F) → (⟨S512, .f32⟩ : BufTy).Contents (Elt F)) ((id : (⟨S_, .f32⟩ : BufTy).Contents (Elt F) → (⟨S_, .f32⟩ : BufTy).Contents (Elt F)) (constant S_ .f32 0x7FC00000#32)))) ((broadcastInDim S512 ![] bcast_S_S512 : (⟨S_, .f32⟩ : BufTy).Contents (Elt F) → (⟨S512, .f32⟩ : BufTy).Contents (Elt F)) (constant S_ .f32 0x3727C5AC#32))))))) ((broadcastInDim S4096x512 ![0, 1] bcast_S1x512_S4096x512_0_1 : (⟨S1x512, .f32⟩ : BufTy).Contents (Elt F) → (⟨S4096x512, .f32⟩ : BufTy).Contents (Elt F)) ((broadcastInDim S1x512 ![1] bcast_S512_S1x512_1 : (⟨S512, .f32⟩ : BufTy).Contents (Elt F) → (⟨S1x512, .f32⟩ : BufTy).Contents (Elt F)) gamma))) ((broadcastInDim S4096x512 ![0, 1] bcast_S1x512_S4096x512_0_1 : (⟨S1x512, .f32⟩ : BufTy).Contents (Elt F) → (⟨S4096x512, .f32⟩ : BufTy).Contents (Elt F)) ((broadcastInDim S1x512 ![1] bcast_S512_S1x512_1 : (⟨S512, .f32⟩ : BufTy).Contents (Elt F) → (⟨S1x512, .f32⟩ : BufTy).Contents (Elt F)) beta)))

/-- The three affine layers: `max (max (xn · W1 + b1) 0 · W2 + b2) 0 · W3 + b3`. -/
def refTail (xn : (⟨S4096x512, .f32⟩ : BufTy).Contents (Elt F)) (W1 : (⟨S512x1024, .f32⟩ : BufTy).Contents (Elt F)) (b1 : (⟨S1024, .f32⟩ : BufTy).Contents (Elt F))
    (W2 : (⟨S1024x512, .f32⟩ : BufTy).Contents (Elt F)) (b2 : (⟨S512, .f32⟩ : BufTy).Contents (Elt F))
    (W3 : (⟨S512x256, .f32⟩ : BufTy).Contents (Elt F)) (b3 : (⟨S256, .f32⟩ : BufTy).Contents (Elt F)) :
    (⟨S4096x256, .f32⟩ : BufTy).Contents (Elt F) :=
  ((addf : (⟨S4096x256, .f32⟩ : BufTy).Contents (Elt F) → (⟨S4096x256, .f32⟩ : BufTy).Contents (Elt F) → (⟨S4096x256, .f32⟩ : BufTy).Contents (Elt F)) (Host.dotGeneral dot_S4096x512_S512x256_S4096x256_1_0_0_1_n_n none ((maximumf : (⟨S4096x512, .f32⟩ : BufTy).Contents (Elt F) → (⟨S4096x512, .f32⟩ : BufTy).Contents (Elt F) → (⟨S4096x512, .f32⟩ : BufTy).Contents (Elt F)) ((addf : (⟨S4096x512, .f32⟩ : BufTy).Contents (Elt F) → (⟨S4096x512, .f32⟩ : BufTy).Contents (Elt F) → (⟨S4096x512, .f32⟩ : BufTy).Contents (Elt F)) (Host.dotGeneral dot_S4096x1024_S1024x512_S4096x512_1_0_0_1_n_n none ((maximumf : (⟨S4096x1024, .f32⟩ : BufTy).Contents (Elt F) → (⟨S4096x1024, .f32⟩ : BufTy).Contents (Elt F) → (⟨S4096x1024, .f32⟩ : BufTy).Contents (Elt F)) ((addf : (⟨S4096x1024, .f32⟩ : BufTy).Contents (Elt F) → (⟨S4096x1024, .f32⟩ : BufTy).Contents (Elt F) → (⟨S4096x1024, .f32⟩ : BufTy).Contents (Elt F)) (Host.dotGeneral dot_S4096x512_S512x1024_S4096x1024_1_0_0_1_n_n none xn W1) ((broadcastInDim S4096x1024 ![0, 1] bcast_S1x1024_S4096x1024_0_1 : (⟨S1x1024, .f32⟩ : BufTy).Contents (Elt F) → (⟨S4096x1024, .f32⟩ : BufTy).Contents (Elt F)) ((broadcastInDim S1x1024 ![1] bcast_S1024_S1x1024_1 : (⟨S1024, .f32⟩ : BufTy).Contents (Elt F) → (⟨S1x1024, .f32⟩ : BufTy).Contents (Elt F)) b1))) ((broadcastInDim S4096x1024 ![] bcast_S_S4096x1024 : (⟨S_, .f32⟩ : BufTy).Contents (Elt F) → (⟨S4096x1024, .f32⟩ : BufTy).Contents (Elt F)) (constant S_ .f32 0x00000000#32))) W2) ((broadcastInDim S4096x512 ![0, 1] bcast_S1x512_S4096x512_0_1 : (⟨S1x512, .f32⟩ : BufTy).Contents (Elt F) → (⟨S4096x512, .f32⟩ : BufTy).Contents (Elt F)) ((broadcastInDim S1x512 ![1] bcast_S512_S1x512_1 : (⟨S512, .f32⟩ : BufTy).Contents (Elt F) → (⟨S1x512, .f32⟩ : BufTy).Contents (Elt F)) b2))) ((broadcastInDim S4096x512 ![] bcast_S_S4096x512 : (⟨S_, .f32⟩ : BufTy).Contents (Elt F) → (⟨S4096x512, .f32⟩ : BufTy).Contents (Elt F)) (constant S_ .f32 0x00000000#32))) W3) ((broadcastInDim S4096x256 ![0, 1] bcast_S1x256_S4096x256_0_1 : (⟨S1x256, .f32⟩ : BufTy).Contents (Elt F) → (⟨S4096x256, .f32⟩ : BufTy).Contents (Elt F)) ((broadcastInDim S1x256 ![1] bcast_S256_S1x256_1 : (⟨S256, .f32⟩ : BufTy).Contents (Elt F) → (⟨S1x256, .f32⟩ : BufTy).Contents (Elt F)) b3)))

/-! ## The program as a list of operations -/

/-- @main's seventy-four operations in order, a called function's operations standing at its call over that call's
    buffers: eighteen of @main, the variance's nineteen and its select's three, nineteen of @main, the first
    maximum's three, four of @main, the second maximum's three, and @main's last four. -/
abbrev ops : List (HloOp τ sig (Elt F)) :=
  [
    nullary main_c (constantI S_ 32 0#32),
    unary main_c main_v0 (broadcastInDim S4096x32x20 ![] bcast_S_S4096x32x20 : (⟨S_, .i32⟩ : BufTy).Contents (Elt F) → (⟨S4096x32x20, .i32⟩ : BufTy).Contents (Elt F)),
    binary main_arg0 main_v0 main_v1 (cmpi .slt : (⟨S4096x32x20, .i32⟩ : BufTy).Contents (Elt F) → (⟨S4096x32x20, .i32⟩ : BufTy).Contents (Elt F) → (⟨S4096x32x20, .i1⟩ : BufTy).Contents (Elt F)),
    nullary main_c_0 (constantI S_ 32 1000000#32),
    unary main_c_0 main_v2 (broadcastInDim S4096x32x20 ![] bcast_S_S4096x32x20 : (⟨S_, .i32⟩ : BufTy).Contents (Elt F) → (⟨S4096x32x20, .i32⟩ : BufTy).Contents (Elt F)),
    binary main_arg0 main_v2 main_v3 (addi : (⟨S4096x32x20, .i32⟩ : BufTy).Contents (Elt F) → (⟨S4096x32x20, .i32⟩ : BufTy).Contents (Elt F) → (⟨S4096x32x20, .i32⟩ : BufTy).Contents (Elt F)),
    ternary main_v1 main_v3 main_arg0 main_v4 (select : (⟨S4096x32x20, .i1⟩ : BufTy).Contents (Elt F) → (⟨S4096x32x20, .i32⟩ : BufTy).Contents (Elt F) → (⟨S4096x32x20, .i32⟩ : BufTy).Contents (Elt F) → (⟨S4096x32x20, .i32⟩ : BufTy).Contents (Elt F)),
    unary main_v4 main_v5 (broadcastInDim S4096x32x20x1 ![0, 1, 2] bcast_S4096x32x20_S4096x32x20x1_0_1_2 : (⟨S4096x32x20, .i32⟩ : BufTy).Contents (Elt F) → (⟨S4096x32x20x1, .i32⟩ : BufTy).Contents (Elt F)),
    binary main_arg1 main_v5 main_v6 ((fun x i => Host.gather gather_S1000000x16_S4096x32x20x1_S4096x32x20x16_3_0_n_n_0_3_116 x i) : (⟨S1000000x16, .f32⟩ : BufTy).Contents (Elt F) → (⟨S4096x32x20x1, .i32⟩ : BufTy).Contents (Elt F) → (⟨S4096x32x20x16, .f32⟩ : BufTy).Contents (Elt F)),
    nullary main_cst (constant S_ .f32 0x00000000#32),
    binary main_v6 main_cst main_v7 ((fun x v => Host.reduceAdd x v reducesTo_S4096x32x20x16_S4096x32x16_d2 h_S_) : (⟨S4096x32x20x16, .f32⟩ : BufTy).Contents (Elt F) → (⟨S_, .f32⟩ : BufTy).Contents (Elt F) → (⟨S4096x32x16, .f32⟩ : BufTy).Contents (Elt F)),
    reshape main_v7 main_v8 rfl shapeCasts_S4096x32x16_S4096x512,
    nullary main_cst_1 (constant S_ .f32 0x00000000#32),
    binary main_v8 main_cst_1 main_v9 ((fun x v => Host.reduceAdd x v reducesTo_S4096x512_S512_d0 h_S_) : (⟨S4096x512, .f32⟩ : BufTy).Contents (Elt F) → (⟨S_, .f32⟩ : BufTy).Contents (Elt F) → (⟨S512, .f32⟩ : BufTy).Contents (Elt F)),
    nullary main_cst_2 (constant S_ .f32 0x45800000#32),
    unary main_cst_2 main_v10 (broadcastInDim S512 ![] bcast_S_S512 : (⟨S_, .f32⟩ : BufTy).Contents (Elt F) → (⟨S512, .f32⟩ : BufTy).Contents (Elt F)),
    binary main_v9 main_v10 main_v11 (Host.divf : (⟨S512, .f32⟩ : BufTy).Contents (Elt F) → (⟨S512, .f32⟩ : BufTy).Contents (Elt F) → (⟨S512, .f32⟩ : BufTy).Contents (Elt F)),
    nullary main_c_3 (constantI S_ 32 0#32),
    TRef.nullary main_call0.cst (constant S_ .f32 0x00000000#32),
    TRef.binary (TRef.of (T := ⟨S4096x512, .f32⟩) main_v8) main_call0.cst main_call0.v0 (fun x v => Host.reduceAdd x v reducesTo_S4096x512_S512_d0 h_S_),
    TRef.unary main_call0.v0 main_call0.v1 (broadcastInDim S1x512 ![1] bcast_S512_S1x512_1),
    TRef.nullary main_call0.cst_0 (constant S_ .f32 0x45800000#32),
    TRef.unary main_call0.cst_0 main_call0.v2 (broadcastInDim S1x512 ![] bcast_S_S1x512),
    TRef.binary main_call0.v1 main_call0.v2 main_call0.v3 Host.divf,
    TRef.unary main_call0.v3 main_call0.v4 (broadcastInDim S4096x512 ![0, 1] bcast_S1x512_S4096x512_0_1),
    TRef.binary (TRef.of (T := ⟨S4096x512, .f32⟩) main_v8) main_call0.v4 main_call0.v5 subf,
    TRef.binary main_call0.v5 main_call0.v5 main_call0.v6 mulf,
    TRef.unary (TRef.of (T := ⟨S_, .i32⟩) main_c_3) main_call0.v7 (sitofp .f32),
    TRef.nullary main_call0.cst_1 (constant S_ .f32 0x45800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S4096x512_S512_d0 h_S_),
    TRef.unary main_call0.v8 main_call0.v10 (broadcastInDim S512 ![] bcast_S_S512),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S512 ![] bcast_S_S512),
    TRef.ternary main_call0.v12 main_call0.v11 main_call0.call0.v1 main_call0.call0.v2 (fun p a b => select (broadcastInDim S512 ![] bcast_S_S512 p) a b),
    unary main_v11 main_v13 (broadcastInDim S1x512 ![1] bcast_S512_S1x512_1 : (⟨S512, .f32⟩ : BufTy).Contents (Elt F) → (⟨S1x512, .f32⟩ : BufTy).Contents (Elt F)),
    unary main_v13 main_v14 (broadcastInDim S4096x512 ![0, 1] bcast_S1x512_S4096x512_0_1 : (⟨S1x512, .f32⟩ : BufTy).Contents (Elt F) → (⟨S4096x512, .f32⟩ : BufTy).Contents (Elt F)),
    binary main_v8 main_v14 main_v15 (subf : (⟨S4096x512, .f32⟩ : BufTy).Contents (Elt F) → (⟨S4096x512, .f32⟩ : BufTy).Contents (Elt F) → (⟨S4096x512, .f32⟩ : BufTy).Contents (Elt F)),
    nullary main_cst_4 (constant S_ .f32 0x3727C5AC#32),
    unary main_cst_4 main_v16 (broadcastInDim S512 ![] bcast_S_S512 : (⟨S_, .f32⟩ : BufTy).Contents (Elt F) → (⟨S512, .f32⟩ : BufTy).Contents (Elt F)),
    binary main_v12 main_v16 main_v17 (addf : (⟨S512, .f32⟩ : BufTy).Contents (Elt F) → (⟨S512, .f32⟩ : BufTy).Contents (Elt F) → (⟨S512, .f32⟩ : BufTy).Contents (Elt F)),
    unary main_v17 main_v18 (Host.rsqrt : (⟨S512, .f32⟩ : BufTy).Contents (Elt F) → (⟨S512, .f32⟩ : BufTy).Contents (Elt F)),
    unary main_v18 main_v19 (broadcastInDim S1x512 ![1] bcast_S512_S1x512_1 : (⟨S512, .f32⟩ : BufTy).Contents (Elt F) → (⟨S1x512, .f32⟩ : BufTy).Contents (Elt F)),
    unary main_v19 main_v20 (broadcastInDim S4096x512 ![0, 1] bcast_S1x512_S4096x512_0_1 : (⟨S1x512, .f32⟩ : BufTy).Contents (Elt F) → (⟨S4096x512, .f32⟩ : BufTy).Contents (Elt F)),
    binary main_v15 main_v20 main_v21 (mulf : (⟨S4096x512, .f32⟩ : BufTy).Contents (Elt F) → (⟨S4096x512, .f32⟩ : BufTy).Contents (Elt F) → (⟨S4096x512, .f32⟩ : BufTy).Contents (Elt F)),
    unary main_arg2 main_v22 (broadcastInDim S1x512 ![1] bcast_S512_S1x512_1 : (⟨S512, .f32⟩ : BufTy).Contents (Elt F) → (⟨S1x512, .f32⟩ : BufTy).Contents (Elt F)),
    unary main_v22 main_v23 (broadcastInDim S4096x512 ![0, 1] bcast_S1x512_S4096x512_0_1 : (⟨S1x512, .f32⟩ : BufTy).Contents (Elt F) → (⟨S4096x512, .f32⟩ : BufTy).Contents (Elt F)),
    binary main_v21 main_v23 main_v24 (mulf : (⟨S4096x512, .f32⟩ : BufTy).Contents (Elt F) → (⟨S4096x512, .f32⟩ : BufTy).Contents (Elt F) → (⟨S4096x512, .f32⟩ : BufTy).Contents (Elt F)),
    unary main_arg3 main_v25 (broadcastInDim S1x512 ![1] bcast_S512_S1x512_1 : (⟨S512, .f32⟩ : BufTy).Contents (Elt F) → (⟨S1x512, .f32⟩ : BufTy).Contents (Elt F)),
    unary main_v25 main_v26 (broadcastInDim S4096x512 ![0, 1] bcast_S1x512_S4096x512_0_1 : (⟨S1x512, .f32⟩ : BufTy).Contents (Elt F) → (⟨S4096x512, .f32⟩ : BufTy).Contents (Elt F)),
    binary main_v24 main_v26 main_v27 (addf : (⟨S4096x512, .f32⟩ : BufTy).Contents (Elt F) → (⟨S4096x512, .f32⟩ : BufTy).Contents (Elt F) → (⟨S4096x512, .f32⟩ : BufTy).Contents (Elt F)),
    binary main_v27 main_arg4 main_v28 ((fun l r => Host.dotGeneral dot_S4096x512_S512x1024_S4096x1024_1_0_0_1_n_n none l r) : (⟨S4096x512, .f32⟩ : BufTy).Contents (Elt F) → (⟨S512x1024, .f32⟩ : BufTy).Contents (Elt F) → (⟨S4096x1024, .f32⟩ : BufTy).Contents (Elt F)),
    unary main_arg5 main_v29 (broadcastInDim S1x1024 ![1] bcast_S1024_S1x1024_1 : (⟨S1024, .f32⟩ : BufTy).Contents (Elt F) → (⟨S1x1024, .f32⟩ : BufTy).Contents (Elt F)),
    unary main_v29 main_v30 (broadcastInDim S4096x1024 ![0, 1] bcast_S1x1024_S4096x1024_0_1 : (⟨S1x1024, .f32⟩ : BufTy).Contents (Elt F) → (⟨S4096x1024, .f32⟩ : BufTy).Contents (Elt F)),
    binary main_v28 main_v30 main_v31 (addf : (⟨S4096x1024, .f32⟩ : BufTy).Contents (Elt F) → (⟨S4096x1024, .f32⟩ : BufTy).Contents (Elt F) → (⟨S4096x1024, .f32⟩ : BufTy).Contents (Elt F)),
    TRef.nullary main_call1.cst (constant S_ .f32 0x00000000#32),
    TRef.unary main_call1.cst main_call1.v0 (broadcastInDim S4096x1024 ![] bcast_S_S4096x1024),
    TRef.binary (TRef.of (T := ⟨S4096x1024, .f32⟩) main_v31) main_call1.v0 main_call1.v1 maximumf,
    binary main_v32 main_arg6 main_v33 ((fun l r => Host.dotGeneral dot_S4096x1024_S1024x512_S4096x512_1_0_0_1_n_n none l r) : (⟨S4096x1024, .f32⟩ : BufTy).Contents (Elt F) → (⟨S1024x512, .f32⟩ : BufTy).Contents (Elt F) → (⟨S4096x512, .f32⟩ : BufTy).Contents (Elt F)),
    unary main_arg7 main_v34 (broadcastInDim S1x512 ![1] bcast_S512_S1x512_1 : (⟨S512, .f32⟩ : BufTy).Contents (Elt F) → (⟨S1x512, .f32⟩ : BufTy).Contents (Elt F)),
    unary main_v34 main_v35 (broadcastInDim S4096x512 ![0, 1] bcast_S1x512_S4096x512_0_1 : (⟨S1x512, .f32⟩ : BufTy).Contents (Elt F) → (⟨S4096x512, .f32⟩ : BufTy).Contents (Elt F)),
    binary main_v33 main_v35 main_v36 (addf : (⟨S4096x512, .f32⟩ : BufTy).Contents (Elt F) → (⟨S4096x512, .f32⟩ : BufTy).Contents (Elt F) → (⟨S4096x512, .f32⟩ : BufTy).Contents (Elt F)),
    TRef.nullary main_call2.cst (constant S_ .f32 0x00000000#32),
    TRef.unary main_call2.cst main_call2.v0 (broadcastInDim S4096x512 ![] bcast_S_S4096x512),
    TRef.binary (TRef.of (T := ⟨S4096x512, .f32⟩) main_v36) main_call2.v0 main_call2.v1 maximumf,
    binary main_v37 main_arg8 main_v38 ((fun l r => Host.dotGeneral dot_S4096x512_S512x256_S4096x256_1_0_0_1_n_n none l r) : (⟨S4096x512, .f32⟩ : BufTy).Contents (Elt F) → (⟨S512x256, .f32⟩ : BufTy).Contents (Elt F) → (⟨S4096x256, .f32⟩ : BufTy).Contents (Elt F)),
    unary main_arg9 main_v39 (broadcastInDim S1x256 ![1] bcast_S256_S1x256_1 : (⟨S256, .f32⟩ : BufTy).Contents (Elt F) → (⟨S1x256, .f32⟩ : BufTy).Contents (Elt F)),
    unary main_v39 main_v40 (broadcastInDim S4096x256 ![0, 1] bcast_S1x256_S4096x256_0_1 : (⟨S1x256, .f32⟩ : BufTy).Contents (Elt F) → (⟨S4096x256, .f32⟩ : BufTy).Contents (Elt F)),
    binary main_v38 main_v40 main_v41 (addf : (⟨S4096x256, .f32⟩ : BufTy).Contents (Elt F) → (⟨S4096x256, .f32⟩ : BufTy).Contents (Elt F) → (⟨S4096x256, .f32⟩ : BufTy).Contents (Elt F)) ]

set_option maxRecDepth 8192 in
set_option maxHeartbeats 4000000 in
/-- @main is that straight line: the called functions unfold at their calls, and both sides are one chain of
    steps once sequencing is reassociated. -/
theorem main_eq (c : Dev nD) : main (F := F) c = seq ops := by
  simp only [main, fn_var.body, fn_where.body, fn_relu.body, fn_relu_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., binary_bufs_sub .., nullary_bufs_sub .., binary_bufs_sub .., reshape_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub ..⟩

/-! ## What the buffers hold after the line -/

set_option maxRecDepth 8192 in
set_option maxHeartbeats 8000000 in
/-- The result buffer holds the three stages composed over the arguments' contents: each operation's result read at
    its own buffer is its function of its operands' contents, and at any other buffer what was there. -/
theorem out_eq (V : Valuation τ sig (Elt F)) :
    after ops V (main_v41 : DevRef τ sig)
      = refTail (refXn (refX (V (main_arg0 : DevRef τ sig)) (V (main_arg1 : DevRef τ sig))) (V (main_arg2 : DevRef τ sig)) (V (main_arg3 : DevRef τ sig)))
        (V (main_arg4 : DevRef τ sig)) (V (main_arg5 : DevRef τ sig)) (V (main_arg6 : DevRef τ sig)) (V (main_arg7 : DevRef τ sig)) (V (main_arg8 : DevRef τ sig)) (V (main_arg9 : DevRef τ sig)) := by
  after_results_simp <;> rfl

set_option maxRecDepth 8192 in
set_option maxHeartbeats 2000000 in
theorem arg0_eq (V : Valuation τ sig (Elt F)) :
    after ops V (main_arg0 : DevRef τ sig) = V (main_arg0 : DevRef τ sig) := by
  after_results_simp

set_option maxRecDepth 8192 in
set_option maxHeartbeats 2000000 in
theorem arg1_eq (V : Valuation τ sig (Elt F)) :
    after ops V (main_arg1 : DevRef τ sig) = V (main_arg1 : DevRef τ sig) := by
  after_results_simp

set_option maxRecDepth 8192 in
set_option maxHeartbeats 2000000 in
theorem arg2_eq (V : Valuation τ sig (Elt F)) :
    after ops V (main_arg2 : DevRef τ sig) = V (main_arg2 : DevRef τ sig) := by
  after_results_simp

set_option maxRecDepth 8192 in
set_option maxHeartbeats 2000000 in
theorem arg3_eq (V : Valuation τ sig (Elt F)) :
    after ops V (main_arg3 : DevRef τ sig) = V (main_arg3 : DevRef τ sig) := by
  after_results_simp

set_option maxRecDepth 8192 in
set_option maxHeartbeats 2000000 in
theorem arg4_eq (V : Valuation τ sig (Elt F)) :
    after ops V (main_arg4 : DevRef τ sig) = V (main_arg4 : DevRef τ sig) := by
  after_results_simp

set_option maxRecDepth 8192 in
set_option maxHeartbeats 2000000 in
theorem arg5_eq (V : Valuation τ sig (Elt F)) :
    after ops V (main_arg5 : DevRef τ sig) = V (main_arg5 : DevRef τ sig) := by
  after_results_simp

set_option maxRecDepth 8192 in
set_option maxHeartbeats 2000000 in
theorem arg6_eq (V : Valuation τ sig (Elt F)) :
    after ops V (main_arg6 : DevRef τ sig) = V (main_arg6 : DevRef τ sig) := by
  after_results_simp

set_option maxRecDepth 8192 in
set_option maxHeartbeats 2000000 in
theorem arg7_eq (V : Valuation τ sig (Elt F)) :
    after ops V (main_arg7 : DevRef τ sig) = V (main_arg7 : DevRef τ sig) := by
  after_results_simp

set_option maxRecDepth 8192 in
set_option maxHeartbeats 2000000 in
theorem arg8_eq (V : Valuation τ sig (Elt F)) :
    after ops V (main_arg8 : DevRef τ sig) = V (main_arg8 : DevRef τ sig) := by
  after_results_simp

set_option maxRecDepth 8192 in
set_option maxHeartbeats 2000000 in
theorem arg9_eq (V : Valuation τ sig (Elt F)) :
    after ops V (main_arg9 : DevRef τ sig) = V (main_arg9 : DevRef τ sig) := by
  after_results_simp

/-! ## The run -/

set_option maxRecDepth 8192 in
/-- On every device, for any float values, from any memory with zero counters: every weakly fair execution of
    @main terminates with the result at the three stages composed over the arguments' launch contents, and the
    arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v41)
        = refTail (refXn (refX (m ((c.tc : Thread nD τ).loc main_arg0)) (m ((c.tc : Thread nD τ).loc main_arg1))) (m ((c.tc : Thread nD τ).loc main_arg2)) (m ((c.tc : Thread nD τ).loc main_arg3)))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v41).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_seq scopedRefs_eq scopedSems_eq defs main (fun _ => ops) main_eq (fun _ => ops_sub) m ρ)

/-- The reference runs and leaves its arguments as they were: the run's statement without its first clause. -/
theorem frame_ri : Cert.frame_ReferenceIdeal := fun m ρ _ =>
  (θ_run _ _ _).mono (fun _ h c => (h c).2) (run m ρ)

end Cert.ReferenceIdeal.RefRun

end
-- ==== Proof.RefTail.lean ====
/-
  The reference's three host layers are the three dense layers of the specification: each `dot_general` plus a bias
  vector broadcast first to one row and then down the rows is the biased product with that row, and the larger of such
  an array and the zero word broadcast to every entry is the hidden layer.
-/
import proofs.«116118_j3607772528806_2_alg».proof.Proof.RefRun
import proofs.«116118_j3607772528806_2_alg».proof.Proof.MlpSpec

noncomputable section

namespace Cert.ReferenceIdeal.RefTail

open Cert.ReferenceIdeal Cert.ReferenceIdeal.Gen Idealize.ShloMosaic Idealize.ShloMosaic.ValueIdx Cert.MatrixProduct Cert.Gcn Cert.Dense3

/-- One host layer as the program spells it: the contraction of the columns of `A` with the rows of `W`, plus the
    vector `b` laid out as one row and repeated down the rows, is the biased product with that row. The dimension
    record enters through an equation, so that a named record of the program is met as it is written. -/
theorem host_layer {M K N : ℕ} (D : DotDims ⟨2, ![M, K]⟩ ⟨2, ![K, N]⟩ ⟨2, ![M, N]⟩)
    (w : DotDims.WF ⟨2, ![M, K]⟩ ⟨2, ![K, N]⟩ ⟨2, ![M, N]⟩ [1] [0] [0] [1] [] [])
    (hD : D = ⟨[1], [0], [0], [1], [], [], w⟩)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (A : FVec Ideal ⟨2, ![M, K]⟩ .f32) (W : FVec Ideal ⟨2, ![K, N]⟩ .f32) (b : FVec Ideal ⟨1, ![N]⟩ .f32) :
    addf (Host.dotGeneral D none A W)
        (broadcastInDim ⟨2, ![M, N]⟩ (![0, 1] : Fin 2 → Fin 2) h2 (broadcastInDim ⟨2, ![1, N]⟩ (![1] : Fin 1 → Fin 2) h1 b))
      = biasedProduct A W (rowOf b) := by
  subst hD
  rw [bcast_row_eq_rowOf b h1]
  exact host_linear w h2 A W (rowOf b)

/-- The larger of a biased product and the zero word broadcast to every entry is the hidden layer. -/
theorem max_zero_eq_hidden {M K N : ℕ} (X : (⟨2, ![M, K]⟩ : Shape).Idx → EReal) (W : (⟨2, ![K, N]⟩ : Shape).Idx → EReal)
    (B : (⟨2, ![1, N]⟩ : Shape).Idx → EReal)
    (h : S_.BroadcastsInDim ⟨2, ![M, N]⟩ (![] : Fin 0 → Fin 2)) :
    maximumf (F := Ideal) (φ := .f32) (biasedProduct X W B)
        (broadcastInDim ⟨2, ![M, N]⟩ (![] : Fin 0 → Fin 2) h (constant (F := Ideal) S_ .f32 0x00000000#32))
      = hidden X W B := by
  funext j
  rfl

/-- The reference's tail is the three dense layers over the biases' rows. -/
theorem refTail_eq (xn : FVec Ideal S4096x512 .f32) (W1 : FVec Ideal S512x1024 .f32) (b1 : FVec Ideal S1024 .f32)
    (W2 : FVec Ideal S1024x512 .f32) (b2 : FVec Ideal S512 .f32) (W3 : FVec Ideal S512x256 .f32) (b3 : FVec Ideal S256 .f32) :
    RefRun.refTail (F := Ideal) xn W1 b1 W2 b2 W3 b3
      = mlp3 xn W1 (rowOf b1) W2 (rowOf b2) W3 (rowOf b3) := by
  unfold RefRun.refTail mlp3
  rw [host_layer dot_S4096x512_S512x1024_S4096x1024_1_0_0_1_n_n dot_S4096x512_S512x1024_S4096x1024_1_0_0_1_n_n_wf rfl,
    max_zero_eq_hidden,
    host_layer dot_S4096x1024_S1024x512_S4096x512_1_0_0_1_n_n dot_S4096x1024_S1024x512_S4096x512_1_0_0_1_n_n_wf rfl,
    max_zero_eq_hidden,
    host_layer dot_S4096x512_S512x256_S4096x256_1_0_0_1_n_n dot_S4096x512_S512x256_S4096x256_1_0_0_1_n_n_wf rfl]

end Cert.ReferenceIdeal.RefTail

end
-- ==== Proof.RefX.lean ====
/-
  The reference's pooled embedding is the specification's: the sum over axis 2 of the gathered rows, from the zero word,
  read at (batch, feature, column) is the zero word plus the sum over the twenty slots of the table entry at the slot's
  wrapped and clamped row, which is the pooled array; both sides are then the same reshape of it.
-/
import proofs.«116118_j3607772528806_2_alg».proof.Proof.RefRun
import proofs.«116118_j3607772528806_2_alg».proof.Proof.Pooled
import Idealize.ShloMosaic.Lib.Pipeline.Value

noncomputable section

open scoped BigOperators

namespace Cert.ReferenceIdeal.RefXValue

open Cert.ReferenceIdeal Cert.ReferenceIdeal.Gen Idealize.ShloMosaic Idealize.ShloMosaic.ValueIdx Cert.GatherRead Cert.Pooled

/-- Inserting slot `k` on axis 2 over (batch, feature, column) gives (batch, feature, slot, column). -/
theorem lift_slot (h : S4096x32x20x16.Reduces [2] S4096x32x16) (b : Fin 4096) (f : Fin 32) (e : Fin 16) (k : Fin 20) :
    h.lift (ix3 b f e) k = ix4 b f k e := by
  funext ax; apply Fin.ext
  show h.liftVal (ix3 b f e) k.val ax = (ix4 b f k e ax).val
  unfold Shape.Reduces.liftVal
  match ax with
  | ⟨0, _⟩ => rfl
  | ⟨1, _⟩ => rfl
  | ⟨2, _⟩ => rfl
  | ⟨3, _⟩ => rfl

/-- The host sum over the slot axis from a constant word, read at (batch, feature, column): the word plus the sum over
    the twenty slots. -/
theorem reduce_slots_apply (X : FVec Ideal S4096x32x20x16 .f32) (w : BitVec 32) (b : Fin 4096) (f : Fin 32) (e : Fin 16) :
    Host.reduceAdd X (constant (F := Ideal) S_ .f32 w) reducesTo_S4096x32x20x16_S4096x32x16_d2 h_S_ (ix3 b f e)
      = Ideal.ofBits .f32 w + ∑ k : Fin 20, X (ix4 b f k e) := by
  have hR : S4096x32x20x16.Reduces [2] S4096x32x16 := by decide
  refine (Ideal.hostReduceAdd_single reducesTo_S4096x32x20x16_S4096x32x16_d2 hR X _ (ix3 b f e)).trans ?_
  refine congrArg (Ideal.ofBits .f32 w + ·) (Finset.sum_congr rfl fun k _ => congrArg X ?_)
  exact lift_slot hR b f e k

/-- The gather of table rows by the row numbers laid out with a trailing unit axis, read at (batch, feature, slot,
    column): the table entry at the clamped row number of that slot, same column. -/
theorem gather_slot (tbl : FVec Ideal S1000000x16 .f32) (sel : IVec S4096x32x20 32)
    (b : Fin 4096) (f : Fin 32) (k : Fin 20) (e : Fin 16) :
    Host.gather gather_S1000000x16_S4096x32x20x1_S4096x32x20x16_3_0_n_n_0_3_116 tbl
        (broadcastInDim S4096x32x20x1 ![0, 1, 2] bcast_S4096x32x20_S4096x32x20x1_0_1_2 sel) (ix4 b f k e)
      = tbl (ix2 (clampTo (N := 1000000) (by decide) (sel (ix3 b f k))) e) := by
  refine (gather_rows4_apply (N := 1000000) (C := 16) (A := 4096) (B := 32) (L := 20) (by decide)
    gather_S1000000x16_S4096x32x20x1_S4096x32x20x16_3_0_n_n_0_3_116_wf tbl _ b f k e).trans ?_
  refine congrArg (fun r => tbl (ix2 (clampTo (N := 1000000) (by decide) r) e)) ?_
  refine broadcastInDim_apply _ _ sel (ix4 b f k (0 : Fin 1)) (ix3 b f k) (fun a => ?_)
  match a with
  | ⟨0, _⟩ => show b.val = if (4096 : ℕ) = 1 then 0 else b.val; rw [if_neg (by decide)]
  | ⟨1, _⟩ => show f.val = if (32 : ℕ) = 1 then 0 else f.val; rw [if_neg (by decide)]
  | ⟨2, _⟩ => show k.val = if (20 : ℕ) = 1 then 0 else k.val; rw [if_neg (by decide)]

/-- The reference's first stage is the pooled array, reshaped to a matrix. -/
theorem refX_eq (idx : IVec S4096x32x20 32) (tbl : FVec Ideal S1000000x16 .f32) :
    RefRun.refX (F := Ideal) idx tbl
      = fun i => shapeCast S4096x512 (Cert.Pooled.pooled idx tbl) shapeCasts_S4096x32x16_S4096x512 i := by
  unfold RefRun.refX
  refine congrArg (fun y => shapeCast S4096x512 y shapeCasts_S4096x32x16_S4096x512) ?_
  funext j
  obtain ⟨b, f, e, rfl⟩ : ∃ (b : Fin 4096) (f : Fin 32) (e : Fin 16), j = ix3 b f e := ⟨j 0, j 1, j 2, eq_ix3 j⟩
  refine (reduce_slots_apply _ _ b f e).trans ?_
  refine congrArg (Ideal.ofBits .f32 0x00000000#32 + ·) ?_
  refine Eq.trans (Finset.sum_congr rfl fun k _ => ?_) (Cert.Pooled.sum_slots idx tbl (ix3 b f e))
  exact gather_slot tbl _ b f k e

end Cert.ReferenceIdeal.RefXValue

end
-- ==== Proof.RefXn.lean ====
/-
  The reference's normalised matrix read at one entry.

  Entry (r, i) of the second stage is  (x(r, i) − mean_i) · rsqrt (var_i + ε) · g(i) + b(i),  where the column mean is
  the zero word plus the column's sum, divided by the word of 4096, and the column variance is the zero word plus the sum
  of the squared centred entries, divided by the divisor the program computes: the word of 4096 less the integer zero made
  a float. That divisor is the real 4096, so the comparison guarding the variance holds and the guarded branch is taken.
-/
import proofs.«116118_j3607772528806_2_alg».proof.Proof.RefRun
import proofs.«116118_j3607772528806_2_alg».proof.Proof.LibColumnSum
import proofs.«116118_j3607772528806_2_alg».proof.Proof.BnAlgebra
import Idealize.ShloMosaic.Lib.Pipeline.Value

noncomputable section

open scoped BigOperators

namespace Cert.ReferenceIdeal.RefTail

open Cert.ReferenceIdeal Cert.ReferenceIdeal.Gen Idealize.ShloMosaic Idealize.ShloMosaic.ValueIdx

section Broadcasts

variable {α : Type}

/-- A one-row array repeated down the rows, read at (r, i): its entry (0, i). -/
theorem row_apply {M N : ℕ} (h2 : (⟨2, ![1, N]⟩ : Shape).BroadcastsInDim ⟨2, ![M, N]⟩ (![0, 1] : Fin 2 → Fin 2))
    (y : (⟨2, ![1, N]⟩ : Shape).Idx → α) (r : Fin M) (i : Fin N) :
    broadcastInDim ⟨2, ![M, N]⟩ (![0, 1] : Fin 2 → Fin 2) h2 y (ix2 r i) = y (ix2 (0 : Fin 1) i) := by
  refine broadcastInDim_apply _ h2 y (ix2 r i) (ix2 (0 : Fin 1) i) (fun ax => ?_)
  match ax with
  | ⟨0, _⟩ => show 0 = if (1 : ℕ) = 1 then 0 else r.val; rw [if_pos rfl]
  | ⟨1, _⟩ =>
    show i.val = if N = 1 then 0 else i.val
    split
    · have := i.isLt; omega
    · rfl

/-- A vector laid out as one row, read at (u, i): its entry i. -/
theorem lead_apply {N : ℕ} (h1 : (⟨1, ![N]⟩ : Shape).BroadcastsInDim ⟨2, ![1, N]⟩ (![1] : Fin 1 → Fin 2))
    (v : (⟨1, ![N]⟩ : Shape).Idx → α) (u : Fin 1) (i : Fin N) :
    broadcastInDim ⟨2, ![1, N]⟩ (![1] : Fin 1 → Fin 2) h1 v (ix2 u i) = v (ix1 i) := by
  refine broadcastInDim_apply _ h1 v (ix2 u i) (ix1 i) (fun ax => ?_)
  match ax with
  | ⟨0, _⟩ =>
    show i.val = if N = 1 then 0 else i.val
    split
    · have := i.isLt; omega
    · rfl

/-- A vector laid out as one row and repeated down the rows, read at (r, i): its entry i. -/
theorem rows_apply {M N : ℕ} (h2 : (⟨2, ![1, N]⟩ : Shape).BroadcastsInDim ⟨2, ![M, N]⟩ (![0, 1] : Fin 2 → Fin 2))
    (h1 : (⟨1, ![N]⟩ : Shape).BroadcastsInDim ⟨2, ![1, N]⟩ (![1] : Fin 1 → Fin 2))
    (v : (⟨1, ![N]⟩ : Shape).Idx → α) (r : Fin M) (i : Fin N) :
    broadcastInDim ⟨2, ![M, N]⟩ (![0, 1] : Fin 2 → Fin 2) h2 (broadcastInDim ⟨2, ![1, N]⟩ (![1] : Fin 1 → Fin 2) h1 v) (ix2 r i)
      = v (ix1 i) :=
  (row_apply h2 _ r i).trans (lead_apply h1 v 0 i)

end Broadcasts

/-- The host quotient read at an index. -/
theorem hostDivf_apply {s : Shape} {φ : FTy} (a c : FVec Ideal s φ) (j : s.Idx) : Host.divf a c j = Ideal.div (a j) (c j) := rfl

/-- The first of two alternatives is chosen at the one-bit word 1. -/
theorem select_one {β : Type} (a c : β) : Scalar.select 1#1 a c = a := rfl

/-- The host sum down the columns from a constant word, read at column `i`: the word plus the column's sum. -/
theorem reduce_cols_apply (X : FVec Ideal S4096x512 .f32) (w : BitVec 32) (i : Fin 512) :
    Host.reduceAdd X (constant (F := Ideal) S_ .f32 w) reducesTo_S4096x512_S512_d0 h_S_ (ix1 i)
      = Ideal.ofBits .f32 w + ∑ k : Fin 4096, X (ix2 k i) := by
  have hR : S4096x512.Reduces [0] S512 := by decide
  refine (Ideal.hostReduceAdd_single reducesTo_S4096x512_S512_d0 hR X _ (ix1 i)).trans ?_
  exact congrArg (Ideal.ofBits .f32 w + ·) (Finset.sum_congr rfl fun k _ => congrArg X (reduces_cols_lift hR i k))

/-- The matrix less its column means (each the column's sum from a word, over a word, computed as one row and repeated
    down the rows), read at (k, i). -/
theorem centred_apply (X : FVec Ideal S4096x512 .f32) (w0 w1 : BitVec 32)
    (h2 : S1x512.BroadcastsInDim S4096x512 (![0, 1] : Fin S1x512.rank → Fin S4096x512.rank))
    (h1 : S512.BroadcastsInDim S1x512 (![1] : Fin S512.rank → Fin S1x512.rank))
    (h0 : S_.BroadcastsInDim S1x512 (![] : Fin S_.rank → Fin S1x512.rank)) (k : Fin 4096) (i : Fin 512) :
    subf X (broadcastInDim S4096x512 ![0, 1] h2
        (Host.divf (broadcastInDim S1x512 ![1] h1 (Host.reduceAdd X (constant (F := Ideal) S_ .f32 w0) reducesTo_S4096x512_S512_d0 h_S_))
          (broadcastInDim S1x512 ![] h0 (constant (F := Ideal) S_ .f32 w1)))) (ix2 k i)
      = X (ix2 k i) - Ideal.div (Ideal.ofBits .f32 w0 + ∑ k' : Fin 4096, X (ix2 k' i)) (Ideal.ofBits .f32 w1) := by
  rw [subf_apply, row_apply, hostDivf_apply, lead_apply, reduce_cols_apply]
  rfl

/-- The column sum of the squared centred entries. -/
theorem sumsq_apply (X : FVec Ideal S4096x512 .f32) (w0 w1 : BitVec 32)
    (h2 : S1x512.BroadcastsInDim S4096x512 (![0, 1] : Fin S1x512.rank → Fin S4096x512.rank))
    (h1 : S512.BroadcastsInDim S1x512 (![1] : Fin S512.rank → Fin S1x512.rank))
    (h0 : S_.BroadcastsInDim S1x512 (![] : Fin S_.rank → Fin S1x512.rank)) (i : Fin 512) :
    ∑ k : Fin 4096, mulf (subf X (broadcastInDim S4096x512 ![0, 1] h2
        (Host.divf (broadcastInDim S1x512 ![1] h1 (Host.reduceAdd X (constant (F := Ideal) S_ .f32 w0) reducesTo_S4096x512_S512_d0 h_S_))
          (broadcastInDim S1x512 ![] h0 (constant (F := Ideal) S_ .f32 w1)))))
        (subf X (broadcastInDim S4096x512 ![0, 1] h2
        (Host.divf (broadcastInDim S1x512 ![1] h1 (Host.reduceAdd X (constant (F := Ideal) S_ .f32 w0) reducesTo_S4096x512_S512_d0 h_S_))
          (broadcastInDim S1x512 ![] h0 (constant (F := Ideal) S_ .f32 w1))))) (ix2 k i)
      = ∑ k : Fin 4096, (X (ix2 k i) - Ideal.div (Ideal.ofBits .f32 w0 + ∑ k' : Fin 4096, X (ix2 k' i)) (Ideal.ofBits .f32 w1))
          * (X (ix2 k i) - Ideal.div (Ideal.ofBits .f32 w0 + ∑ k' : Fin 4096, X (ix2 k' i)) (Ideal.ofBits .f32 w1)) :=
  Finset.sum_congr rfl fun k _ => by rw [mulf_apply, centred_apply]

/-- The variance's divisor as the program computes it, the word of 4096 less the integer zero made a float, is 4096. -/
theorem divisor_eq : (Ideal.ofBits .f32 0x45800000#32 - (((0#32 : BitVec 32).toInt : ℝ) : EReal)) = ((4096 : ℝ) : EReal) := by
  rw [Cert.BnConsts.ofBits_4096]
  simp

/-- Entry (r, i) of the reference's normalised matrix. -/
theorem refXn_apply (x : FVec Ideal S4096x512 .f32) (g b : FVec Ideal S512 .f32) (r : Fin 4096) (i : Fin 512) :
    RefRun.refXn (F := Ideal) x g b (ix2 r i)
      = (x (ix2 r i) - Ideal.div (Ideal.ofBits .f32 0x00000000#32 + ∑ k : Fin 4096, x (ix2 k i)) (Ideal.ofBits .f32 0x45800000#32))
          * Ideal.rsqrt
              (Ideal.div (Ideal.ofBits .f32 0x00000000#32
                    + ∑ k : Fin 4096, (x (ix2 k i) - Ideal.div (Ideal.ofBits .f32 0x00000000#32 + ∑ k' : Fin 4096, x (ix2 k' i)) (Ideal.ofBits .f32 0x45800000#32))
                        * (x (ix2 k i) - Ideal.div (Ideal.ofBits .f32 0x00000000#32 + ∑ k' : Fin 4096, x (ix2 k' i)) (Ideal.ofBits .f32 0x45800000#32)))
                  (Ideal.ofBits .f32 0x45800000#32 - (((0#32 : BitVec 32).toInt : ℝ) : EReal))
                + Ideal.ofBits .f32 0x3727C5AC#32)
        * g (ix1 i) + b (ix1 i) := by
  unfold RefRun.refXn
  rw [addf_apply, mulf_apply, mulf_apply, subf_apply, rows_apply, rows_apply, rows_apply, rows_apply]
  show (x (ix2 r i) - Ideal.div (Host.reduceAdd x (constant (F := Ideal) S_ .f32 0x00000000#32) reducesTo_S4096x512_S512_d0 h_S_ (ix1 i))
            (Ideal.ofBits .f32 0x45800000#32))
        * Ideal.rsqrt
            (Scalar.select (Ideal.cmp .ogt (Ideal.ofBits .f32 0x45800000#32 - (((0#32 : BitVec 32).toInt : ℝ) : EReal)) (Ideal.ofBits .f32 0x00000000#32))
                (Ideal.div (Host.reduceAdd _ (constant (F := Ideal) S_ .f32 0x00000000#32) reducesTo_S4096x512_S512_d0 h_S_ (ix1 i))
                  (Ideal.ofBits .f32 0x45800000#32 - (((0#32 : BitVec 32).toInt : ℝ) : EReal)))
                (Ideal.ofBits .f32 0x7FC00000#32)
              + Ideal.ofBits .f32 0x3727C5AC#32)
        * g (ix1 i) + b (ix1 i) = _
  rw [divisor_eq, Cert.BnAlgebra.divisor_pos, select_one, reduce_cols_apply, reduce_cols_apply]
  rw [sumsq_apply]

end Cert.ReferenceIdeal.RefTail

end
-- ==== Proof.LibFiniteEntry.lean ====
/-
  "|x| < +∞" on the extended reals means x is a real number.

  A precondition of the form "every entry is finite" compares max(x, −x) with the float word of +∞ (0x7F800000, which
  denotes ⊤). At x = ⊥ and at x = ⊤ that maximum is ⊤, and ⊤ < ⊤ fails; so where the comparison's bit is 1, x is the
  image of a real number.
-/
import Idealize.ShloMosaic.PureOps.Ideal

namespace Idealize.ShloMosaic.Ideal

/-- An extended real whose absolute value is below the float word of +∞ is a real number. -/
theorem real_of_abs_lt_inf (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => exfalso; simp [Ideal.cmp] at h
  | coe r => exact ⟨r, rfl⟩
  | top => exfalso; simp [Ideal.cmp] at h

end Idealize.ShloMosaic.Ideal
-- ==== Proof.Finite.lean ====
/-
  What the precondition says of the three float inputs the normalisation's algebra needs. "Every float input is
  finite" is a conjunction, one conjunct per float array, each "all entries satisfy |x| < +∞"; read back at an index,
  the conjuncts for the table, the scale vector and the shift vector say every entry of each is a real number.
-/
import proofs.«116118_j3607772528806_2_alg».proof.Pre_finite_inputs
import proofs.«116118_j3607772528806_2_alg».proof.Proof.LibFiniteEntry
import Idealize.ShloMosaic.Lib.ReduceAll
import Idealize.ShloMosaic.Lib.ValueIdx

noncomputable section

namespace Cert.Pre_finite_inputs.Finite

open Idealize.ShloMosaic Idealize.ShloMosaic.ValueIdx Cert.Pre_finite_inputs

instance : Subsingleton S_.Idx := ⟨fun _ _ => funext fun d => d.elim0⟩

variable [Facts]

/-- One conjunct read at an index: where "all |x| < +∞" holds, every entry is a real number. -/
theorem entry_real {s : Shape} (x : FVec Ideal s .f32) (hb : S_.BroadcastsInDim s (![] : Fin 0 → Fin s.rank))
    {axes : List (Fin s.rank)} (hr : s.ReducesTo axes S_) (hu : 0 < S_.numel)
    (h : Host.reduce IntOp.andi (cmpf .olt (Host.absf x) (broadcastInDim s ![] hb (constant (F := Ideal) S_ .f32 0x7F800000#32)))
          (constantI S_ 1 1#1) hr hu ix0 = 1#1) (i : s.Idx) : ∃ r : ℝ, x i = (r : EReal) :=
  Ideal.real_of_abs_lt_inf (x i) (Host.reduce_andi_all _ _ hr hu ix0 h i)

/-- Under the precondition the table, the scale vector and the shift vector hold real numbers only. -/
theorem reals_of_pre (a0 : IVec S4096x32x20 32) (a1 : FVec Ideal S1000000x16 .f32) (a2 a3 : FVec Ideal S512 .f32)
    (a4 : FVec Ideal S512x1024 .f32) (a5 : FVec Ideal S1024 .f32) (a6 : FVec Ideal S1024x512 .f32) (a7 : FVec Ideal S512 .f32)
    (a8 : FVec Ideal S512x256 .f32) (a9 : FVec Ideal S256 .f32)
    (h : fn (F := Ideal) a0 a1 a2 a3 a4 a5 a6 a7 a8 a9 = fun _ => 1#1) :
    (∀ i, ∃ r : ℝ, a1 i = (r : EReal)) ∧ (∀ i, ∃ r : ℝ, a2 i = (r : EReal)) ∧ (∀ i, ∃ r : ℝ, a3 i = (r : EReal)) := by
  have h0 := congrFun h ix0
  dsimp only [fn, fn_part1, fn_part2] at h0
  obtain ⟨h38, -⟩ := IntOp.andi_eq_one.1 h0
  obtain ⟨h33, -⟩ := IntOp.andi_eq_one.1 h38
  obtain ⟨h28, -⟩ := IntOp.andi_eq_one.1 h33
  obtain ⟨h23, -⟩ := IntOp.andi_eq_one.1 h28
  obtain ⟨h18, -⟩ := IntOp.andi_eq_one.1 h23
  obtain ⟨h13, -⟩ := IntOp.andi_eq_one.1 h18
  obtain ⟨h8, h12⟩ := IntOp.andi_eq_one.1 h13
  obtain ⟨h3, h7⟩ := IntOp.andi_eq_one.1 h8
  exact ⟨entry_real a1 _ _ _ h3, entry_real a2 _ _ _ h7, entry_real a3 _ _ _ h12⟩

end Cert.Pre_finite_inputs.Finite

end
-- ==== Proof.Bridge.lean ====
/-
  The two programs compute one array.

  Both end in the same three dense layers, applied to a normalised copy of the pooled embedding x. x itself is the same
  array on both sides (a sum of table rows, grouped differently). The normalisations differ in form — one folds
  scale and shift from Σx and Σx², the other centres first — and agree because, under the precondition, the table, the
  scale vector and the shift vector hold real numbers only, so x does too, and over the real numbers the two forms are
  one expression.
-/
import proofs.«116118_j3607772528806_2_alg».proof.Defs
import proofs.«116118_j3607772528806_2_alg».proof.Proof.KRun
import proofs.«116118_j3607772528806_2_alg».proof.Proof.KResult
import proofs.«116118_j3607772528806_2_alg».proof.Proof.KBn
import proofs.«116118_j3607772528806_2_alg».proof.Proof.KernelX
import proofs.«116118_j3607772528806_2_alg».proof.Proof.RefRun
import proofs.«116118_j3607772528806_2_alg».proof.Proof.RefTail
import proofs.«116118_j3607772528806_2_alg».proof.Proof.RefX
import proofs.«116118_j3607772528806_2_alg».proof.Proof.RefXn
import proofs.«116118_j3607772528806_2_alg».proof.Proof.Finite
import proofs.«116118_j3607772528806_2_alg».proof.Proof.Pooled
import proofs.«116118_j3607772528806_2_alg».proof.Proof.BnAlgebra

noncomputable section

open scoped BigOperators

namespace Cert.Proof.Bridge

open Idealize.ShloMosaic Idealize.ShloMosaic.TcCoe Idealize.ShloMosaic.ValueIdx Idealize.SL.Sem
open Cert.KernelIdeal.StatsValue Cert.KernelIdeal.Glue

/-- Every entry of the flattened pooled embedding of a real table is a real number: flattening only re-indexes. -/
theorem flat_real (idx : (⟨3, ![4096, 32, 20]⟩ : Shape).Idx → BitVec 32) (T : (⟨2, ![1000000, 16]⟩ : Shape).Idx → ℝ)
    (h : (⟨3, ![4096, 32, 16]⟩ : Shape).ShapeCasts ⟨2, ![4096, 512]⟩) (i : (⟨2, ![4096, 512]⟩ : Shape).Idx) :
    ∃ x : ℝ, shapeCast ⟨2, ![4096, 512]⟩ (Cert.Pooled.pooled idx (fun k => ((T k : ℝ) : EReal))) h i = (x : EReal) := by
  unfold shapeCast
  exact Cert.Pooled.pooled_real idx T _

/-- On an array of real numbers, with real scale and shift vectors, the accumulated and the centred normalisation are
    the same array. -/
theorem normalised_eq (X : FVec Ideal ⟨2, ![4096, 512]⟩ .f32) (g b : FVec Ideal ⟨1, ![512]⟩ .f32)
    (hX : ∀ i, ∃ x : ℝ, X i = (x : EReal)) (hg : ∀ i, ∃ r : ℝ, g i = (r : EReal)) (hb : ∀ i, ∃ r : ℝ, b i = (r : EReal)) :
    Cert.Dense3.affineCols X (scaleK (colSum X) (colSumSq X) g) (shiftK (colSum X) (colSumSq X) g b)
      = Cert.ReferenceIdeal.RefRun.refXn (F := Ideal) X g b := by
  choose xr hxr using hX
  choose gr hgr using hg
  choose br hbr using hb
  funext j
  obtain ⟨r, i, rfl⟩ : ∃ (r : Fin 4096) (i : Fin 512), j = ix2 r i := ⟨j 0, j 1, eq_ix2 j⟩
  rw [affine_entry X g b (fun r i => xr (ix2 r i)) (fun i => gr (ix1 i)) (fun i => br (ix1 i))
    (fun r i => hxr _) (fun i => hgr _) (fun i => hbr _) r i]
  rw [Cert.ReferenceIdeal.RefTail.refXn_apply X g b r i]
  simp only [hxr, hgr, hbr]
  exact (Cert.BnAlgebra.reference_form (fun k => xr (ix2 k i)) (gr (ix1 i)) (br (ix1 i)) r _ _ rfl
    Cert.ReferenceIdeal.RefTail.divisor_eq).symm

/-- Under the precondition the kernel program's result is the reference program's term of the same arguments. -/
theorem kernel_eq_reference (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) = fun _ => 1#1) :
    Cert.KernelIdeal.Gen.W4 m ρ c (Proc.devRef .tc Cert.KernelIdeal.main_v225)
      = Cert.ReferenceIdeal.RefRun.refTail (F := Ideal)
        (Cert.ReferenceIdeal.RefRun.refXn (F := Ideal) (Cert.ReferenceIdeal.RefRun.refX (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  obtain ⟨hT, hG, hB⟩ := Cert.Pre_finite_inputs.Finite.reals_of_pre _ _ _ _ _ _ _ _ _ _ hpre
  choose T hT' using hT
  have htbl : (m ((c.tc : Thread Cert.KernelIdeal.nD Cert.KernelIdeal.τ).loc Cert.KernelIdeal.main_arg1)) = fun k => ((T k : ℝ) : EReal) := funext hT'
  refine (kernel_result m ρ c).trans ?_
  rw [Cert.ReferenceIdeal.RefTail.refTail_eq, Cert.KernelIdeal.XValue.x_entry, Cert.ReferenceIdeal.RefXValue.refX_eq]
  rw [normalised_eq _ _ _ (fun i => by
    show ∃ x : ℝ, shapeCast _ (Cert.Pooled.pooled _ (m ((c.tc : Thread Cert.KernelIdeal.nD Cert.KernelIdeal.τ).loc Cert.KernelIdeal.main_arg1))) _ i = (x : EReal)
    rw [htbl]; exact flat_real _ T _ i) hG hB]

/-- The two idealized programs, from memories agreeing on the arguments, end with equal results. -/
theorem algebraic : Cert.algebraic_KernelIdeal_ReferenceIdeal := by
  intro m ρ m' ρ' hpre hagree
  refine ⟨fun c => Cert.ReferenceIdeal.RefRun.refTail (F := Ideal)
        (Cert.ReferenceIdeal.RefRun.refXn (F := Ideal) (Cert.ReferenceIdeal.RefRun.refX (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run (Cert.KernelIdeal.defs (F := Ideal)) _ _).mono
      (fun r h c => ⟨(h c).1.trans (kernel_eq_reference m ρ c (hpre c)), (h c).2⟩) (Cert.KernelIdeal.Run.run_main m ρ)
  · refine (θ_run (Cert.ReferenceIdeal.defs (F := Ideal)) _ _).mono (fun r h c => ⟨(h c).1.trans ?_, (h c).2⟩)
      (Cert.ReferenceIdeal.RefRun.run (F := Ideal) m' ρ')
    obtain ⟨h0, h1, h2, h3, h4, h5, h6, h7, h8, h9⟩ := hagree c
    rw [h0, h1, h2, h3, h4, h5, h6, h7, h8, h9]

end Cert.Proof.Bridge

end
-- ==== Proof.lean ====
/-
  The certificate: a recommender's dense tower — pooled embedding lookups, batch normalisation over the batch, three
  dense layers — as a tiled two-kernel program against its plain array form, equal over the extended reals.

  The three frames: the two printed kernel programs' runs are the generated frame proofs; the reference has no kernel,
  and its frame is its run with the result dropped. The idealization rewrote no operation, so the preservation claim
  is trivial. The algebraic claim is Proof/Bridge.lean: the pooled embedding is one array on both sides, the two
  normalisations agree on real numbers (which the precondition provides), and the dense layers are one function.
-/
import proofs.«116118_j3607772528806_2_alg».proof.Defs
import proofs.«116118_j3607772528806_2_alg».proof.Proof.Gen.Kernel
import proofs.«116118_j3607772528806_2_alg».proof.Proof.Gen.Kernel.Skeleton
import proofs.«116118_j3607772528806_2_alg».proof.Proof.Gen.Kernel.Launch
import proofs.«116118_j3607772528806_2_alg».proof.Proof.Gen.Kernel.Points
import proofs.«116118_j3607772528806_2_alg».proof.Proof.Gen.Kernel.Frame
import proofs.«116118_j3607772528806_2_alg».proof.Proof.Gen.KernelIdeal
import proofs.«116118_j3607772528806_2_alg».proof.Proof.Gen.KernelIdeal.Skeleton
import proofs.«116118_j3607772528806_2_alg».proof.Proof.Gen.KernelIdeal.Launch
import proofs.«116118_j3607772528806_2_alg».proof.Proof.Gen.KernelIdeal.Points
import proofs.«116118_j3607772528806_2_alg».proof.Proof.Gen.KernelIdeal.Frame
import proofs.«116118_j3607772528806_2_alg».proof.Proof.Gen.ReferenceIdeal
import proofs.«116118_j3607772528806_2_alg».proof.Proof.Gen.Pre_finite_inputs
import proofs.«116118_j3607772528806_2_alg».proof.Proof.Bridge
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    Cert.ReferenceIdeal.RefRun.frame_ri,
    trivial,
    Cert.Proof.Bridge.algebraic⟩

end Cert.Proof

end
